-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S64x1024 : Shape := ⟨2, ![64, 1024]⟩
abbrev S630x64 : Shape := ⟨2, ![630, 64]⟩
abbrev S31x64 : Shape := ⟨2, ![31, 64]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S630x64 : S_.BroadcastsInDim S630x64 (![] : Fin 0 → Fin S630x64.rank)
  reducesTo_S630x64_S_d0_1 : S630x64.ReducesTo [0, 1] S_
  bcast_S_S31x64 : S_.BroadcastsInDim S31x64 (![] : Fin 0 → Fin S31x64.rank)
  reducesTo_S31x64_S_d0_1 : S31x64.ReducesTo [0, 1] S_

variable [Facts]

def fn_part1 {F : FTy → Type} [FloatOps F] (main_arg4 : FVec F S31x64 .f32) (main_v13 : IVec S_ 1) (main_v16 : IVec S630x64 1) : IVec S_ 1 :=
  let main_c_5 : IVec S_ 1 := constantI S_ 1 1#1
  let main_v17 : IVec S_ 1 := (fun x v => Host.reduce IntOp.andi x v reducesTo_S630x64_S_d0_1 h_S_) main_v16 main_c_5
  let main_v18 : IVec S_ 1 := andi main_v13 main_v17
  let main_v19 : FVec F S31x64 .f32 := Host.absf main_arg4
  let main_cst_6 : FVec F S_ .f32 := constant S_ .f32 0x7F800000#32
  let main_v20 : FVec F S31x64 .f32 := broadcastInDim S31x64 ![] bcast_S_S31x64 main_cst_6
  let main_v21 : IVec S31x64 1 := cmpf .olt main_v19 main_v20
  let main_c_7 : IVec S_ 1 := constantI S_ 1 1#1
  let main_v22 : IVec S_ 1 := (fun x v => Host.reduce IntOp.andi x v reducesTo_S31x64_S_d0_1 h_S_) main_v21 main_c_7
  let main_v23 : IVec S_ 1 := andi main_v18 main_v22
  main_v23

def fn {F : FTy → Type} [FloatOps F] (main_arg0 : FVec F S65536x1024 .f32) (main_arg1 : FVec F S64x1024 .f32) (main_arg2 : FVec F S630x64 .f32) (main_arg3 : FVec F S630x64 .f32) (main_arg4 : FVec F S31x64 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S630x64 .f32 := Host.absf main_arg2
  let main_cst_2 : FVec F S_ .f32 := constant S_ .f32 0x7F800000#32
  let main_v10 : FVec F S630x64 .f32 := broadcastInDim S630x64 ![] bcast_S_S630x64 main_cst_2
  let main_v11 : IVec S630x64 1 := cmpf .olt main_v9 main_v10
  let main_c_3 : IVec S_ 1 := constantI S_ 1 1#1
  let main_v12 : IVec S_ 1 := (fun x v => Host.reduce IntOp.andi x v reducesTo_S630x64_S_d0_1 h_S_) main_v11 main_c_3
  let main_v13 : IVec S_ 1 := andi main_v8 main_v12
  let main_v14 : FVec F S630x64 .f32 := Host.absf main_arg3
  let main_cst_4 : FVec F S_ .f32 := constant S_ .f32 0x7F800000#32
  let main_v15 : FVec F S630x64 .f32 := broadcastInDim S630x64 ![] bcast_S_S630x64 main_cst_4
  let main_v16 : IVec S630x64 1 := cmpf .olt main_v14 main_v15
  fn_part1 (F := F) main_arg4 main_v13 main_v16
-- ==== Kernel.lean ====
abbrev S65536x1024 : Shape := ⟨2, ![65536, 1024]⟩
abbrev S64x1024 : Shape := ⟨2, ![64, 1024]⟩
abbrev S630x64 : Shape := ⟨2, ![630, 64]⟩
abbrev S31x64 : Shape := ⟨2, ![31, 64]⟩
abbrev S63x10x64 : Shape := ⟨3, ![63, 10, 64]⟩
abbrev S10x63x64 : Shape := ⟨3, ![10, 63, 64]⟩
abbrev S31x1024 : Shape := ⟨2, ![31, 1024]⟩
abbrev S10x65536 : Shape := ⟨2, ![10, 65536]⟩
abbrev S1024x1024 : Shape := ⟨2, ![1024, 1024]⟩
abbrev S10x1024 : Shape := ⟨2, ![10, 1024]⟩
abbrev S1x1024 : Shape := ⟨2, ![1, 1024]⟩
abbrev S1x1x1024 : Shape := ⟨3, ![1, 1, 1024]⟩
abbrev S1x2x1024 : Shape := ⟨3, ![1, 2, 1024]⟩
abbrev S2x1024 : Shape := ⟨2, ![2, 1024]⟩
abbrev S2x1x1024 : Shape := ⟨3, ![2, 1, 1024]⟩
abbrev S2x2x1024 : Shape := ⟨3, ![2, 2, 1024]⟩
abbrev S4x1024 : Shape := ⟨2, ![4, 1024]⟩
abbrev S4x1x1024 : Shape := ⟨3, ![4, 1, 1024]⟩
abbrev S4x2x1024 : Shape := ⟨3, ![4, 2, 1024]⟩
abbrev S8x1024 : Shape := ⟨2, ![8, 1024]⟩
abbrev S8x1x1024 : Shape := ⟨3, ![8, 1, 1024]⟩
abbrev S8x2x1024 : Shape := ⟨3, ![8, 2, 1024]⟩
abbrev S16x1024 : Shape := ⟨2, ![16, 1024]⟩
abbrev S16x1x1024 : Shape := ⟨3, ![16, 1, 1024]⟩
abbrev S16x2x1024 : Shape := ⟨3, ![16, 2, 1024]⟩
abbrev S32x1024 : Shape := ⟨2, ![32, 1024]⟩
abbrev S63x1024 : Shape := ⟨2, ![63, 1024]⟩
abbrev S630x1024 : Shape := ⟨2, ![630, 1024]⟩
abbrev S1024 : Shape := ⟨1, ![1024]⟩

abbrev nBuf : Space → Nat
  | .hbm => 13
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S64x1024, .f32⟩
  | .hbm, ⟨2, _⟩ => ⟨S630x64, .f32⟩
  | .hbm, ⟨3, _⟩ => ⟨S630x64, .f32⟩
  | .hbm, ⟨4, _⟩ => ⟨S31x64, .f32⟩
  | .hbm, ⟨5, _⟩ => ⟨S63x10x64, .f32⟩
  | .hbm, ⟨6, _⟩ => ⟨S10x63x64, .f32⟩
  | .hbm, ⟨7, _⟩ => ⟨S630x64, .f32⟩
  | .hbm, ⟨8, _⟩ => ⟨S63x10x64, .f32⟩
  | .hbm, ⟨9, _⟩ => ⟨S10x63x64, .f32⟩
  | .hbm, ⟨10, _⟩ => ⟨S630x64, .f32⟩
  | .hbm, ⟨11, _⟩ => ⟨S31x1024, .f32⟩
  | .hbm, ⟨12, _⟩ => ⟨S10x65536, .f32⟩
  | .local _ .vmem, ⟨0, _⟩ => ⟨S1024x1024, .f32⟩
  | .local _ .vmem, ⟨1, _⟩ => ⟨S1024x1024, .f32⟩
  | .local _ .vmem, ⟨2, _⟩ => ⟨S64x1024, .f32⟩
  | .local _ .vmem, ⟨3, _⟩ => ⟨S31x1024, .f32⟩
  | .local _ .vmem, ⟨4, _⟩ => ⟨S630x64, .f32⟩
  | .local _ .vmem, ⟨5, _⟩ => ⟨S630x64, .f32⟩
  | .local _ .vmem, ⟨6, _⟩ => ⟨S10x1024, .f32⟩
  | .local _ .vmem, ⟨7, _⟩ => ⟨S10x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S31x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S630x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S630x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S630x64_S63x10x64 : S630x64.ShapeCasts S63x10x64
  transposes_S63x10x64_S10x63x64_1_0_2 : S63x10x64.Transposes [1, 0, 2] S10x63x64
  shapeCasts_S10x63x64_S630x64 : S10x63x64.ShapeCasts S630x64
  inb_S31x1024_S31x1024_0_0 : ∀ a, (![0, 0] : Fin 2 → Nat) a + S31x1024.size a ≤ S31x1024.size a
  h_S31x1024 : 0 < S31x1024.numel
  shapeCasts_S31x1024_S31x1024 : S31x1024.ShapeCasts S31x1024
  inb_S1024x1024_S1024x1024_0_0 : ∀ a, (![0, 0] : Fin 2 → Nat) a + S1024x1024.size a ≤ S1024x1024.size a
  h_S1024x1024 : 0 < S1024x1024.numel
  slices_S31x1024_o0_0_S1x1024 : S31x1024.Slices ![0, 0] S1x1024
  shapeCasts_S1x1024_S1x1x1024 : S1x1024.ShapeCasts S1x1x1024
  concatenates_S1x1x1024_S1x1x1024_S1x2x1024_d1 : Shape.Concatenates [S1x1x1024, S1x1x1024] S1x2x1024 1
  shapeCasts_S1x2x1024_S2x1024 : S1x2x1024.ShapeCasts S2x1024
  slices_S31x1024_o1_0_S2x1024 : S31x1024.Slices ![1, 0] S2x1024
  shapeCasts_S2x1024_S2x1x1024 : S2x1024.ShapeCasts S2x1x1024
  concatenates_S2x1x1024_S2x1x1024_S2x2x1024_d1 : Shape.Concatenates [S2x1x1024, S2x1x1024] S2x2x1024 1
  shapeCasts_S2x2x1024_S4x1024 : S2x2x1024.ShapeCasts S4x1024
  slices_S31x1024_o3_0_S4x1024 : S31x1024.Slices ![3, 0] S4x1024
  shapeCasts_S4x1024_S4x1x1024 : S4x1024.ShapeCasts S4x1x1024
  concatenates_S4x1x1024_S4x1x1024_S4x2x1024_d1 : Shape.Concatenates [S4x1x1024, S4x1x1024] S4x2x1024 1
  shapeCasts_S4x2x1024_S8x1024 : S4x2x1024.ShapeCasts S8x1024
  slices_S31x1024_o7_0_S8x1024 : S31x1024.Slices ![7, 0] S8x1024
  shapeCasts_S8x1024_S8x1x1024 : S8x1024.ShapeCasts S8x1x1024
  concatenates_S8x1x1024_S8x1x1024_S8x2x1024_d1 : Shape.Concatenates [S8x1x1024, S8x1x1024] S8x2x1024 1
  shapeCasts_S8x2x1024_S16x1024 : S8x2x1024.ShapeCasts S16x1024
  slices_S31x1024_o15_0_S16x1024 : S31x1024.Slices ![15, 0] S16x1024
  shapeCasts_S16x1024_S16x1x1024 : S16x1024.ShapeCasts S16x1x1024
  concatenates_S16x1x1024_S16x1x1024_S16x2x1024_d1 : Shape.Concatenates [S16x1x1024, S16x1x1024] S16x2x1024 1
  shapeCasts_S16x2x1024_S32x1024 : S16x2x1024.ShapeCasts S32x1024
  concatenates_S1x1024_S2x1024_S4x1024_S8x1024_S16x1024_S32x1024_S63x1024_d0 : Shape.Concatenates [S1x1024, S2x1024, S4x1024, S8x1024, S16x1024, S32x1024] S63x1024 0
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  inb_S630x64_S630x64_0_0 : ∀ a, (![0, 0] : Fin 2 → Nat) a + S630x64.size a ≤ S630x64.size a
  h_S630x64 : 0 < S630x64.numel
  shapeCasts_S630x64_S630x64 : S630x64.ShapeCasts S630x64
  slices_S630x1024_o0_0_S63x1024 : S630x1024.Slices ![0, 0] S63x1024
  reduces_S63x1024_S1024 : S63x1024.Reduces [0] S1024
  shapeCasts_S1024_S1x1024 : S1024.ShapeCasts S1x1024
  inb_S10x1024_S1x1024_0_0 : ∀ a, (![0, 0] : Fin 2 → Nat) a + S1x1024.size a ≤ S10x1024.size a
  h_S1x1024 : 0 < S1x1024.numel
  slices_S630x1024_o63_0_S63x1024 : S630x1024.Slices ![63, 0] S63x1024
  inb_S10x1024_S1x1024_1_0 : ∀ a, (![1, 0] : Fin 2 → Nat) a + S1x1024.size a ≤ S10x1024.size a
  slices_S630x1024_o126_0_S63x1024 : S630x1024.Slices ![126, 0] S63x1024
  inb_S10x1024_S1x1024_2_0 : ∀ a, (![2, 0] : Fin 2 → Nat) a + S1x1024.size a ≤ S10x1024.size a
  slices_S630x1024_o189_0_S63x1024 : S630x1024.Slices ![189, 0] S63x1024
  inb_S10x1024_S1x1024_3_0 : ∀ a, (![3, 0] : Fin 2 → Nat) a + S1x1024.size a ≤ S10x1024.size a
  slices_S630x1024_o252_0_S63x1024 : S630x1024.Slices ![252, 0] S63x1024
  inb_S10x1024_S1x1024_4_0 : ∀ a, (![4, 0] : Fin 2 → Nat) a + S1x1024.size a ≤ S10x1024.size a
  slices_S630x1024_o315_0_S63x1024 : S630x1024.Slices ![315, 0] S63x1024
  inb_S10x1024_S1x1024_5_0 : ∀ a, (![5, 0] : Fin 2 → Nat) a + S1x1024.size a ≤ S10x1024.size a
  slices_S630x1024_o378_0_S63x1024 : S630x1024.Slices ![378, 0] S63x1024
  inb_S10x1024_S1x1024_6_0 : ∀ a, (![6, 0] : Fin 2 → Nat) a + S1x1024.size a ≤ S10x1024.size a
  slices_S630x1024_o441_0_S63x1024 : S630x1024.Slices ![441, 0] S63x1024
  inb_S10x1024_S1x1024_7_0 : ∀ a, (![7, 0] : Fin 2 → Nat) a + S1x1024.size a ≤ S10x1024.size a
  slices_S630x1024_o504_0_S63x1024 : S630x1024.Slices ![504, 0] S63x1024
  inb_S10x1024_S1x1024_8_0 : ∀ a, (![8, 0] : Fin 2 → Nat) a + S1x1024.size a ≤ S10x1024.size a
  slices_S630x1024_o567_0_S63x1024 : S630x1024.Slices ![567, 0] S63x1024
  inb_S10x1024_S1x1024_9_0 : ∀ a, (![9, 0] : Fin 2 → Nat) a + S1x1024.size a ≤ S10x1024.size a
  dot_S31x64_S64x1024_S31x1024_1_0_0_1_n_n_wf : DotDims.WF S31x64 S64x1024 S31x1024 [1] [0] [0] [1] [] []
  dot_S31x1024_S1024x1024_S31x1024_1_1_0_0_n_n_wf : DotDims.WF S31x1024 S1024x1024 S31x1024 [1] [1] [0] [0] [] []
  dot_S64x1024_S1024x1024_S64x1024_1_1_0_0_n_n_wf : DotDims.WF S64x1024 S1024x1024 S64x1024 [1] [1] [0] [0] [] []
  dot_S630x64_S64x1024_S630x1024_1_0_0_1_n_n_wf : DotDims.WF S630x64 S64x1024 S630x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S31x1024.size a ≤ S31x1024.size a
  hwx0_2 : ∀ i : grid0.Coords, EltTy.bits .f32 = 32 ∨ (Rect.block (s := S31x1024) S31x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S630x64.size a ≤ S630x64.size a
  hwx0_3 : ∀ i : grid0.Coords, EltTy.bits .f32 = 32 ∨ (Rect.block (s := S630x64) S630x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S630x64.size a ≤ S630x64.size a
  hwx0_4 : ∀ i : grid0.Coords, EltTy.bits .f32 = 32 ∨ (Rect.block (s := S630x64) S630x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10x1024.size a ≤ S10x65536.size a
  hwx0_5 : ∀ i : grid0.Coords, EltTy.bits .f32 = 32 ∨ (Rect.block (s := S10x65536) S10x1024.size (cc0_transform_5 i) (hinb0_5 i)).WholeWords (EltTy.packing .f32)

variable [Facts₀]

def dot_S31x64_S64x1024_S31x1024_1_0_0_1_n_n : DotDims S31x64 S64x1024 S31x1024 where
  lhsContracting := [1]
  rhsContracting := [0]
  lhsNonContracting := [0]
  rhsNonContracting := [1]
  lhsBatch := []
  rhsBatch := []
  wf := dot_S31x64_S64x1024_S31x1024_1_0_0_1_n_n_wf
def dot_S31x1024_S1024x1024_S31x1024_1_1_0_0_n_n : DotDims S31x1024 S1024x1024 S31x1024 where
  lhsContracting := [1]
  rhsContracting := [1]
  lhsNonContracting := [0]
  rhsNonContracting := [0]
  lhsBatch := []
  rhsBatch := []
  wf := dot_S31x1024_S1024x1024_S31x1024_1_1_0_0_n_n_wf
def dot_S64x1024_S1024x1024_S64x1024_1_1_0_0_n_n : DotDims S64x1024 S1024x1024 S64x1024 where
  lhsContracting := [1]
  rhsContracting := [1]
  lhsNonContracting := [0]
  rhsNonContracting := [0]
  lhsBatch := []
  rhsBatch := []
  wf := dot_S64x1024_S1024x1024_S64x1024_1_1_0_0_n_n_wf
def dot_S630x64_S64x1024_S630x1024_1_0_0_1_n_n : DotDims S630x64 S64x1024 S630x1024 where
  lhsContracting := [1]
  rhsContracting := [0]
  lhsNonContracting := [0]
  rhsNonContracting := [1]
  lhsBatch := []
  rhsBatch := []
  wf := dot_S630x64_S64x1024_S630x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S31x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S630x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S630x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S10x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S64x1024 : Shape := ⟨2, ![64, 1024]⟩
abbrev S630x64 : Shape := ⟨2, ![630, 64]⟩
abbrev S31x64 : Shape := ⟨2, ![31, 64]⟩
abbrev S1024x65536 : Shape := ⟨2, ![1024, 65536]⟩
abbrev S64x65536 : Shape := ⟨2, ![64, 65536]⟩
abbrev S_ : Shape := ⟨0, ![]⟩
abbrev S31x65536 : Shape := ⟨2, ![31, 65536]⟩
abbrev S1x65536 : Shape := ⟨2, ![1, 65536]⟩
abbrev S1x1x65536 : Shape := ⟨3, ![1, 1, 65536]⟩
abbrev S1x2x65536 : Shape := ⟨3, ![1, 2, 65536]⟩
abbrev S2x65536 : Shape := ⟨2, ![2, 65536]⟩
abbrev S2x1x65536 : Shape := ⟨3, ![2, 1, 65536]⟩
abbrev S2x2x65536 : Shape := ⟨3, ![2, 2, 65536]⟩
abbrev S4x65536 : Shape := ⟨2, ![4, 65536]⟩
abbrev S4x1x65536 : Shape := ⟨3, ![4, 1, 65536]⟩
abbrev S4x2x65536 : Shape := ⟨3, ![4, 2, 65536]⟩
abbrev S8x65536 : Shape := ⟨2, ![8, 65536]⟩
abbrev S8x1x65536 : Shape := ⟨3, ![8, 1, 65536]⟩
abbrev S8x2x65536 : Shape := ⟨3, ![8, 2, 65536]⟩
abbrev S16x65536 : Shape := ⟨2, ![16, 65536]⟩
abbrev S16x1x65536 : Shape := ⟨3, ![16, 1, 65536]⟩
abbrev S16x2x65536 : Shape := ⟨3, ![16, 2, 65536]⟩
abbrev S32x65536 : Shape := ⟨2, ![32, 65536]⟩
abbrev S63x65536 : Shape := ⟨2, ![63, 65536]⟩
abbrev S63x10x64 : Shape := ⟨3, ![63, 10, 64]⟩
abbrev S63x10x65536 : Shape := ⟨3, ![63, 10, 65536]⟩
abbrev S63x1x65536 : Shape := ⟨3, ![63, 1, 65536]⟩
abbrev S10x65536 : Shape := ⟨2, ![10, 65536]⟩

abbrev nBuf : Space → Nat
  | .hbm => 127
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S64x1024, .f32⟩
  | .hbm, ⟨2, _⟩ => ⟨S630x64, .f32⟩
  | .hbm, ⟨3, _⟩ => ⟨S630x64, .f32⟩
  | .hbm, ⟨4, _⟩ => ⟨S31x64, .f32⟩
  | .hbm, ⟨5, _⟩ => ⟨S1024x65536, .f32⟩
  | .hbm, ⟨6, _⟩ => ⟨S64x65536, .f32⟩
  | .hbm, ⟨7, _⟩ => ⟨S_, .f32⟩
  | .hbm, ⟨8, _⟩ => ⟨S64x65536, .f32⟩
  | .hbm, ⟨9, _⟩ => ⟨S64x65536, .f32⟩
  | .hbm, ⟨10, _⟩ => ⟨S31x65536, .f32⟩
  | .hbm, ⟨11, _⟩ => ⟨S_, .f32⟩
  | .hbm, ⟨12, _⟩ => ⟨S31x65536, .f32⟩
  | .hbm, ⟨13, _⟩ => ⟨S31x65536, .f32⟩
  | .hbm, ⟨14, _⟩ => ⟨S31x65536, .f32⟩
  | .hbm, ⟨15, _⟩ => ⟨S_, .f32⟩
  | .hbm, ⟨16, _⟩ => ⟨S1x65536, .f32⟩
  | .hbm, ⟨17, _⟩ => ⟨S1x65536, .f32⟩
  | .hbm, ⟨18, _⟩ => ⟨S_, .f32⟩
  | .hbm, ⟨19, _⟩ => ⟨S1x65536, .f32⟩
  | .hbm, ⟨20, _⟩ => ⟨S1x65536, .f32⟩
  | .hbm, ⟨21, _⟩ => ⟨S1x65536, .f32⟩
  | .hbm, ⟨22, _⟩ => ⟨S_, .f32⟩
  | .hbm, ⟨23, _⟩ => ⟨S1x65536, .f32⟩
  | .hbm, ⟨24, _⟩ => ⟨S1x65536, .f32⟩
  | .hbm, ⟨25, _⟩ => ⟨S_, .f32⟩
  | .hbm, ⟨26, _⟩ => ⟨S1x65536, .f32⟩
  | .hbm, ⟨27, _⟩ => ⟨S1x65536, .f32⟩
  | .hbm, ⟨28, _⟩ => ⟨S1x65536, .f32⟩
  | .hbm, ⟨29, _⟩ => ⟨S_, .f32⟩
  | .hbm, ⟨30, _⟩ => ⟨S1x65536, .f32⟩
  | .hbm, ⟨31, _⟩ => ⟨S1x65536, .f32⟩
  | .hbm, ⟨32, _⟩ => ⟨S1x1x65536, .f32⟩
  | .hbm, ⟨33, _⟩ => ⟨S1x1x65536, .f32⟩
  | .hbm, ⟨34, _⟩ => ⟨S1x2x65536, .f32⟩
  | .hbm, ⟨35, _⟩ => ⟨S2x65536, .f32⟩
  | .hbm, ⟨36, _⟩ => ⟨S2x65536, .f32⟩
  | .hbm, ⟨37, _⟩ => ⟨S_, .f32⟩
  | .hbm, ⟨38, _⟩ => ⟨S2x65536, .f32⟩
  | .hbm, ⟨39, _⟩ => ⟨S2x65536, .f32⟩
  | .hbm, ⟨40, _⟩ => ⟨S2x65536, .f32⟩
  | .hbm, ⟨41, _⟩ => ⟨S_, .f32⟩
  | .hbm, ⟨42, _⟩ => ⟨S2x65536, .f32⟩
  | .hbm, ⟨43, _⟩ => ⟨S2x65536, .f32⟩
  | .hbm, ⟨44, _⟩ => ⟨S_, .f32⟩
  | .hbm, ⟨45, _⟩ => ⟨S2x65536, .f32⟩
  | .hbm, ⟨46, _⟩ => ⟨S2x65536, .f32⟩
  | .hbm, ⟨47, _⟩ => ⟨S2x65536, .f32⟩
  | .hbm, ⟨48, _⟩ => ⟨S_, .f32⟩
  | .hbm, ⟨49, _⟩ => ⟨S2x65536, .f32⟩
  | .hbm, ⟨50, _⟩ => ⟨S2x65536, .f32⟩
  | .hbm, ⟨51, _⟩ => ⟨S2x1x65536, .f32⟩
  | .hbm, ⟨52, _⟩ => ⟨S2x1x65536, .f32⟩
  | .hbm, ⟨53, _⟩ => ⟨S2x2x65536, .f32⟩
  | .hbm, ⟨54, _⟩ => ⟨S4x65536, .f32⟩
  | .hbm, ⟨55, _⟩ => ⟨S4x65536, .f32⟩
  | .hbm, ⟨56, _⟩ => ⟨S_, .f32⟩
  | .hbm, ⟨57, _⟩ => ⟨S4x65536, .f32⟩
  | .hbm, ⟨58, _⟩ => ⟨S4x65536, .f32⟩
  | .hbm, ⟨59, _⟩ => ⟨S4x65536, .f32⟩
  | .hbm, ⟨60, _⟩ => ⟨S_, .f32⟩
  | .hbm, ⟨61, _⟩ => ⟨S4x65536, .f32⟩
  | .hbm, ⟨62, _⟩ => ⟨S4x65536, .f32⟩
  | .hbm, ⟨63, _⟩ => ⟨S_, .f32⟩
  | .hbm, ⟨64, _⟩ => ⟨S4x65536, .f32⟩
  | .hbm, ⟨65, _⟩ => ⟨S4x65536, .f32⟩
  | .hbm, ⟨66, _⟩ => ⟨S4x65536, .f32⟩
  | .hbm, ⟨67, _⟩ => ⟨S_, .f32⟩
  | .hbm, ⟨68, _⟩ => ⟨S4x65536, .f32⟩
  | .hbm, ⟨69, _⟩ => ⟨S4x65536, .f32⟩
  | .hbm, ⟨70, _⟩ => ⟨S4x1x65536, .f32⟩
  | .hbm, ⟨71, _⟩ => ⟨S4x1x65536, .f32⟩
  | .hbm, ⟨72, _⟩ => ⟨S4x2x65536, .f32⟩
  | .hbm, ⟨73, _⟩ => ⟨S8x65536, .f32⟩
  | .hbm, ⟨74, _⟩ => ⟨S8x65536, .f32⟩
  | .hbm, ⟨75, _⟩ => ⟨S_, .f32⟩
  | .hbm, ⟨76, _⟩ => ⟨S8x65536, .f32⟩
  | .hbm, ⟨77, _⟩ => ⟨S8x65536, .f32⟩
  | .hbm, ⟨78, _⟩ => ⟨S8x65536, .f32⟩
  | .hbm, ⟨79, _⟩ => ⟨S_, .f32⟩
  | .hbm, ⟨80, _⟩ => ⟨S8x65536, .f32⟩
  | .hbm, ⟨81, _⟩ => ⟨S8x65536, .f32⟩
  | .hbm, ⟨82, _⟩ => ⟨S_, .f32⟩
  | .hbm, ⟨83, _⟩ => ⟨S8x65536, .f32⟩
  | .hbm, ⟨84, _⟩ => ⟨S8x65536, .f32⟩
  | .hbm, ⟨85, _⟩ => ⟨S8x65536, .f32⟩
  | .hbm, ⟨86, _⟩ => ⟨S_, .f32⟩
  | .hbm, ⟨87, _⟩ => ⟨S8x65536, .f32⟩
  | .hbm, ⟨88, _⟩ => ⟨S8x65536, .f32⟩
  | .hbm, ⟨89, _⟩ => ⟨S8x1x65536, .f32⟩
  | .hbm, ⟨90, _⟩ => ⟨S8x1x65536, .f32⟩
  | .hbm, ⟨91, _⟩ => ⟨S8x2x65536, .f32⟩
  | .hbm, ⟨92, _⟩ => ⟨S16x65536, .f32⟩
  | .hbm, ⟨93, _⟩ => ⟨S16x65536, .f32⟩
  | .hbm, ⟨94, _⟩ => ⟨S_, .f32⟩
  | .hbm, ⟨95, _⟩ => ⟨S16x65536, .f32⟩
  | .hbm, ⟨96, _⟩ => ⟨S16x65536, .f32⟩
  | .hbm, ⟨97, _⟩ => ⟨S16x65536, .f32⟩
  | .hbm, ⟨98, _⟩ => ⟨S_, .f32⟩
  | .hbm, ⟨99, _⟩ => ⟨S16x65536, .f32⟩
  | .hbm, ⟨100, _⟩ => ⟨S16x65536, .f32⟩
  | .hbm, ⟨101, _⟩ => ⟨S_, .f32⟩
  | .hbm, ⟨102, _⟩ => ⟨S16x65536, .f32⟩
  | .hbm, ⟨103, _⟩ => ⟨S16x65536, .f32⟩
  | .hbm, ⟨104, _⟩ => ⟨S16x65536, .f32⟩
  | .hbm, ⟨105, _⟩ => ⟨S_, .f32⟩
  | .hbm, ⟨106, _⟩ => ⟨S16x65536, .f32⟩
  | .hbm, ⟨107, _⟩ => ⟨S16x65536, .f32⟩
  | .hbm, ⟨108, _⟩ => ⟨S16x1x65536, .f32⟩
  | .hbm, ⟨109, _⟩ => ⟨S16x1x65536, .f32⟩
  | .hbm, ⟨110, _⟩ => ⟨S16x2x65536, .f32⟩
  | .hbm, ⟨111, _⟩ => ⟨S32x65536, .f32⟩
  | .hbm, ⟨112, _⟩ => ⟨S63x65536, .f32⟩
  | .hbm, ⟨113, _⟩ => ⟨S63x10x64, .f32⟩
  | .hbm, ⟨114, _⟩ => ⟨S63x10x64, .f32⟩
  | .hbm, ⟨115, _⟩ => ⟨S63x10x65536, .f32⟩
  | .hbm, ⟨116, _⟩ => ⟨S63x10x65536, .f32⟩
  | .hbm, ⟨117, _⟩ => ⟨S63x1x65536, .f32⟩
  | .hbm, ⟨118, _⟩ => ⟨S63x10x65536, .f32⟩
  | .hbm, ⟨119, _⟩ => ⟨S63x10x65536, .f32⟩
  | .hbm, ⟨120, _⟩ => ⟨S_, .f32⟩
  | .hbm, ⟨121, _⟩ => ⟨S63x10x65536, .f32⟩
  | .hbm, ⟨122, _⟩ => ⟨S63x10x65536, .f32⟩
  | .hbm, ⟨123, _⟩ => ⟨S63x10x65536, .f32⟩
  | .hbm, ⟨124, _⟩ => ⟨S63x10x65536, .f32⟩
  | .hbm, ⟨125, _⟩ => ⟨S_, .f32⟩
  | .hbm, ⟨126, _⟩ => ⟨S10x65536, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_18 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_19 : Ref sig .tc := ⟨.hbm, 98, rfl⟩
abbrev main_v73 : Ref sig .tc := ⟨.hbm, 99, rfl⟩
abbrev main_v74 : Ref sig .tc := ⟨.hbm, 100, rfl⟩
abbrev main_cst_20 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_21 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_22 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_23 : Ref sig .tc := ⟨.hbm, 125, rfl⟩
abbrev main_v96 : Ref sig .tc := ⟨.hbm, 126, rfl⟩

abbrev nD : Nat := 1
abbrev τ : Topo := Topo.v7x

variable {F : FTy → Type} [FloatOps F]

class Facts₀ : Prop where
  transposes_S65536x1024_S1024x65536_1_0 : S65536x1024.Transposes [1, 0] S1024x65536
  bcast_S_S64x65536 : S_.BroadcastsInDim S64x65536 (![] : Fin 0 → Fin S64x65536.rank)
  bcast_S_S31x65536 : S_.BroadcastsInDim S31x65536 (![] : Fin 0 → Fin S31x65536.rank)
  bcast_S_S1x65536 : S_.BroadcastsInDim S1x65536 (![] : Fin 0 → Fin S1x65536.rank)
  slices_S31x65536_S1x65536_0_0 : S31x65536.Slices ![0, 0] S1x65536
  bcast_S1x65536_S1x1x65536_0_2 : S1x65536.BroadcastsInDim S1x1x65536 (![0, 2] : Fin 2 → Fin S1x1x65536.rank)
  concatenates_S1x1x65536_S1x1x65536_S1x2x65536_d1 : Shape.Concatenates [S1x1x65536, S1x1x65536] S1x2x65536 1
  shapeCasts_S1x2x65536_S2x65536 : S1x2x65536.ShapeCasts S2x65536
  slices_S31x65536_S2x65536_1_0 : S31x65536.Slices ![1, 0] S2x65536
  bcast_S_S2x65536 : S_.BroadcastsInDim S2x65536 (![] : Fin 0 → Fin S2x65536.rank)
  bcast_S2x65536_S2x1x65536_0_2 : S2x65536.BroadcastsInDim S2x1x65536 (![0, 2] : Fin 2 → Fin S2x1x65536.rank)
  concatenates_S2x1x65536_S2x1x65536_S2x2x65536_d1 : Shape.Concatenates [S2x1x65536, S2x1x65536] S2x2x65536 1
  shapeCasts_S2x2x65536_S4x65536 : S2x2x65536.ShapeCasts S4x65536
  slices_S31x65536_S4x65536_3_0 : S31x65536.Slices ![3, 0] S4x65536
  bcast_S_S4x65536 : S_.BroadcastsInDim S4x65536 (![] : Fin 0 → Fin S4x65536.rank)
  bcast_S4x65536_S4x1x65536_0_2 : S4x65536.BroadcastsInDim S4x1x65536 (![0, 2] : Fin 2 → Fin S4x1x65536.rank)
  concatenates_S4x1x65536_S4x1x65536_S4x2x65536_d1 : Shape.Concatenates [S4x1x65536, S4x1x65536] S4x2x65536 1
  shapeCasts_S4x2x65536_S8x65536 : S4x2x65536.ShapeCasts S8x65536
  slices_S31x65536_S8x65536_7_0 : S31x65536.Slices ![7, 0] S8x65536
  bcast_S_S8x65536 : S_.BroadcastsInDim S8x65536 (![] : Fin 0 → Fin S8x65536.rank)
  bcast_S8x65536_S8x1x65536_0_2 : S8x65536.BroadcastsInDim S8x1x65536 (![0, 2] : Fin 2 → Fin S8x1x65536.rank)
  concatenates_S8x1x65536_S8x1x65536_S8x2x65536_d1 : Shape.Concatenates [S8x1x65536, S8x1x65536] S8x2x65536 1
  shapeCasts_S8x2x65536_S16x65536 : S8x2x65536.ShapeCasts S16x65536
  slices_S31x65536_S16x65536_15_0 : S31x65536.Slices ![15, 0] S16x65536
  bcast_S_S16x65536 : S_.BroadcastsInDim S16x65536 (![] : Fin 0 → Fin S16x65536.rank)
  bcast_S16x65536_S16x1x65536_0_2 : S16x65536.BroadcastsInDim S16x1x65536 (![0, 2] : Fin 2 → Fin S16x1x65536.rank)
  concatenates_S16x1x65536_S16x1x65536_S16x2x65536_d1 : Shape.Concatenates [S16x1x65536, S16x1x65536] S16x2x65536 1
  shapeCasts_S16x2x65536_S32x65536 : S16x2x65536.ShapeCasts S32x65536
  concatenates_S1x65536_S2x65536_S4x65536_S8x65536_S16x65536_S32x65536_S63x65536_d0 : Shape.Concatenates [S1x65536, S2x65536, S4x65536, S8x65536, S16x65536, S32x65536] S63x65536 0
  shapeCasts_S630x64_S63x10x64 : S630x64.ShapeCasts S63x10x64
  bcast_S63x65536_S63x1x65536_0_2 : S63x65536.BroadcastsInDim S63x1x65536 (![0, 2] : Fin 2 → Fin S63x1x65536.rank)
  bcast_S63x1x65536_S63x10x65536_0_1_2 : S63x1x65536.BroadcastsInDim S63x10x65536 (![0, 1, 2] : Fin 3 → Fin S63x10x65536.rank)
  bcast_S_S63x10x65536 : S_.BroadcastsInDim S63x10x65536 (![] : Fin 0 → Fin S63x10x65536.rank)
  reducesTo_S63x10x65536_S10x65536_d0 : S63x10x65536.ReducesTo [0] S10x65536
  h_S_ : 0 < S_.numel
  dot_S64x1024_S1024x65536_S64x65536_1_0_0_1_n_n_wf : DotDims.WF S64x1024 S1024x65536 S64x65536 [1] [0] [0] [1] [] []
  dot_S31x64_S64x65536_S31x65536_1_0_0_1_n_n_wf : DotDims.WF S31x64 S64x65536 S31x65536 [1] [0] [0] [1] [] []
  dot_S63x10x64_S64x65536_S63x10x65536_2_0_01_1_n_n_wf : DotDims.WF S63x10x64 S64x65536 S63x10x65536 [2] [0] [0, 1] [1] [] []

variable [Facts₀]

def dot_S64x1024_S1024x65536_S64x65536_1_0_0_1_n_n : DotDims S64x1024 S1024x65536 S64x65536 where
  lhsContracting := [1]
  rhsContracting := [0]
  lhsNonContracting := [0]
  rhsNonContracting := [1]
  lhsBatch := []
  rhsBatch := []
  wf := dot_S64x1024_S1024x65536_S64x65536_1_0_0_1_n_n_wf
def dot_S31x64_S64x65536_S31x65536_1_0_0_1_n_n : DotDims S31x64 S64x65536 S31x65536 where
  lhsContracting := [1]
  rhsContracting := [0]
  lhsNonContracting := [0]
  rhsNonContracting := [1]
  lhsBatch := []
  rhsBatch := []
  wf := dot_S31x64_S64x65536_S31x65536_1_0_0_1_n_n_wf
def dot_S63x10x64_S64x65536_S63x10x65536_2_0_01_1_n_n : DotDims S63x10x64 S64x65536 S63x10x65536 where
  lhsContracting := [2]
  rhsContracting := [0]
  lhsNonContracting := [0, 1]
  rhsNonContracting := [1]
  lhsBatch := []
  rhsBatch := []
  wf := dot_S63x10x64_S64x65536_S63x10x65536_2_0_01_1_n_n_wf

class Facts : Prop extends Facts₀ where

variable [Facts]
-- ==== Proof.Spec.lean ====
/-
  A soft decision tree scored column by column, as a function of the five argument arrays.

  A data column x (a row of X, 1024 numbers) is projected to 64 numbers, proj p = (Σ_d Z(p,d)·x(d)) / 64.
  Each of the 31 internal nodes i of a complete binary tree of depth 5 has a branching indicator
  th i = tanh (10⁹ · Σ_p T(i,p)·proj p). The root has path probability 1; a node at position j of a level
  has its parent at position j/2 of the level above, and receives the parent's probability times
  (1 + th parent)/2 when j is even (the left child) and (1 − th parent)/2 when j is odd. The levels hold
  1, 2, 4, 8, 16, 32 nodes and are laid end to end: 63 nodes, the internal ones first (the nodes of level l
  start at 2^l − 1, and so does the indicator of position 0 of that level). Node n scores class c by
  prob n · (Σ_p W(10n+c, p)·proj p) · tanh (Σ_p V(10n+c, p)·proj p); the result at (c, column) is the sum
  over the 63 nodes.

  Everything is stated on the extended reals with the operations of the exact instance; the float
  patterns 1, 1/2, 10⁹, 64 and 1/64 are kept as patterns and only evaluated where a law needs their value.
-/
import Idealize.ShloMosaic.PureOps.Ideal
import Idealize.ShloMosaic.Lib.ValueIdx

noncomputable section

open scoped BigOperators

namespace Cert.TreeScore

open Idealize.ShloMosaic Idealize.ShloMosaic.ValueIdx

/-- The patterns of 1, 1/2, 10⁹, 64 and 1/64 read at the exact instance. -/
abbrev one : EReal := Ideal.ofBits .f32 0x3F800000#32
abbrev half : EReal := Ideal.ofBits .f32 0x3F000000#32
abbrev big : EReal := Ideal.ofBits .f32 0x4E6E6B28#32
abbrev c64 : EReal := Ideal.ofBits .f32 0x42800000#32
abbrev inv64 : EReal := Ideal.ofBits .f32 0x3C800000#32

/-- One level from the level above: position `j` has parent `j / 2`; the even child takes (1 + t)/2 of the
    parent's probability, the odd child (1 − t)/2, `t` the parent's indicator. -/
def step (prev t : ℕ → EReal) (j : ℕ) : EReal :=
  if j % 2 = 0 then (prev (j / 2) * (one + t (j / 2))) * half else (prev (j / 2) * (one - t (j / 2))) * half

/-- The six levels' path probabilities from the 31 indicators `th` (level `l`'s parents' indicators start
    at `2^(l-1) − 1`). -/
def P0 : ℕ → EReal := fun _ => one
def P1 (th : ℕ → EReal) : ℕ → EReal := step P0 (fun i => th (0 + i))
def P2 (th : ℕ → EReal) : ℕ → EReal := step (P1 th) (fun i => th (1 + i))
def P3 (th : ℕ → EReal) : ℕ → EReal := step (P2 th) (fun i => th (3 + i))
def P4 (th : ℕ → EReal) : ℕ → EReal := step (P3 th) (fun i => th (7 + i))
def P5 (th : ℕ → EReal) : ℕ → EReal := step (P4 th) (fun i => th (15 + i))

/-- The 63 nodes' path probabilities, the levels end to end. -/
def probs (th : ℕ → EReal) (n : ℕ) : EReal :=
  if n < 1 then P0 n else if n < 3 then P1 th (n - 1) else if n < 7 then P2 th (n - 3)
  else if n < 15 then P3 th (n - 7) else if n < 31 then P4 th (n - 15) else P5 th (n - 31)

/-- One class's score in one column: Σ over the nodes of probability · linear score · tanh of the gate score. -/
def score (th : ℕ → EReal) (wx vx : Fin 63 → EReal) : EReal :=
  ∑ n : Fin 63, (probs th n.val * wx n) * Ideal.tanh (vx n)

/-! ## The result as one function of the argument arrays (the arrangement the plain program computes) -/

/-- Row `10 n + c` of W and V holds node `n`'s weights for class `c`. -/
def node (n : Fin 63) (c : Fin 10) : Fin 630 := ⟨n.val * 10 + c.val, by have := n.isLt; have := c.isLt; omega⟩

/-- Entry `p` of the projection of column `b` (row `b` of X): a quotient by 64. -/
def proj (Z : (⟨2, ![64, 1024]⟩ : Shape).Idx → EReal) (X : (⟨2, ![65536, 1024]⟩ : Shape).Idx → EReal)
    (p : Fin 64) (b : Fin 65536) : EReal :=
  Ideal.div (∑ d : Fin 1024, Z (ix2 p d) * X (ix2 b d)) c64

/-- The indicator of internal node `i` in column `b` (junk 0 past the 31 nodes). -/
def thRef (T : (⟨2, ![31, 64]⟩ : Shape).Idx → EReal) (Z : (⟨2, ![64, 1024]⟩ : Shape).Idx → EReal)
    (X : (⟨2, ![65536, 1024]⟩ : Shape).Idx → EReal) (b : Fin 65536) (i : ℕ) : EReal :=
  if h : i < 31 then Ideal.tanh (big * ∑ p : Fin 64, T (ix2 (⟨i, h⟩ : Fin 31) p) * proj Z X p b) else 0

/-- The whole result `[10, 65536]`: at (c, b) the score of class `c` in column `b`. -/
def G (X : (⟨2, ![65536, 1024]⟩ : Shape).Idx → EReal) (Z : (⟨2, ![64, 1024]⟩ : Shape).Idx → EReal)
    (W V : (⟨2, ![630, 64]⟩ : Shape).Idx → EReal) (T : (⟨2, ![31, 64]⟩ : Shape).Idx → EReal) :
    (⟨2, ![10, 65536]⟩ : Shape).Idx → EReal := fun j =>
  score (thRef T Z X (j 1))
    (fun n => ∑ p : Fin 64, W (ix2 (node n (j 0)) p) * proj Z X p (j 1))
    (fun n => ∑ p : Fin 64, V (ix2 (node n (j 0)) p) * proj Z X p (j 1))

/-! ## The same score from one block of 1024 columns, in the blocked program's arrangement -/

/-- In the class-major copies of W and V, row `63 c + n` holds node `n`'s weights for class `c`. -/
def cnode (c : Fin 10) (n : Fin 63) : Fin 630 := ⟨c.val * 63 + n.val, by have := n.isLt; have := c.isLt; omega⟩

/-- Entry `p` of the projection of the block's column `q`: a product with 1/64. -/
def projBlk (Z : (⟨2, ![64, 1024]⟩ : Shape).Idx → EReal) (Xb : (⟨2, ![1024, 1024]⟩ : Shape).Idx → EReal)
    (p : Fin 64) (q : Fin 1024) : EReal :=
  (∑ d : Fin 1024, Z (ix2 p d) * Xb (ix2 q d)) * inv64

/-- The indicator from the precomputed product `TZ = T·Z`: tanh (10⁹ · ((Σ_d TZ(i,d)·x(d)) · (1/64))). -/
def thBlk (TZ : (⟨2, ![31, 1024]⟩ : Shape).Idx → EReal) (Xb : (⟨2, ![1024, 1024]⟩ : Shape).Idx → EReal)
    (q : Fin 1024) (i : ℕ) : EReal :=
  if h : i < 31 then Ideal.tanh (big * ((∑ d : Fin 1024, TZ (ix2 (⟨i, h⟩ : Fin 31) d) * Xb (ix2 q d)) * inv64)) else 0

/-- The block `[10, 1024]` a grid point computes from its block of X, Z, TZ and the class-major W and V. -/
def blockScore (Xb : (⟨2, ![1024, 1024]⟩ : Shape).Idx → EReal) (Z : (⟨2, ![64, 1024]⟩ : Shape).Idx → EReal)
    (TZ : (⟨2, ![31, 1024]⟩ : Shape).Idx → EReal) (Wc Vc : (⟨2, ![630, 64]⟩ : Shape).Idx → EReal) :
    (⟨2, ![10, 1024]⟩ : Shape).Idx → EReal := fun y =>
  score (thBlk TZ Xb (y 1))
    (fun n => ∑ p : Fin 64, Wc (ix2 (cnode (y 0) n) p) * projBlk Z Xb p (y 1))
    (fun n => ∑ p : Fin 64, Vc (ix2 (cnode (y 0) n) p) * projBlk Z Xb p (y 1))

end Cert.TreeScore

end
-- ==== Proof.LibOuterSumLayout.lean ====
/-
  The layout operations of an outer (broadcast) sum of two matrices, read at coordinates.

  To form `x[i, k] + y[j, k]` for all `(i, j, k)` a program views `x : [a, c]` as `[a, 1, c]` and `y : [b, c]`
  as `[1, b, c]`, broadcasts both to `[a, b, c]`, and later flattens the two leading axes: `[a, b, c]` as
  `[a·b, c]` (row `i·b + j`) and back. A bias `[c]` viewed as `[1, 1, c]` and broadcast to `[a, b, c]` reads
  its entry `k` everywhere. Each lemma states one of these operations at an index given by coordinates.
-/
import Idealize.ShloMosaic.Lib.Pipeline.Value
import Idealize.ShloMosaic.Lib.ValueIdx

noncomputable section

namespace Cert.LibOuterSumLayout

open Idealize.ShloMosaic Idealize.ShloMosaic.ValueIdx

variable {α : Type}

/-- An `[a, c]` matrix viewed as `[a, 1, c]` reads, at `(i, z, k)`, its entry `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (z : Fin 1) (k : Fin c) :
    shapeCast ⟨3, ![a, 1, c]⟩ x h (ix3 i z k) = x (ix2 i k) :=
  shapeCast_apply x h _ _ (by
    have hz : z.val = 0 := by omega
    rw [Shape.rowMajor_val_three, Shape.rowMajor_val_two]
    show i.val * c + k.val = (i.val * 1 + z.val) * c + k.val
    rw [hz, Nat.mul_one, Nat.add_zero])

/-- An `[a, 1, c]` array broadcast to `[a, b, c]` reads, at `(i, j, k)`, its entry `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, its entry `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, its entry `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A `[c]` vector viewed as `[1, 1, c]` reads, at `(z, z', k)`, its entry `k`. -/
theorem shapeCast_c_11c_apply {c : ℕ} (x : (⟨1, ![c]⟩ : Shape).Idx → α)
    (h : (⟨1, ![c]⟩ : Shape).ShapeCasts ⟨3, ![1, 1, c]⟩) (z z' : Fin 1) (k : Fin c) :
    shapeCast ⟨3, ![1, 1, c]⟩ x h (ix3 z z' k) = x (ix1 k) :=
  shapeCast_apply x h _ _ (by
    have hz : z.val = 0 := by omega
    have hz' : z'.val = 0 := by omega
    rw [Shape.rowMajor_val_three, Shape.rowMajor_val_one]
    show k.val = (z.val * 1 + z'.val) * c + k.val
    simp only [hz, hz', Nat.zero_mul, Nat.zero_add, Nat.mul_one, Nat.add_zero])

/-- An `[a, b, c]` array with its two leading axes flattened to `n = a·b` rows reads, at row `p = i·b + j`
    and column `k`, its entry `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (p : Fin n)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- An `[n, c]` matrix with `n = a·b` rows viewed as `[a, b, c]` reads, at `(i, j, k)`, its entry at row
    `p = i·b + j` and column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (p : Fin n)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

end Cert.LibOuterSumLayout

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibPlainDot.lean ====
/-
  A host `dot_general` with the plain dimension numbers read at an entry, over the extended reals.

  For dimension numbers that contract the left operand's columns with the right operand's rows and have no batch axes
  (`[1] × [0]`, free axes `[0]` and `[1]`), the host's product of an `M × K` by a `K × N` matrix is, at entry `(a, b)`,
  the sum over `k` of `l (a, k) · r (k, b)`, whatever the precision and the schedule key: exact arithmetic has no
  rounding and no order of summation left in it. The dimension-number record is a variable with its six lists given by
  hypotheses, so the statement applies to any printed record of this form. It is the host-side companion of the
  kernel-side product into a zero accumulator (`LibPlainMatmul.matmul_zero_apply`): the two read as the same sum.
-/
import proofs.«102738_j2078764171322_2_alg».proof.Proof.LibPlainMatmul

noncomputable section

namespace Cert.LibPlainDot

open Idealize.ShloMosaic Idealize.ShloMosaic.ValueIdx

variable {M K N : Nat} (D : DotDims ⟨2, ![M, K]⟩ ⟨2, ![K, N]⟩ ⟨2, ![M, N]⟩)

/-- A host `dot_general` of an `M × K` by a `K × N` matrix with the plain dimension numbers, at entry `(a, b)`:
    `∑ k, l (a, k) · r (k, b)`. -/
theorem dotGeneral_plain_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) := by
  rw [Ideal.dotGeneral_apply,
    ← Equiv.sum_comp (contrEquiv1 D K (LibPlainMatmul.contr_rank D hlc) (LibPlainMatmul.contr_size D hlc)).symm]
  refine Finset.sum_congr rfl fun k _ => ?_
  have hk := contrEquiv1_symm_val D K (LibPlainMatmul.contr_rank D hlc) (LibPlainMatmul.contr_size D hlc) k
  have el : D.lhsIdx (ix2 a b) ((contrEquiv1 D K (LibPlainMatmul.contr_rank D hlc) (LibPlainMatmul.contr_size D hlc)).symm k) = ix2 a k :=
    funext fun c => Fin.ext (by
      match c with
      | ⟨0, _⟩ => exact LibPlainMatmul.lhs_row D hln hlb _ _
      | ⟨1, _⟩ => exact (D.lhsIdx_val_of_single hlc _ _).trans hk)
  have er : D.rhsIdx (ix2 a b) ((contrEquiv1 D K (LibPlainMatmul.contr_rank D hlc) (LibPlainMatmul.contr_size D hlc)).symm k) = ix2 k b :=
    funext fun c => Fin.ext (by
      match c with
      | ⟨0, _⟩ => exact (D.rhsIdx_val_of_single hrc _ _).trans hk
      | ⟨1, _⟩ => exact LibPlainMatmul.rhs_col D hln hrn hlb hrb _ _)
  rw [el, er]

end Cert.LibPlainDot

end
-- ==== Proof.KernelHost.lean ====
/-
  What the blocked program's one region finds in the three windows whose arrays the host operations write before it.

  Before the region the host forms the product TZ = T·Z (31 × 1024: entry (i, d) is Σ_p T(i,p)·Z(p,d)) and the
  class-major copies of W and V: a 630-row matrix whose row 10·n + k holds node n's weights for class k is viewed
  as [63, 10, 64], its two leading axes are exchanged, and the result is flattened to 630 rows again, so that row
  63·k + n of the copy is row 10·n + k of the original. Each of the three arrays is first identified with the host
  operations' term and then read at coordinates.
-/
import proofs.«102738_j2078764171322_2_alg».proof.Proof.Gen.KernelIdeal.Frame
import proofs.«102738_j2078764171322_2_alg».proof.Proof.Spec
import proofs.«102738_j2078764171322_2_alg».proof.Proof.LibOuterSumLayout
import proofs.«102738_j2078764171322_2_alg».proof.Proof.LibPlainDot
import Idealize.ShloMosaic.Lib.StableHlo.Run

noncomputable section

open scoped BigOperators

namespace Cert.KernelIdeal.HostValue

open Idealize.ShloMosaic Idealize.ShloMosaic.TcCoe Idealize.ShloMosaic.ValueIdx Cert.KernelIdeal Cert.KernelIdeal.Gen

variable (m : (ℓ : Loc nD τ sig) → Buf (Elt Ideal) ℓ)

/-- The five argument arrays on core `c`, typed as arrays of extended reals: the data columns X, the projection Z,
    the node weights W and gate weights V (row 10·node + class), the branching weights T. -/
abbrev argX (c : Dev nD) : (⟨2, ![65536, 1024]⟩ : Shape).Idx → EReal := m ((c : Thread nD τ).loc main_arg0)
abbrev argZ (c : Dev nD) : (⟨2, ![64, 1024]⟩ : Shape).Idx → EReal := m ((c : Thread nD τ).loc main_arg1)
abbrev argW (c : Dev nD) : (⟨2, ![630, 64]⟩ : Shape).Idx → EReal := m ((c : Thread nD τ).loc main_arg2)
abbrev argV (c : Dev nD) : (⟨2, ![630, 64]⟩ : Shape).Idx → EReal := m ((c : Thread nD τ).loc main_arg3)
abbrev argT (c : Dev nD) : (⟨2, ![31, 64]⟩ : Shape).Idx → EReal := m ((c : Thread nD τ).loc main_arg4)

/-- The three arrays the host operations write before the region, as the region finds them: the product T·Z and the
    class-major copies of W and V. -/
abbrev hostTZ (c : Dev nD) : (⟨2, ![31, 1024]⟩ : Shape).Idx → EReal := V m c main_v6
abbrev hostWc (c : Dev nD) : (⟨2, ![630, 64]⟩ : Shape).Idx → EReal := V m c main_v2
abbrev hostVc (c : Dev nD) : (⟨2, ![630, 64]⟩ : Shape).Idx → EReal := V m c main_v5

/-- The product array is the host's matrix product of T and Z. -/
theorem hostTZ_term (c : Dev nD) :
    hostTZ m c = Host.dotGeneral (F := Ideal) (φ₁ := .f32) (φ₂ := .f32) dot_S31x64_S64x1024_S31x1024_1_0_0_1_n_n (some .fp32)
          (argT m c) (argZ m c) := by
  dsimp only [hostTZ, V, hostOps0]; after_results

/-- Entry (i, d) of the product array: Σ_p T(i,p)·Z(p,d). -/
theorem hostTZ_apply (c : Dev nD) (i : Fin 31) (d : Fin 1024) :
    hostTZ m c (ix2 i d) = ∑ p : Fin 64, argT m c (ix2 i p) * argZ m c (ix2 p d) := by
  rw [hostTZ_term]
  exact Cert.LibPlainDot.dotGeneral_plain_apply dot_S31x64_S64x1024_S31x1024_1_0_0_1_n_n rfl rfl rfl rfl rfl rfl _ _ _ _ i d

/-- A matrix of 630 = 63·10 rows (row 10·n + k) viewed as [63, 10, 64], its two leading axes exchanged, and flattened
    again to 630 = 10·63 rows: row 63·k + n of the result is row 10·n + k of the operand. -/
theorem classMajor_apply {α : Type} (x : S630x64.Idx → α) (k : Fin 10) (n : Fin 63) (p : Fin 64) :
    shapeCast S630x64 (transpose S10x63x64 [1, 0, 2] (shapeCast S63x10x64 x shapeCasts_S630x64_S63x10x64)
        transposes_S63x10x64_S10x63x64_1_0_2) shapeCasts_S10x63x64_S630x64 (ix2 (Cert.TreeScore.cnode k n) p)
      = x (ix2 (Cert.TreeScore.node n k) p) := by
  refine (Cert.LibOuterSumLayout.shapeCast_abc_nc_apply _ shapeCasts_S10x63x64_S630x64 k n p (Cert.TreeScore.cnode k n) rfl).trans ?_
  refine (transpose_apply _ _ transposes_S63x10x64_S10x63x64_1_0_2 (ix3 k n p) (ix3 n k p)
    (fun b => match b with | ⟨0, _⟩ => rfl | ⟨1, _⟩ => rfl | ⟨2, _⟩ => rfl)).trans ?_
  exact Cert.LibOuterSumLayout.shapeCast_nc_abc_apply _ shapeCasts_S630x64_S63x10x64 n k p (Cert.TreeScore.node n k) rfl

/-- The class-major copy of W is that relayout of W. -/
theorem hostWc_term (c : Dev nD) :
    hostWc m c = shapeCast S630x64 (transpose S10x63x64 [1, 0, 2]
          (shapeCast S63x10x64 (argW m c) shapeCasts_S630x64_S63x10x64)
          transposes_S63x10x64_S10x63x64_1_0_2) shapeCasts_S10x63x64_S630x64 := by
  dsimp only [hostWc, V, hostOps0]; after_results; rfl

/-- The class-major copy of V is that relayout of V. -/
theorem hostVc_term (c : Dev nD) :
    hostVc m c = shapeCast S630x64 (transpose S10x63x64 [1, 0, 2]
          (shapeCast S63x10x64 (argV m c) shapeCasts_S630x64_S63x10x64)
          transposes_S63x10x64_S10x63x64_1_0_2) shapeCasts_S10x63x64_S630x64 := by
  dsimp only [hostVc, V, hostOps0]; after_results; rfl

/-- Row 63·k + n of the class-major copy of W is row 10·n + k of W. -/
theorem hostWc_apply (c : Dev nD) (k : Fin 10) (n : Fin 63) (p : Fin 64) :
    hostWc m c (ix2 (Cert.TreeScore.cnode k n) p) = argW m c (ix2 (Cert.TreeScore.node n k) p) := by
  rw [hostWc_term]; exact classMajor_apply (argW m c) k n p

/-- Row 63·k + n of the class-major copy of V is row 10·n + k of V. -/
theorem hostVc_apply (c : Dev nD) (k : Fin 10) (n : Fin 63) (p : Fin 64) :
    hostVc m c (ix2 (Cert.TreeScore.cnode k n) p) = argV m c (ix2 (Cert.TreeScore.node n k) p) := by
  rw [hostVc_term]; exact classMajor_apply (argV m c) k n p

end Cert.KernelIdeal.HostValue

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.LibIdealReal.lean ====
/-
  Real numbers inside the extended reals: the float pattern of one, the quotient of two reals by the
  extended-real division, and arrays of reals read as arrays of extended reals by coordinates.
-/
import Idealize.ShloMosaic.PureOps.Ideal.Laws
import Idealize.ShloMosaic.Lib.ValueIdx

noncomputable section

open Idealize.ShloMosaic Idealize.ShloMosaic.ValueIdx

namespace Cert.IdealReal

/-- The single-precision pattern `0x3F800000` is the number one. -/
theorem ofBits_one_f32 : Ideal.ofBits .f32 0x3F800000#32 = 1 := by
  simp [Ideal.ofBits, Ideal.ieee]
  have h : ((8388608 : ℝ) * ((2 : ℝ) ^ 23)⁻¹) = 1 := by norm_num
  exact_mod_cast h

/-- The extended-real quotient of two reals, the divisor not zero, is the real quotient. -/
theorem div_coe_coe {x y : ℝ} (h : y ≠ 0) : Ideal.div (x : EReal) (y : EReal) = ((x / y : ℝ) : EReal) := by
  rw [Ideal.div_coe h, ← EReal.coe_mul, mul_one_div]

/-- A matrix of reals as an array of extended reals. -/
def lift2 {n0 n1 : Nat} (f : Fin n0 → Fin n1 → ℝ) : (⟨2, ![n0, n1]⟩ : Shape).Idx → EReal :=
  fun i => ((f (i 0) (i 1) : ℝ) : EReal)

theorem lift2_ix2 {n0 n1 : Nat} (f : Fin n0 → Fin n1 → ℝ) (a : Fin n0) (b : Fin n1) :
    lift2 f (ix2 a b) = ((f a b : ℝ) : EReal) := rfl

/-- An array all of whose entries are given reals is the lifted matrix. -/
theorem eq_lift2 {n0 n1 : Nat} (v : (⟨2, ![n0, n1]⟩ : Shape).Idx → EReal) (f : Fin n0 → Fin n1 → ℝ)
    (h : ∀ a b, v (ix2 a b) = ((f a b : ℝ) : EReal)) : v = lift2 f := by
  funext i
  rw [eq_ix2 i]
  exact h _ _

end Cert.IdealReal

end
-- ==== Proof.ThLaw.lean ====
/-
  The two arrangements of the score agree on arrays of real numbers.

  The blocked arrangement computes a node's indicator from the precomputed product TZ = T·Z as
  tanh (10⁹ · ((Σ_d TZ(i,d)·x(d)) · (1/64))); the plain one as tanh (10⁹ · Σ_p T(i,p)·((Σ_d Z(p,d)·x(d)) / 64)).
  Over the reals Σ_p T(i,p)·((Σ_d Z(p,d)·x(d))/64) = (Σ_d (Σ_p T(i,p)·Z(p,d))·x(d))·(1/64): distributivity and an
  exchange of the two finite sums, which hold on the extended reals only where no infinity is met — hence the
  hypotheses that T, Z and X are arrays of reals. The projections agree on all extended reals: a quotient by 64
  is the product with 1/64.
-/
import proofs.«102738_j2078764171322_2_alg».proof.Proof.Spec
import proofs.«102738_j2078764171322_2_alg».proof.Proof.LibERealSums
import proofs.«102738_j2078764171322_2_alg».proof.Proof.LibIdealReal
import Mathlib

noncomputable section

open scoped BigOperators

namespace Cert.TreeScore

open Idealize.ShloMosaic Idealize.ShloMosaic.ValueIdx

/-- The single-precision pattern `0x42800000` (exponent field 133, significand 1) is 2⁶ = 64. -/
theorem c64_eq : c64 = ((64 : ℝ) : EReal) := by
  simp [Ideal.ofBits, Ideal.ieee]
  have h : ((8388608 : ℝ) * ((2 : ℝ) ^ 17)⁻¹) = 64 := by norm_num
  exact_mod_cast h

/-- The single-precision pattern `0x3C800000` (exponent field 121, significand 1) is 2⁻⁶ = 1/64. -/
theorem inv64_eq : inv64 = ((1 / 64 : ℝ) : EReal) := by
  simp [Ideal.ofBits, Ideal.ieee]
  have h : ((8388608 : ℝ) * ((2 : ℝ) ^ 29)⁻¹) = 64⁻¹ := by norm_num
  exact_mod_cast h

/-- The projection by a product with 1/64 is the projection by a quotient by 64, on all extended reals. -/
theorem projBlk_eq_proj (Z : (⟨2, ![64, 1024]⟩ : Shape).Idx → EReal) (X : (⟨2, ![65536, 1024]⟩ : Shape).Idx → EReal)
    (Xb : (⟨2, ![1024, 1024]⟩ : Shape).Idx → EReal) (b : Fin 65536) (q : Fin 1024)
    (hXb : ∀ d : Fin 1024, Xb (ix2 q d) = X (ix2 b d)) (p : Fin 64) :
    projBlk Z Xb p q = proj Z X p b := by
  unfold projBlk proj
  rw [c64_eq, inv64_eq, Ideal.div_coe (by norm_num : (64 : ℝ) ≠ 0)]
  refine congrArg (fun v : EReal => v * ((1 / 64 : ℝ) : EReal)) ?_
  exact Finset.sum_congr rfl fun d _ => by rw [hXb d]

/-- The identity over the reals: distributivity and the exchange of the two finite sums. -/
theorem real_exchange (t : Fin 64 → ℝ) (z : Fin 64 → Fin 1024 → ℝ) (x : Fin 1024 → ℝ) :
    (∑ d : Fin 1024, (∑ p : Fin 64, t p * z p d) * x d) * (1 / 64)
      = ∑ p : Fin 64, t p * ((∑ d : Fin 1024, z p d * x d) / 64) := by
  calc (∑ d : Fin 1024, (∑ p : Fin 64, t p * z p d) * x d) * (1 / 64)
      = ∑ d : Fin 1024, ∑ p : Fin 64, t p * (z p d * x d / 64) := by
        rw [Finset.sum_mul]
        refine Finset.sum_congr rfl fun d _ => ?_
        rw [Finset.sum_mul, Finset.sum_mul]
        refine Finset.sum_congr rfl fun p _ => ?_
        ring
    _ = ∑ p : Fin 64, ∑ d : Fin 1024, t p * (z p d * x d / 64) := Finset.sum_comm
    _ = ∑ p : Fin 64, t p * ((∑ d : Fin 1024, z p d * x d) / 64) := by
        refine Finset.sum_congr rfl fun p _ => ?_
        rw [Finset.sum_div, Finset.mul_sum]

/-- On arrays of reals, the indicator computed from TZ = T·Z is the indicator computed from the projection. -/
theorem thBlk_eq_thRef (T : (⟨2, ![31, 64]⟩ : Shape).Idx → EReal) (Z : (⟨2, ![64, 1024]⟩ : Shape).Idx → EReal)
    (X : (⟨2, ![65536, 1024]⟩ : Shape).Idx → EReal) (TZ : (⟨2, ![31, 1024]⟩ : Shape).Idx → EReal)
    (Xb : (⟨2, ![1024, 1024]⟩ : Shape).Idx → EReal) (b : Fin 65536) (q : Fin 1024)
    (hT : ∀ i, ∃ r : ℝ, T i = (r : EReal)) (hZ : ∀ i, ∃ r : ℝ, Z i = (r : EReal)) (hX : ∀ i, ∃ r : ℝ, X i = (r : EReal))
    (hTZ : ∀ (i : Fin 31) (d : Fin 1024), TZ (ix2 i d) = ∑ p : Fin 64, T (ix2 i p) * Z (ix2 p d))
    (hXb : ∀ d : Fin 1024, Xb (ix2 q d) = X (ix2 b d)) :
    thBlk TZ Xb q = thRef T Z X b := by
  funext i
  unfold thBlk thRef
  by_cases h : i < 31
  · rw [dif_pos h, dif_pos h]
    choose t ht using hT
    choose z hz using hZ
    choose x hx using hX
    -- every entry met is a real number; both logits are coercions of real sums
    have hTZr : ∀ d : Fin 1024, TZ (ix2 (⟨i, h⟩ : Fin 31) d)
        = ((∑ p : Fin 64, t (ix2 (⟨i, h⟩ : Fin 31) p) * z (ix2 p d) : ℝ) : EReal) := by
      intro d
      rw [hTZ ⟨i, h⟩ d]
      exact Cert.LibERealSums.sum_eq_coe _ _ _ (fun p _ => by rw [ht, hz, ← EReal.coe_mul])
    have hL : (∑ d : Fin 1024, TZ (ix2 (⟨i, h⟩ : Fin 31) d) * Xb (ix2 q d)) * inv64
        = (((∑ d : Fin 1024, (∑ p : Fin 64, t (ix2 (⟨i, h⟩ : Fin 31) p) * z (ix2 p d)) * x (ix2 b d)) * (1 / 64) : ℝ) : EReal) := by
      rw [inv64_eq, EReal.coe_mul]
      refine congrArg (fun v : EReal => v * ((1 / 64 : ℝ) : EReal)) ?_
      exact Cert.LibERealSums.sum_eq_coe _ _ _ (fun d _ => by rw [hTZr d, hXb d, hx, ← EReal.coe_mul])
    have hP : ∀ p : Fin 64, proj Z X p b
        = (((∑ d : Fin 1024, z (ix2 p d) * x (ix2 b d)) / 64 : ℝ) : EReal) := by
      intro p
      unfold proj
      rw [c64_eq, ← Cert.IdealReal.div_coe_coe (by norm_num : (64 : ℝ) ≠ 0)]
      refine congrArg (fun v : EReal => Ideal.div v ((64 : ℝ) : EReal)) ?_
      exact Cert.LibERealSums.sum_eq_coe _ _ _ (fun d _ => by rw [hz, hx, ← EReal.coe_mul])
    have hR : (∑ p : Fin 64, T (ix2 (⟨i, h⟩ : Fin 31) p) * proj Z X p b)
        = ((∑ p : Fin 64, t (ix2 (⟨i, h⟩ : Fin 31) p) * ((∑ d : Fin 1024, z (ix2 p d) * x (ix2 b d)) / 64) : ℝ) : EReal) :=
      Cert.LibERealSums.sum_eq_coe _ _ _ (fun p _ => by rw [ht, hP p, ← EReal.coe_mul])
    rw [hL, hR]
    refine congrArg (fun v : ℝ => Ideal.tanh (big * (v : EReal))) ?_
    exact real_exchange (fun p => t (ix2 (⟨i, h⟩ : Fin 31) p)) (fun p d => z (ix2 p d)) (fun d => x (ix2 b d))
  · rw [dif_neg h, dif_neg h]

/-- So a block's score at (c, q) is the whole result at (c, b), b the block's column q. -/
theorem blockScore_eq_G (X : (⟨2, ![65536, 1024]⟩ : Shape).Idx → EReal) (Z : (⟨2, ![64, 1024]⟩ : Shape).Idx → EReal)
    (W V : (⟨2, ![630, 64]⟩ : Shape).Idx → EReal) (T : (⟨2, ![31, 64]⟩ : Shape).Idx → EReal)
    (Xb : (⟨2, ![1024, 1024]⟩ : Shape).Idx → EReal) (TZ : (⟨2, ![31, 1024]⟩ : Shape).Idx → EReal)
    (Wc Vc : (⟨2, ![630, 64]⟩ : Shape).Idx → EReal) (c : Fin 10) (b : Fin 65536) (q : Fin 1024)
    (hT : ∀ i, ∃ r : ℝ, T i = (r : EReal)) (hZ : ∀ i, ∃ r : ℝ, Z i = (r : EReal)) (hX : ∀ i, ∃ r : ℝ, X i = (r : EReal))
    (hTZ : ∀ (i : Fin 31) (d : Fin 1024), TZ (ix2 i d) = ∑ p : Fin 64, T (ix2 i p) * Z (ix2 p d))
    (hXb : ∀ d : Fin 1024, Xb (ix2 q d) = X (ix2 b d))
    (hWc : ∀ (n : Fin 63) (p : Fin 64), Wc (ix2 (cnode c n) p) = W (ix2 (node n c) p))
    (hVc : ∀ (n : Fin 63) (p : Fin 64), Vc (ix2 (cnode c n) p) = V (ix2 (node n c) p)) :
    blockScore Xb Z TZ Wc Vc (ix2 c q) = G X Z W V T (ix2 c b) := by
  -- the coordinates of ix2 c q are c and q, those of ix2 c b are c and b
  show score (thBlk TZ Xb q)
      (fun n => ∑ p : Fin 64, Wc (ix2 (cnode c n) p) * projBlk Z Xb p q)
      (fun n => ∑ p : Fin 64, Vc (ix2 (cnode c n) p) * projBlk Z Xb p q)
    = score (thRef T Z X b)
      (fun n => ∑ p : Fin 64, W (ix2 (node n c) p) * proj Z X p b)
      (fun n => ∑ p : Fin 64, V (ix2 (node n c) p) * proj Z X p b)
  rw [thBlk_eq_thRef T Z X TZ Xb b q hT hZ hX hTZ hXb]
  have hw : (fun n : Fin 63 => ∑ p : Fin 64, Wc (ix2 (cnode c n) p) * projBlk Z Xb p q)
      = (fun n : Fin 63 => ∑ p : Fin 64, W (ix2 (node n c) p) * proj Z X p b) := by
    funext n
    exact Finset.sum_congr rfl fun p _ => by rw [hWc n p, projBlk_eq_proj Z X Xb b q hXb p]
  have hv : (fun n : Fin 63 => ∑ p : Fin 64, Vc (ix2 (cnode c n) p) * projBlk Z Xb p q)
      = (fun n : Fin 63 => ∑ p : Fin 64, V (ix2 (node n c) p) * proj Z X p b) := by
    funext n
    exact Finset.sum_congr rfl fun p _ => by rw [hVc n p, projBlk_eq_proj Z X Xb b q hXb p]
  rw [hw, hv]

end Cert.TreeScore

end
-- ==== Proof.LibFiniteAll.lean ====
/-
  An array of extended reals all of whose entries have absolute value below +∞ is an array of reals.
  The test is the one a printed predicate makes: the absolute value max x (-x), compared (strictly below)
  with the single-precision pattern of +∞ spread over the array's shape, all comparison bits reduced by
  "and" from the bit 1 into a result of one index. If that result is 1, every entry is a real number:
  |⊥| = |⊤| = ⊤ is not below ⊤, so neither infinity passes the test.
-/
import Idealize.ShloMosaic.Lib.ReduceAll
import Idealize.ShloMosaic.Lib.ValueIdx
import Idealize.ShloMosaic.PureOps.Ideal.Laws

noncomputable section

open Idealize.ShloMosaic

namespace Cert.FiniteAll

/-- The shape of rank zero has one index. -/
instance subsingleton_scalar_idx : Subsingleton (⟨0, ![]⟩ : Shape).Idx :=
  ⟨fun a b => funext fun d => d.elim0⟩

/-- The single-precision pattern of +∞ is ⊤. -/
theorem ofBits_inf_f32 : Ideal.ofBits .f32 0x7F800000#32 = (⊤ : EReal) := by
  simp [Ideal.ofBits, Ideal.ieee]

/-- A bit made from a truth value is 1 exactly when the truth value is true. -/
theorem ofBool_eq_one (b : Bool) : BitVec.ofBool b = 1#1 ↔ b = true := by cases b <;> decide

/-- An extended real whose absolute value is strictly below ⊤ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element test: the comparison bit of |x| < +∞ is 1 only at a real number. -/
theorem real_of_cmp_abs (x : EReal)
    (h : FloatOps.cmpf (F := Ideal) (φ := .f32) .olt (FloatOps.hostAbsf (F := Ideal) (φ := .f32) x)
        (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf_f32] at h'
  unfold Ideal.cmp at h'
  rw [ofBool_eq_one] at h'
  exact real_of_abs_lt_top x (of_decide_eq_true h')

/-- The all-reduce of (|x| < +∞) over a shape is 1: every entry of x is a real number. -/
theorem all_real {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (j : (⟨0, ![]⟩ : Shape).Idx)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  have hi := Host.reduce_andi_all _ _ hr hu j e i
  exact real_of_cmp_abs (x i) hi

end Cert.FiniteAll

end
-- ==== Proof.Finite.lean ====
/-
  The precondition decoded: if the finite-inputs test of the five argument arrays is all ones, then X, Z and T
  (the arrays whose entries meet a distributive law) are arrays of real numbers.
-/
import proofs.«102738_j2078764171322_2_alg».proof.Pre_finite_inputs
import proofs.«102738_j2078764171322_2_alg».proof.Proof.LibFiniteAll

noncomputable section

namespace Cert.FiniteArgs

open Idealize.ShloMosaic

/-- The test is the conjunction of five all-reductions of (|x| < +∞); three of them are used. -/
theorem real_of_pre [Cert.Pre_finite_inputs.Facts]
    (a0 : FVec Ideal Cert.Pre_finite_inputs.S65536x1024 .f32) (a1 : FVec Ideal Cert.Pre_finite_inputs.S64x1024 .f32)
    (a2 a3 : FVec Ideal Cert.Pre_finite_inputs.S630x64 .f32) (a4 : FVec Ideal Cert.Pre_finite_inputs.S31x64 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a4 i = (r : EReal)) := by
  -- the one entry of the result; it is ((((t0 ∧ t1) ∧ t2) ∧ t3) ∧ t4), t_k the all-reduction for argument k
  have h0 := congrFun h ValueIdx.ix0
  dsimp only [Cert.Pre_finite_inputs.fn, Cert.Pre_finite_inputs.fn_part1] at h0
  obtain ⟨h0123, h4⟩ := IntOp.andi_eq_one.1 h0
  obtain ⟨h012, _⟩ := IntOp.andi_eq_one.1 h0123
  obtain ⟨h01, _⟩ := IntOp.andi_eq_one.1 h012
  obtain ⟨hx, hz⟩ := IntOp.andi_eq_one.1 h01
  exact ⟨Cert.FiniteAll.all_real a0 _ _ _ _ hx, Cert.FiniteAll.all_real a1 _ _ _ _ hz,
    Cert.FiniteAll.all_real a4 _ _ _ _ h4⟩

end Cert.FiniteArgs

end
-- ==== Proof.KernelFTiling.lean ====
/-
  From the blocks the grid points write to the whole result array of the blocked program, given what one point computes.

  The region runs 64 grid points. Point t reads rows 1024·t … 1024·t + 1023 of X (its block of 1024 data columns) and
  the whole of Z, of the product T·Z and of the class-major copies of W and V, and writes columns 1024·t … of the
  [10, 65536] result. Suppose what a point writes is the block score of its operands (the hypothesis `hout` below).
  Entry (k, q) of that block is the score of class k in data column 1024·t + q — the two arrangements of the indicator
  agree because T, Z and X are arrays of reals under the finiteness precondition, and the class-major rows 63·k + n are
  the rows 10·n + k of W and V. The 64 blocks tile the result (column b lies in the block of point b / 1024), so after
  the run the result array is the score table G of the five argument arrays, and the arguments are unchanged.
-/
import proofs.«102738_j2078764171322_2_alg».proof.Defs
import proofs.«102738_j2078764171322_2_alg».proof.Proof.Gen.KernelIdeal.Value
import proofs.«102738_j2078764171322_2_alg».proof.Proof.Gen.Pre_finite_inputs
import proofs.«102738_j2078764171322_2_alg».proof.Proof.KernelHost
import proofs.«102738_j2078764171322_2_alg».proof.Proof.ThLaw
import proofs.«102738_j2078764171322_2_alg».proof.Proof.Finite

noncomputable section

open scoped BigOperators

namespace Cert.KernelIdeal.FinalValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.KernelIdeal.HostValue Cert.TreeScore

variable (m : (ℓ : Loc nD τ sig) → Buf (Elt Ideal) ℓ) (ρ : Dev nD → PrngReg)

/-- The six index maps over the grid: block `t` of X is the `t`-th block of 1024 rows, block `t` of the result the
    `t`-th block of 1024 columns, and the other four windows always show their whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- Entry (q, d) of block `t` of X is X at row 1024·t + q, column d. -/
theorem xblk_apply (c : Dev nD) (t : Fin cfg0.N) (q d : Fin 1024) (b : Fin 65536) (hb : b.val = 1024 * t.val + q.val) :
    (iblk m c 0 t : S1024x1024.Idx → EReal) (ix2 q d) = argX m c (ix2 b d) := by
  obtain ⟨e0, e1, -⟩ := idx_facts t
  show V m c main_arg0 (((cfg0.win 0).blk t).view.emb (ix2 q d)) = _
  rw [V_main_arg0]
  refine congrArg (argX m c) (funext fun a => Fin.ext ?_)
  match a with
  | ⟨0, _⟩ => show win0_0.index t (0 : Fin 2) * 1024 + 1 * q.val = b.val; omega
  | ⟨1, _⟩ => show win0_0.index t (1 : Fin 2) * 1024 + 1 * d.val = d.val; omega

/-- Window 1's one block is the whole of Z. -/
theorem zblk_eq (c : Dev nD) (t : Fin cfg0.N) : (iblk m c 1 t : S64x1024.Idx → EReal) = argZ m c := by
  obtain ⟨-, -, e0, e1, -⟩ := idx_facts t
  funext y
  show V m c main_arg1 (((cfg0.win 1).blk t).view.emb y) = _
  rw [V_main_arg1]
  refine congrArg (argZ m c) (funext fun a => Fin.ext ?_)
  match a with
  | ⟨0, _⟩ => show win0_1.index t (0 : Fin 2) * 64 + 1 * (y 0).val = (y 0).val; omega
  | ⟨1, _⟩ => show win0_1.index t (1 : Fin 2) * 1024 + 1 * (y 1).val = (y 1).val; omega

/-- Window 2's one block is the whole of the product T·Z. -/
theorem tzblk_eq (c : Dev nD) (t : Fin cfg0.N) : (iblk m c 2 t : S31x1024.Idx → EReal) = hostTZ m c := by
  obtain ⟨-, -, -, -, e0, e1, -⟩ := idx_facts t
  funext y
  show V m c main_v6 (((cfg0.win 2).blk t).view.emb y) = _
  refine congrArg (hostTZ m c) (funext fun a => Fin.ext ?_)
  match a with
  | ⟨0, _⟩ => show win0_2.index t (0 : Fin 2) * 31 + 1 * (y 0).val = (y 0).val; omega
  | ⟨1, _⟩ => show win0_2.index t (1 : Fin 2) * 1024 + 1 * (y 1).val = (y 1).val; omega

/-- Window 3's one block is the whole class-major copy of W. -/
theorem wblk_eq (c : Dev nD) (t : Fin cfg0.N) : (iblk m c 3 t : S630x64.Idx → EReal) = hostWc m c := by
  obtain ⟨-, -, -, -, -, -, e0, e1, -⟩ := idx_facts t
  funext y
  show V m c main_v2 (((cfg0.win 3).blk t).view.emb y) = _
  refine congrArg (hostWc m c) (funext fun a => Fin.ext ?_)
  match a with
  | ⟨0, _⟩ => show win0_3.index t (0 : Fin 2) * 630 + 1 * (y 0).val = (y 0).val; omega
  | ⟨1, _⟩ => show win0_3.index t (1 : Fin 2) * 64 + 1 * (y 1).val = (y 1).val; omega

/-- Window 4's one block is the whole class-major copy of V. -/
theorem vblk_eq (c : Dev nD) (t : Fin cfg0.N) : (iblk m c 4 t : S630x64.Idx → EReal) = hostVc m c := by
  obtain ⟨-, -, -, -, -, -, -, -, e0, e1, -⟩ := idx_facts t
  funext y
  show V m c main_v5 (((cfg0.win 4).blk t).view.emb y) = _
  refine congrArg (hostVc m c) (funext fun a => Fin.ext ?_)
  match a with
  | ⟨0, _⟩ => show win0_4.index t (0 : Fin 2) * 630 + 1 * (y 0).val = (y 0).val; omega
  | ⟨1, _⟩ => show win0_4.index t (1 : Fin 2) * 64 + 1 * (y 1).val = (y 1).val; omega

/-- One entry of a block's score is the whole result at the column the entry stands for: the block's inner column `y 1`
    is column `1024·s + y 1` when the block holds rows `1024·s …` of X, the other four operands being the whole arrays. -/
theorem block_entry (X : (⟨2, ![65536, 1024]⟩ : Shape).Idx → EReal) (Z : (⟨2, ![64, 1024]⟩ : Shape).Idx → EReal)
    (W Vg : (⟨2, ![630, 64]⟩ : Shape).Idx → EReal) (T : (⟨2, ![31, 64]⟩ : Shape).Idx → EReal)
    (Xb : (⟨2, ![1024, 1024]⟩ : Shape).Idx → EReal) (Zb : (⟨2, ![64, 1024]⟩ : Shape).Idx → EReal)
    (TZ : (⟨2, ![31, 1024]⟩ : Shape).Idx → EReal) (Wc Vc : (⟨2, ![630, 64]⟩ : Shape).Idx → EReal)
    (hZb : Zb = Z)
    (hT : ∀ i, ∃ r : ℝ, T i = (r : EReal)) (hZ : ∀ i, ∃ r : ℝ, Z i = (r : EReal)) (hX : ∀ i, ∃ r : ℝ, X i = (r : EReal))
    (hTZ : ∀ (i : Fin 31) (d : Fin 1024), TZ (ix2 i d) = ∑ p : Fin 64, T (ix2 i p) * Z (ix2 p d))
    (hWc : ∀ (k : Fin 10) (n : Fin 63) (p : Fin 64), Wc (ix2 (cnode k n) p) = W (ix2 (node n k) p))
    (hVc : ∀ (k : Fin 10) (n : Fin 63) (p : Fin 64), Vc (ix2 (cnode k n) p) = Vg (ix2 (node n k) p))
    (s : ℕ)
    (hXb : ∀ (q d : Fin 1024) (b : Fin 65536), b.val = 1024 * s + q.val → Xb (ix2 q d) = X (ix2 b d))
    (y : (⟨2, ![10, 1024]⟩ : Shape).Idx) (i : (⟨2, ![10, 65536]⟩ : Shape).Idx)
    (h0 : (i 0).val = (y 0).val) (h1 : (i 1).val = 1024 * s + (y 1).val) :
    blockScore Xb Zb TZ Wc Vc y = G X Z W Vg T i := by
  subst hZb
  have key := blockScore_eq_G X Zb W Vg T Xb TZ Wc Vc (y 0) (i 1) (y 1) hT hZ hX hTZ
    (fun d => hXb (y 1) d (i 1) h1) (hWc (y 0)) (hVc (y 0))
  have ey : y = ix2 (y 0) (y 1) := eq_ix2 y
  have ei : i = ix2 (y 0) (i 1) := by
    have e0 : i 0 = y 0 := Fin.ext h0
    rw [← e0]; exact eq_ix2 i
  rw [ey, ei]
  exact key

/-- If a point's output buffer is the block score of its operands, WHAT POINT `t` WRITES BACK is block `t` (columns 1024·t …) of the whole result. -/
theorem flushed_eq_of
    (hout : ∀ (x0 : Vec Ideal S1024x1024 .f32) (x1 : Vec Ideal S64x1024 .f32) (x2 : Vec Ideal S31x1024 .f32)
      (x3 x4 : Vec Ideal S630x64 .f32), out0_5 (F := Ideal) x0 x1 x2 x3 x4 = blockScore x0 x1 x2 x3 x4)
    (hpre : Cert.Pre_KernelIdeal m) (c : Dev nD) (t : Fin cfg0.N) :
    (dats m 0 c).flushed 5 t
      = ((cfg0.win 5).blk t).view.read (Elt Ideal) (G (argX m c) (argZ m c) (argW m c) (argV m c) (argT m c)) := by
  obtain ⟨hX, hZ, hT⟩ := Cert.FiniteArgs.real_of_pre _ _ _ _ _ (hpre c)
  obtain ⟨-, -, -, -, -, -, -, -, -, -, e50, e51⟩ := idx_facts t
  rw [Value.flushed5]
  rw [hout (iblk m c 0 t) (iblk m c 1 t) (iblk m c 2 t) (iblk m c 3 t) (iblk m c 4 t)]
  funext j
  show blockScore (iblk m c 0 t) (iblk m c 1 t) (iblk m c 2 t) (iblk m c 3 t) (iblk m c 4 t) j
    = G (argX m c) (argZ m c) (argW m c) (argV m c) (argT m c) (((cfg0.win 5).blk t).view.emb j)
  exact block_entry (argX m c) (argZ m c) (argW m c) (argV m c) (argT m c)
    (iblk m c 0 t) (iblk m c 1 t) (iblk m c 2 t) (iblk m c 3 t) (iblk m c 4 t)
    (zblk_eq m c t) hT hZ hX
    (fun i d => by rw [tzblk_eq m c t]; exact hostTZ_apply m c i d)
    (fun k n p => by rw [wblk_eq m c t]; exact hostWc_apply m c k n p)
    (fun k n p => by rw [vblk_eq m c t]; exact hostVc_apply m c k n p)
    t.val (fun q d b hb => xblk_apply m c t q d b hb) j (((cfg0.win 5).blk t).view.emb j)
    (by show win0_5.index t (0 : Fin 2) * 10 + 1 * (j 0).val = (j 0).val; omega)
    (by show win0_5.index t (1 : Fin 2) * 1024 + 1 * (j 1).val = 1024 * t.val + (j 1).val; omega)

/-- An index of the result is in point `t`'s block iff each coordinate is in the block's range on its axis. -/
theorem mem_blk (t : Fin cfg0.N) (i : S10x65536.Idx) :
    i ∈ ((cfg0.win 5).blk t).view.set ↔ ∀ a : Fin 2, win0_5.index t a * S10x1024.size a ≤ (i a).val ∧ (i a).val < win0_5.index t a * S10x1024.size a + S10x1024.size a := by
  show i ∈ ((View.whole main_v7).slice (win0_5.rect t)).set ↔ _
  rw [View.set_slice_whole, Rect.mem_set_unit]
  exact Iff.rfl

/-- Every index of the result is in some point's block: column b is in the block of point b / 1024. -/
theorem cover (i : S10x65536.Idx) :
    ∃ t : Fin cfg0.N, (cfg0.win 5).flush t = true ∧ i ∈ ((cfg0.win 5).blk t).view.set := by
  have hN : cfg0.N = 64 := N_0
  have hi0 : (i 0).val < 10 := (i 0).isLt
  have hi1 : (i 1).val < 65536 := (i 1).isLt
  have ht : (i 1).val / 1024 < cfg0.N := by rw [hN]; omega
  obtain ⟨-, -, -, -, -, -, -, -, -, -, e50, e51⟩ := idx_facts ⟨(i 1).val / 1024, ht⟩
  refine ⟨⟨(i 1).val / 1024, ht⟩, flush0_5 _, ?_⟩
  rw [mem_blk]
  intro a
  match a with
  | ⟨0, _⟩ =>
    show win0_5.index ⟨(i 1).val / 1024, ht⟩ (0 : Fin 2) * 10 ≤ (i 0).val ∧ (i 0).val < win0_5.index ⟨(i 1).val / 1024, ht⟩ (0 : Fin 2) * 10 + 10
    omega
  | ⟨1, _⟩ =>
    show win0_5.index ⟨(i 1).val / 1024, ht⟩ (1 : Fin 2) * 1024 ≤ (i 1).val ∧ (i 1).val < win0_5.index ⟨(i 1).val / 1024, ht⟩ (1 : Fin 2) * 1024 + 1024
    have e : win0_5.index ⟨(i 1).val / 1024, ht⟩ (1 : Fin 2) = (i 1).val / 1024 := e51
    omega

/-- THE RESULT ARRAY after the run is the whole score table. -/
theorem final_of
    (hout : ∀ (x0 : Vec Ideal S1024x1024 .f32) (x1 : Vec Ideal S64x1024 .f32) (x2 : Vec Ideal S31x1024 .f32)
      (x3 x4 : Vec Ideal S630x64 .f32), out0_5 (F := Ideal) x0 x1 x2 x3 x4 = blockScore x0 x1 x2 x3 x4)
    (hpre : Cert.Pre_KernelIdeal m) (c : Dev nD) :
    (dats m 0 c).arrAt 5 cfg0.N = G (argX m c) (argZ m c) (argW m c) (argV m c) (argT m c) :=
  (dats m 0 c).arrAt_eq_of_cover 5 (G (argX m c) (argZ m c) (argW m c) (argV m c) (argT m c))
    (fun t _ => flushed_eq_of m hout hpre c t) cover

/-- The blocked program's run, read: the result array ends at the score table of the five argument arrays, and the
    arguments end unchanged. -/
theorem run_G_of
    (hout : ∀ (x0 : Vec Ideal S1024x1024 .f32) (x1 : Vec Ideal S64x1024 .f32) (x2 : Vec Ideal S31x1024 .f32)
      (x3 x4 : Vec Ideal S630x64 .f32), out0_5 (F := Ideal) x0 x1 x2 x3 x4 = blockScore x0 x1 x2 x3 x4)
    (hpre : Cert.Pre_KernelIdeal m) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v7)
        = Cert.TreeScore.G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (final_of m hout hpre c), (h c).2⟩) (Value.run_blocks m ρ)

end Cert.KernelIdeal.FinalValue

end
-- ==== Proof.LibLinTile.lean ====
/-
  A tile of a linear layer and its column statistics, read entry by entry over the extended reals.

  * A matrix product whose two operands are both contracted along their LAST axis (dimension numbers
    `[1] × [1]`, no batch axes, free axes `[0]` and `[0]`): an `M × K` by `N × K` product accumulated into the
    zero matrix is, at entry `(a, b)`, `Σ_k l (a, k) · r (b, k)` — the left operand times the transpose of the
    right one. The dimension-number record is a variable with its six lists given by hypotheses.
  * A column `[m, 1]` broadcast along the second axis reads `(r, 0)` at `(r, c)`.
  * The sum of an `[m, n]` matrix along its first axis is, at column `c`, `Σ_p v (p, c)`; recast as a row
    `[1, n]` and added to a row it gives the running column sums.
  * The tile itself: with `agg, h : [m, K]`, a column `d : [m, 1]`, weights `wl, wr : [n, K]` and a bias row
    `b : [1, n]`, the value `((agg ∘ d) · wlᵀ + h · wrᵀ) + b` (operands passed through a change of format, which
    is the identity on the extended reals) is, at `(p, q)`,
    `(Σ_k (agg (p, k) · d (p, 0)) · wl (q, k) + Σ_k h (p, k) · wr (q, k)) + b (0, q)`.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.LibLinTile

open Idealize.ShloMosaic Idealize.ShloMosaic.ValueIdx

/-! ## The product with both operands contracted on their last axis -/

section Matmul

variable {M K N : Nat} (D : DotDims ⟨2, ![M, K]⟩ ⟨2, ![N, K]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `0`, the right operand's row is the result's column. -/
theorem rhs_row (hln : D.lhsNonContracting = [0]) (hrn : D.rhsNonContracting = [0]) (hlb : D.lhsBatch = [])
    (hrb : D.rhsBatch = []) (j : (⟨2, ![M, N]⟩ : Shape).Idx) (q : D.contr.Idx) : (D.rhsIdx j q 0).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- An `M × K` by `N × K` product, both contracted on the last axis, into the zero matrix, at entry `(a, b)`:
    `Σ_k l (a, k) · r (b, k)`. -/
theorem matmul_zero_apply {φ₁ φ₂ : FTy}
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (l : FVec Ideal ⟨2, ![M, K]⟩ φ₁) (r : FVec Ideal ⟨2, ![N, K]⟩ φ₂)
    (a : Fin M) (b : Fin N) :
    FloatOps.matmul D prec l r (constant (F := Ideal) ⟨2, ![M, N]⟩ .f32 0x00000000#32) (ix2 a b)
      = ∑ k : Fin K, l (ix2 a k) * r (ix2 b k) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 b k :=
    funext fun c => Fin.ext (by
      match c with
      | ⟨0, _⟩ => exact rhs_row D hln hrn hlb hrb _ _
      | ⟨1, _⟩ => exact (D.rhsIdx_val_of_single hrc _ _).trans hk)
  rw [el, er]

end Matmul

/-! ## A column broadcast along the rows' entries -/

/-- A column `[m, 1]` broadcast to `[m, n]`, read at `(r, c)`, is the column at `(r, 0)`. -/
theorem bcast_col {α : Type} {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r (0 : Fin 1)) :=
  broadcastTo_apply v h (ix2 r c) (ix2 r (0 : Fin 1)) (fun a => match a with
    | ⟨0, _⟩ => by show r.val = (if m = 1 then 0 else r.val); rw [if_neg hm]
    | ⟨1, _⟩ => by show 0 = (if (1 : ℕ) = 1 then 0 else c.val); rw [if_pos rfl])

/-! ## Sums down the columns -/

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (lift_col h c k)

/-- A row plus the column sums of a matrix kept as a row: at `(0, c)` the row's entry plus `Σ_p v (p, c)`. -/
theorem addColSum_apply {m n : ℕ} (row : FVec Ideal (⟨2, ![1, n]⟩ : Shape) .f32) (v : FVec Ideal (⟨2, ![m, n]⟩ : Shape) .f32)
    (acc : BitVec 32) (h : (⟨2, ![m, n]⟩ : Shape).Reduces [0] (⟨1, ![n]⟩ : Shape)) (hφ : FKind.Formats .f32)
    (hacc : acc = FKind.add.neutral .f32 hφ) (hc : (⟨1, ![n]⟩ : Shape).ShapeCasts ⟨2, ![1, n]⟩) (c : Fin n) :
    addf row (shapeCast ⟨2, ![1, n]⟩ (multiReduction .add [0] (⟨1, ![n]⟩ : Shape) v acc h hφ hacc) hc) (ix2 (0 : Fin 1) c)
      = row (ix2 (0 : Fin 1) c) + ∑ p : Fin m, v (ix2 p c) :=
  (addf_apply _ _ _).trans (congrArg (row (ix2 (0 : Fin 1) c) + ·)
    ((shapeCast_a_1a_apply _ hc 0 c).trans (colSum_apply v acc h hφ hacc c)))

/-! ## The tile -/

/-- The tile's value at `(p, q)`. -/
theorem tile_apply {m K n : ℕ} (D : DotDims ⟨2, ![m, K]⟩ ⟨2, ![n, K]⟩ ⟨2, ![m, n]⟩)
    (hlc : D.lhsContracting = [1]) (hrc : D.rhsContracting = [1]) (hln : D.lhsNonContracting = [0])
    (hrn : D.rhsNonContracting = [0]) (hlb : D.lhsBatch = []) (hrb : D.rhsBatch = [])
    (hm : m ≠ 1)
    (agg h : FVec Ideal ⟨2, ![m, K]⟩ .f32) (d : FVec Ideal ⟨2, ![m, 1]⟩ .f32) (wl wr : FVec Ideal ⟨2, ![n, K]⟩ .f32)
    (b : FVec Ideal ⟨2, ![1, n]⟩ .f32)
    (hbc : (⟨2, ![m, 1]⟩ : Shape).Broadcasts ⟨2, ![m, K]⟩) (hbr : (⟨2, ![1, n]⟩ : Shape).Broadcasts ⟨2, ![m, n]⟩)
    (hlt : FTy.bits .bf16 < FTy.bits .f32) (p : Fin m) (q : Fin n) :
    addf (addf
        (matmul D none (truncf .bf16 (mulf agg (broadcastTo ⟨2, ![m, K]⟩ d hbc)) hlt) (truncf .bf16 wl hlt)
          (constant (F := Ideal) ⟨2, ![m, n]⟩ .f32 0x00000000#32))
        (matmul D none (truncf .bf16 h hlt) (truncf .bf16 wr hlt) (constant (F := Ideal) ⟨2, ![m, n]⟩ .f32 0x00000000#32)))
      (broadcastTo ⟨2, ![m, n]⟩ b hbr) (ix2 p q)
      = ((∑ k : Fin K, (agg (ix2 p k) * d (ix2 p (0 : Fin 1))) * wl (ix2 q k)) + ∑ k : Fin K, h (ix2 p k) * wr (ix2 q k))
          + b (ix2 (0 : Fin 1) q) := by
  refine (addf_apply _ _ _).trans ?_
  refine congrArg₂ (· + ·) ((addf_apply _ _ _).trans (congrArg₂ (· + ·) ?_ ?_)) (broadcastTo_1b_ab_apply b hbr p q)
  · refine (matmul_zero_apply D hlc hrc hln hrn hlb hrb none _ _ p q).trans ?_
    refine Finset.sum_congr rfl fun k _ => ?_
    show (agg (ix2 p k) * broadcastTo ⟨2, ![m, K]⟩ d hbc (ix2 p k)) * wl (ix2 q k) = _
    rw [bcast_col hm d hbc p k]
  · exact matmul_zero_apply D hlc hrc hln hrn hlb hrb none _ _ p q

end Cert.LibLinTile

end
-- ==== Proof.KernelCols.lean ====
/-
  The body's intermediate values in one column `q` of the block, read at coordinates.

  * the 31 indicators: row `i` is tanh (10⁹ · ((Σ_d TZ(i,d)·X(q,d)) · (1/64)));
  * the projection: entry (p, q) is (Σ_d Z(p,d)·X(q,d)) · (1/64) (a change of float format is the identity);
  * the two stacked products: row `r` is Σ_p W(r,p)·proj(p,q);
  * one class's row: the lane sum over the 63 nodes of (prob · score) · tanh (gate).
-/
import proofs.«102738_j2078764171322_2_alg».proof.Proof.Gen.KernelIdeal.Skeleton
import proofs.«102738_j2078764171322_2_alg».proof.Proof.Spec
import proofs.«102738_j2078764171322_2_alg».proof.Proof.LibLinTile
import proofs.«102738_j2078764171322_2_alg».proof.Proof.LibPlainMatmul
import Idealize.ShloMosaic.Lib.ValueLayout
import Idealize.ShloMosaic.Lib.Pipeline.Value

noncomputable section

open scoped BigOperators

namespace Cert.KernelIdeal.BlockValue

open Idealize.ShloMosaic Idealize.ShloMosaic.ValueIdx Cert.KernelIdeal Cert.KernelIdeal.Gen Cert.TreeScore

/-- Row `i` of the indicators in column `q`. -/
theorem th_apply (x2 : Vec Ideal S31x1024 .f32) (x0 : Vec Ideal S1024x1024 .f32) (i : Fin 31) (q : Fin 1024) :
    k0_pay3 (F := Ideal) x2 x0 (ix2 i q) = thBlk x2 x0 q i.val := by
  unfold k0_pay3 thBlk
  rw [dif_pos i.isLt]
  refine congrArg (fun z => Ideal.tanh (big * (z * inv64))) ?_
  refine (Cert.LibLinTile.matmul_zero_apply _ rfl rfl rfl rfl rfl rfl _ _ _ i q).trans ?_
  rw [shapeCast_self]

/-- Entry (p, q) of the projection. -/
theorem proj_apply (x0 : Vec Ideal S1024x1024 .f32) (x1 : Vec Ideal S64x1024 .f32) (p : Fin 64) (q : Fin 1024) :
    k0_pay11 (F := Ideal) (k0_pay10 x0) x1 (ix2 p q) = projBlk x1 x0 p q := by
  unfold k0_pay11 k0_pay10 projBlk
  refine congrArg (fun z => z * inv64) ?_
  exact Cert.LibLinTile.matmul_zero_apply _ rfl rfl rfl rfl rfl rfl _ _ _ p q

/-- Row `r` of the stacked product with W in column `q`. -/
theorem wx_apply (v87 : FVec Ideal S1024x1024 .bf16) (v88 : Vec Ideal S64x1024 .f32) (v94 : Vec Ideal S630x64 .f32)
    (r : Fin 630) (q : Fin 1024) :
    k0_pay12 (F := Ideal) v87 v88 v94 (ix2 r q) = ∑ p : Fin 64, v94 (ix2 r p) * k0_pay11 v87 v88 (ix2 p q) := by
  unfold k0_pay12
  refine (Cert.LibPlainMatmul.matmul_zero_apply dot_S630x64_S64x1024_S630x1024_1_0_0_1_n_n rfl rfl rfl rfl rfl rfl none _ _ r q).trans ?_
  rw [shapeCast_self]
  rfl

/-- Row `r` of the stacked product with V in column `q`. -/
theorem vx_apply (v87 : FVec Ideal S1024x1024 .bf16) (v88 : Vec Ideal S64x1024 .f32) (v97 : Vec Ideal S630x64 .f32)
    (r : Fin 630) (q : Fin 1024) :
    k0_pay13 (F := Ideal) v87 v88 v97 (ix2 r q) = ∑ p : Fin 64, v97 (ix2 r p) * k0_pay11 v87 v88 (ix2 p q) := by
  unfold k0_pay13
  refine (Cert.LibPlainMatmul.matmul_zero_apply dot_S630x64_S64x1024_S630x1024_1_0_0_1_n_n rfl rfl rfl rfl rfl rfl none _ _ r q).trans ?_
  rw [shapeCast_self]
  rfl

/-- One class's row from the probabilities and the class's 63 rows of the two products. -/
def classRow (pr wxs vxs : FVec Ideal S63x1024 .f32) : FVec Ideal S1x1024 .f32 :=
  shapeCast S1x1024 (multiReduction .add [0] S1024 (mulf (mulf pr wxs) (tanh vxs)) 0x00000000#32 reduces_S63x1024_S1024 (.inl rfl) rfl)
    shapeCasts_S1024_S1x1024

theorem classRow_apply (pr wxs vxs : FVec Ideal S63x1024 .f32) (q : Fin 1024) :
    classRow pr wxs vxs (ix2 (0 : Fin 1) q)
      = ∑ n : Fin 63, (pr (ix2 n q) * wxs (ix2 n q)) * Ideal.tanh (vxs (ix2 n q)) := by
  unfold classRow
  refine (shapeCast_a_1a_apply _ _ (0 : Fin 1) q).trans ?_
  exact Cert.LibLinTile.colSum_apply _ _ _ _ _ q

/-- Rows `o … o + 62` of a stacked product. -/
theorem rows_apply (o : ℕ) (X : FVec Ideal S630x1024 .f32) (h : S630x1024.Slices ![o, 0] S63x1024) (n : Fin 63) (q : Fin 1024)
    (r : Fin 630) (hr : r.val = o + n.val) :
    extractStridedSlice S63x1024 ![o, 0] X h (ix2 n q) = X (ix2 r q) :=
  extractStridedSlice_apply _ X h (ix2 n q) (ix2 r q) (fun a => by
    match a with
    | ⟨0, _⟩ => exact hr
    | ⟨1, _⟩ => exact (Nat.zero_add _).symm)

end Cert.KernelIdeal.BlockValue

end
-- ==== Proof.TreeLayout.lean ====
/-
  The two layout steps of a complete binary tree held level by level in the rows of a matrix.

  * Interleaving: two arrays `a', b' : [k, 1, N]` joined along the middle axis into `[k, 2, N]` and flattened to
    `[2k, N]` put `a'`'s row `i` at row `2i` and `b'`'s row `i` at row `2i + 1`: the children of node `i` side by
    side, the even one from `a'`, the odd one from `b'`.
  * One level of path probabilities: if in column `q` the two arrays hold (P i · (1 + T i))·½ and (P i · (1 − T i))·½,
    the interleaved array holds `step P T` (the next level) in that column.
  * The six levels of 1, 2, 4, 8, 16, 32 rows laid end to end along the rows: row `r` of the 63 is row
    `r − (2^l − 1)` of level `l`, the level whose span holds `r`.
-/
import proofs.«102738_j2078764171322_2_alg».proof.Proof.Spec
import proofs.«102738_j2078764171322_2_alg».proof.Proof.LibOuterSumLayout

noncomputable section

namespace Cert.TreeLayout

open Idealize.ShloMosaic Idealize.ShloMosaic.ValueIdx

variable {α : Type}

/-- Row `2i` of the interleaved array is row `i` of the first array. -/
theorem interleave_even {k N k2 : ℕ} (a' b' : (⟨3, ![k, 1, N]⟩ : Shape).Idx → α)
    (hc : Shape.Concatenates [(⟨3, ![k, 1, N]⟩ : Shape), ⟨3, ![k, 1, N]⟩] ⟨3, ![k, 2, N]⟩ 1)
    (h2 : (⟨3, ![k, 2, N]⟩ : Shape).ShapeCasts ⟨2, ![k2, N]⟩) (i : Fin k) (q : Fin N) (p : Fin k2)
    (hp : p.val = i.val * 2) :
    shapeCast ⟨2, ![k2, N]⟩ (concatenate ⟨3, ![k, 2, N]⟩ 1 [⟨⟨3, ![k, 1, N]⟩, a'⟩, ⟨⟨3, ![k, 1, N]⟩, b'⟩] hc) h2 (ix2 p q)
      = a' (ix3 i (0 : Fin 1) q) := by
  rw [Cert.LibOuterSumLayout.shapeCast_abc_nc_apply _ h2 i (0 : Fin 2) q p (by rw [hp]; rfl)]
  exact concatenate_pair_apply_left 1 a' b' hc (ix3 i (0 : Fin 2) q) rfl (ix3 i (0 : Fin 1) q) (fun b => by
    match b with
    | ⟨0, _⟩ => rfl
    | ⟨1, _⟩ => rfl
    | ⟨2, _⟩ => rfl)

/-- Row `2i + 1` of the interleaved array is row `i` of the second array. -/
theorem interleave_odd {k N k2 : ℕ} (a' b' : (⟨3, ![k, 1, N]⟩ : Shape).Idx → α)
    (hc : Shape.Concatenates [(⟨3, ![k, 1, N]⟩ : Shape), ⟨3, ![k, 1, N]⟩] ⟨3, ![k, 2, N]⟩ 1)
    (h2 : (⟨3, ![k, 2, N]⟩ : Shape).ShapeCasts ⟨2, ![k2, N]⟩) (i : Fin k) (q : Fin N) (p : Fin k2)
    (hp : p.val = i.val * 2 + 1) :
    shapeCast ⟨2, ![k2, N]⟩ (concatenate ⟨3, ![k, 2, N]⟩ 1 [⟨⟨3, ![k, 1, N]⟩, a'⟩, ⟨⟨3, ![k, 1, N]⟩, b'⟩] hc) h2 (ix2 p q)
      = b' (ix3 i (0 : Fin 1) q) := by
  rw [Cert.LibOuterSumLayout.shapeCast_abc_nc_apply _ h2 i (1 : Fin 2) q p (by rw [hp]; rfl)]
  exact concatenate_pair_apply_right 1 a' b' hc (ix3 i (1 : Fin 2) q) rfl rfl (ix3 i (0 : Fin 1) q) (fun b hb => by
    match b, hb with
    | ⟨0, _⟩, _ => rfl
    | ⟨1, _⟩, hb => exact absurd rfl hb
    | ⟨2, _⟩, _ => rfl) rfl

/-- One level: from (P i · (1 + T i))·½ and (P i · (1 − T i))·½ in column `q`, the interleaved array holds the next level. -/
theorem level_apply {k N k2 : ℕ} (hk : k2 = 2 * k) (a' b' : (⟨3, ![k, 1, N]⟩ : Shape).Idx → EReal)
    (hc : Shape.Concatenates [(⟨3, ![k, 1, N]⟩ : Shape), ⟨3, ![k, 1, N]⟩] ⟨3, ![k, 2, N]⟩ 1)
    (h2 : (⟨3, ![k, 2, N]⟩ : Shape).ShapeCasts ⟨2, ![k2, N]⟩) (q : Fin N) (P T : ℕ → EReal)
    (ha : ∀ i : Fin k, a' (ix3 i (0 : Fin 1) q) = (P i.val * (Cert.TreeScore.one + T i.val)) * Cert.TreeScore.half)
    (hb : ∀ i : Fin k, b' (ix3 i (0 : Fin 1) q) = (P i.val * (Cert.TreeScore.one - T i.val)) * Cert.TreeScore.half)
    (p : Fin k2) :
    shapeCast ⟨2, ![k2, N]⟩ (concatenate ⟨3, ![k, 2, N]⟩ 1 [⟨⟨3, ![k, 1, N]⟩, a'⟩, ⟨⟨3, ![k, 1, N]⟩, b'⟩] hc) h2 (ix2 p q)
      = Cert.TreeScore.step P T p.val := by
  have hlt : p.val / 2 < k := by have := p.isLt; omega
  unfold Cert.TreeScore.step
  by_cases he : p.val % 2 = 0
  · rw [if_pos he, interleave_even a' b' hc h2 ⟨p.val / 2, hlt⟩ q p (by show p.val = p.val / 2 * 2; omega)]
    exact ha ⟨p.val / 2, hlt⟩
  · rw [if_neg he, interleave_odd a' b' hc h2 ⟨p.val / 2, hlt⟩ q p (by show p.val = p.val / 2 * 2 + 1; omega)]
    exact hb ⟨p.val / 2, hlt⟩

/-- The six levels end to end: row `r` of the 63 reads the level whose span holds it. -/
theorem concat6_apply {N : ℕ}
    (x0 : (⟨2, ![1, N]⟩ : Shape).Idx → α) (x1 : (⟨2, ![2, N]⟩ : Shape).Idx → α) (x2 : (⟨2, ![4, N]⟩ : Shape).Idx → α)
    (x3 : (⟨2, ![8, N]⟩ : Shape).Idx → α) (x4 : (⟨2, ![16, N]⟩ : Shape).Idx → α) (x5 : (⟨2, ![32, N]⟩ : Shape).Idx → α)
    (h : Shape.Concatenates [(⟨2, ![1, N]⟩ : Shape), ⟨2, ![2, N]⟩, ⟨2, ![4, N]⟩, ⟨2, ![8, N]⟩, ⟨2, ![16, N]⟩, ⟨2, ![32, N]⟩]
      ⟨2, ![63, N]⟩ 0)
    (q : Fin N) (Q0 Q1 Q2 Q3 Q4 Q5 : ℕ → α)
    (h0 : ∀ i : Fin 1, x0 (ix2 i q) = Q0 i.val) (h1 : ∀ i : Fin 2, x1 (ix2 i q) = Q1 i.val)
    (h2 : ∀ i : Fin 4, x2 (ix2 i q) = Q2 i.val) (h3 : ∀ i : Fin 8, x3 (ix2 i q) = Q3 i.val)
    (h4 : ∀ i : Fin 16, x4 (ix2 i q) = Q4 i.val) (h5 : ∀ i : Fin 32, x5 (ix2 i q) = Q5 i.val) (r : Fin 63) :
    concatenate ⟨2, ![63, N]⟩ 0 [⟨⟨2, ![1, N]⟩, x0⟩, ⟨⟨2, ![2, N]⟩, x1⟩, ⟨⟨2, ![4, N]⟩, x2⟩, ⟨⟨2, ![8, N]⟩, x3⟩,
        ⟨⟨2, ![16, N]⟩, x4⟩, ⟨⟨2, ![32, N]⟩, x5⟩] h (ix2 r q)
      = if r.val < 1 then Q0 r.val else if r.val < 3 then Q1 (r.val - 1) else if r.val < 7 then Q2 (r.val - 3)
        else if r.val < 15 then Q3 (r.val - 7) else if r.val < 31 then Q4 (r.val - 15) else Q5 (r.val - 31) := by
  have hr := r.isLt
  -- off the axis the coordinates agree; on it the row is the level's first row plus the row inside the level
  have off : ∀ {n : ℕ} (e : Fin n) (b : Fin (⟨2, ![n, N]⟩ : Shape).rank),
      b.cast (rfl : (⟨2, ![n, N]⟩ : Shape).rank = (⟨2, ![63, N]⟩ : Shape).rank) ≠ (0 : Fin 2) →
      ((ix2 e q : (⟨2, ![n, N]⟩ : Shape).Idx) b).val = ((ix2 r q : (⟨2, ![63, N]⟩ : Shape).Idx) (b.cast rfl)).val := by
    intro n e b hb
    match b, hb with
    | ⟨0, _⟩, hb => exact absurd rfl hb
    | ⟨1, _⟩, _ => rfl
  have key := concatenate_apply_piece (α := α) (t := ⟨2, ![63, N]⟩) 0
    [⟨⟨2, ![1, N]⟩, x0⟩, ⟨⟨2, ![2, N]⟩, x1⟩, ⟨⟨2, ![4, N]⟩, x2⟩, ⟨⟨2, ![8, N]⟩, x3⟩, ⟨⟨2, ![16, N]⟩, x4⟩, ⟨⟨2, ![32, N]⟩, x5⟩]
    h (ix2 r q)
  by_cases c1 : r.val < 1
  · rw [if_pos c1]
    exact (key 0 (by simp) _ x0 rfl rfl 0 rfl (ix2 ⟨r.val, c1⟩ q) (off _)
      (by show 0 + r.val = r.val; omega)).trans (h0 ⟨r.val, c1⟩)
  rw [if_neg c1]
  by_cases c2 : r.val < 3
  · rw [if_pos c2]
    exact (key 1 (by simp) _ x1 rfl rfl 1 rfl (ix2 ⟨r.val - 1, by omega⟩ q) (off _)
      (by show 1 + (r.val - 1) = r.val; omega)).trans (h1 ⟨r.val - 1, by omega⟩)
  rw [if_neg c2]
  by_cases c3 : r.val < 7
  · rw [if_pos c3]
    exact (key 2 (by simp) _ x2 rfl rfl 3 rfl (ix2 ⟨r.val - 3, by omega⟩ q) (off _)
      (by show 3 + (r.val - 3) = r.val; omega)).trans (h2 ⟨r.val - 3, by omega⟩)
  rw [if_neg c3]
  by_cases c4 : r.val < 15
  · rw [if_pos c4]
    exact (key 3 (by simp) _ x3 rfl rfl 7 rfl (ix2 ⟨r.val - 7, by omega⟩ q) (off _)
      (by show 7 + (r.val - 7) = r.val; omega)).trans (h3 ⟨r.val - 7, by omega⟩)
  rw [if_neg c4]
  by_cases c5 : r.val < 31
  · rw [if_pos c5]
    exact (key 4 (by simp) _ x4 rfl rfl 15 rfl (ix2 ⟨r.val - 15, by omega⟩ q) (off _)
      (by show 15 + (r.val - 15) = r.val; omega)).trans (h4 ⟨r.val - 15, by omega⟩)
  rw [if_neg c5]
  exact (key 5 (by simp) _ x5 rfl rfl 31 rfl (ix2 ⟨r.val - 31, by omega⟩ q) (off _)
    (by show 31 + (r.val - 31) = r.val; omega)).trans (h5 ⟨r.val - 31, by omega⟩)

end Cert.TreeLayout

end
-- ==== Proof.KernelProbs.lean ====
/-
  The 63 path probabilities in one column `q` of the block.

  Each level is formed from the level above and a slice of the indicator rows: the two products
  (prev · (1 + t)) · ½ and (prev · (1 − t)) · ½, each viewed as [k, 1, N], joined along the middle axis and
  flattened to [2k, N]: the next level (TreeLayout). The six levels are then laid end to end.
-/
import proofs.«102738_j2078764171322_2_alg».proof.Proof.Gen.KernelIdeal.Skeleton
import proofs.«102738_j2078764171322_2_alg».proof.Proof.Spec
import proofs.«102738_j2078764171322_2_alg».proof.Proof.TreeLayout
import Idealize.ShloMosaic.Lib.ValueLayout
import Idealize.ShloMosaic.Lib.Pipeline.Value

noncomputable section

open scoped BigOperators

namespace Cert.KernelIdeal.BlockValue

open Idealize.ShloMosaic Idealize.ShloMosaic.ValueIdx Cert.KernelIdeal Cert.KernelIdeal.Gen Cert.TreeScore

/-- One level in the blocked program's form, from what the level above, the indicator slice and the splat
    constants hold in column `q`. -/
theorem level_of_cols {k N k2 : ℕ} (hk : k2 = 2 * k) (prev sl o1 o2 f1 f2 : FVec Ideal ⟨2, ![k, N]⟩ .f32)
    (h1 : (⟨2, ![k, N]⟩ : Shape).ShapeCasts ⟨3, ![k, 1, N]⟩)
    (hc : Shape.Concatenates [(⟨3, ![k, 1, N]⟩ : Shape), ⟨3, ![k, 1, N]⟩] ⟨3, ![k, 2, N]⟩ 1)
    (h2 : (⟨3, ![k, 2, N]⟩ : Shape).ShapeCasts ⟨2, ![k2, N]⟩) (q : Fin N) (P T : ℕ → EReal)
    (hP : ∀ i : Fin k, prev (ix2 i q) = P i.val) (hT : ∀ i : Fin k, sl (ix2 i q) = T i.val)
    (ho1 : ∀ i : Fin k, o1 (ix2 i q) = one) (ho2 : ∀ i : Fin k, o2 (ix2 i q) = one)
    (hf1 : ∀ i : Fin k, f1 (ix2 i q) = half) (hf2 : ∀ i : Fin k, f2 (ix2 i q) = half) (p : Fin k2) :
    shapeCast ⟨2, ![k2, N]⟩ (concatenate ⟨3, ![k, 2, N]⟩ 1
        [⟨⟨3, ![k, 1, N]⟩, shapeCast ⟨3, ![k, 1, N]⟩ (mulf (mulf prev (addf o1 sl)) f1) h1⟩,
         ⟨⟨3, ![k, 1, N]⟩, shapeCast ⟨3, ![k, 1, N]⟩ (mulf (mulf prev (subf o2 sl)) f2) h1⟩] hc) h2 (ix2 p q)
      = step P T p.val :=
  Cert.TreeLayout.level_apply hk _ _ hc h2 q P T
    (fun i => (Cert.LibOuterSumLayout.shapeCast_ac_a1c_apply _ h1 i 0 q).trans (by
      show (prev (ix2 i q) * (o1 (ix2 i q) + sl (ix2 i q))) * f1 (ix2 i q) = _
      rw [hP, hT, ho1, hf1]))
    (fun i => (Cert.LibOuterSumLayout.shapeCast_ac_a1c_apply _ h1 i 0 q).trans (by
      show (prev (ix2 i q) * (o2 (ix2 i q) - sl (ix2 i q))) * f2 (ix2 i q) = _
      rw [hP, hT, ho2, hf2])) p

/-- Level 1 (two nodes). -/
theorem lvl1_apply (x2 : Vec Ideal S31x1024 .f32) (x0 : Vec Ideal S1024x1024 .f32) (th : ℕ → EReal) (q : Fin 1024)
    (hth : ∀ i : Fin 31, k0_pay3 (F := Ideal) x2 x0 (ix2 i q) = th i.val) (p : Fin 2) :
    k0_pay5 (F := Ideal) x2 x0 (ix2 p q) = P1 th p.val := by
  unfold k0_pay5 P1
  exact level_of_cols (k := 1) (N := 1024) rfl _ _ _ _ _ _ _ _ _ q P0 (fun i => th (0 + i))
    (fun _ => rfl)
    (fun i => (slice2_axis0_apply 0 _ _ i q ⟨0 + i.val, by omega⟩ rfl).trans (hth _))
    (fun _ => rfl) (fun _ => rfl) (fun _ => rfl) (fun _ => rfl) p

/-- Level 2 (four nodes). -/
theorem lvl2_apply (x2 : Vec Ideal S31x1024 .f32) (x0 : Vec Ideal S1024x1024 .f32) (th : ℕ → EReal) (q : Fin 1024)
    (hth : ∀ i : Fin 31, k0_pay3 (F := Ideal) x2 x0 (ix2 i q) = th i.val) (p : Fin 4) :
    k0_pay6 (F := Ideal) x2 x0 (ix2 p q) = P2 th p.val := by
  unfold k0_pay6 P2
  exact level_of_cols (k := 2) (N := 1024) rfl _ _ _ _ _ _ _ _ _ q (P1 th) (fun i => th (1 + i))
    (fun i => lvl1_apply x2 x0 th q hth i)
    (fun i => (slice2_axis0_apply 1 _ _ i q ⟨1 + i.val, by omega⟩ rfl).trans (hth _))
    (fun _ => rfl) (fun _ => rfl) (fun _ => rfl) (fun _ => rfl) p

/-- The 63 probabilities from the indicators, the root level, levels 1 and 2, the indicator rows 3…6 and a splat of 1. -/
theorem probs_apply (v8 : FVec Ideal S31x1024 .f32) (v9 : FVec Ideal S1x1024 .f32) (v24 : FVec Ideal S2x1024 .f32)
    (v39 v40 v41 : FVec Ideal S4x1024 .f32) (th : ℕ → EReal) (q : Fin 1024)
    (h8 : ∀ i : Fin 31, v8 (ix2 i q) = th i.val) (h9 : ∀ i : Fin 1, v9 (ix2 i q) = P0 i.val)
    (h24 : ∀ i : Fin 2, v24 (ix2 i q) = P1 th i.val) (h39 : ∀ i : Fin 4, v39 (ix2 i q) = P2 th i.val)
    (h40 : ∀ i : Fin 4, v40 (ix2 i q) = th (3 + i.val)) (h41 : ∀ i : Fin 4, v41 (ix2 i q) = one) (n : Fin 63) :
    k0_pay9 (F := Ideal) v8 v9 v24 v39 v40 v41 (ix2 n q) = probs th n.val := by
  have l3 : ∀ p : Fin 8, _ = P3 th p.val := fun p =>
    level_of_cols (k := 4) (N := 1024) (k2 := 8) rfl v39 v40 v41 (broadcast S4x1024 (Scalar.ofBits .f32 0x3F800000#32))
      (broadcast S4x1024 (Scalar.ofBits .f32 0x3F000000#32)) (broadcast S4x1024 (Scalar.ofBits .f32 0x3F000000#32))
      shapeCasts_S4x1024_S4x1x1024 concatenates_S4x1x1024_S4x1x1024_S4x2x1024_d1 shapeCasts_S4x2x1024_S8x1024 q (P2 th)
      (fun i => th (3 + i)) h39 h40 h41 (fun _ => rfl) (fun _ => rfl) (fun _ => rfl) p
  have l4 : ∀ p : Fin 16, _ = P4 th p.val := fun p =>
    level_of_cols (k := 8) (N := 1024) (k2 := 16) rfl _ (extractStridedSlice S8x1024 ![7, 0] v8 slices_S31x1024_o7_0_S8x1024)
      (broadcast S8x1024 (Scalar.ofBits .f32 0x3F800000#32)) (broadcast S8x1024 (Scalar.ofBits .f32 0x3F800000#32))
      (broadcast S8x1024 (Scalar.ofBits .f32 0x3F000000#32)) (broadcast S8x1024 (Scalar.ofBits .f32 0x3F000000#32))
      shapeCasts_S8x1024_S8x1x1024 concatenates_S8x1x1024_S8x1x1024_S8x2x1024_d1 shapeCasts_S8x2x1024_S16x1024 q (P3 th)
      (fun i => th (7 + i)) l3
      (fun i => (slice2_axis0_apply 7 _ _ i q ⟨7 + i.val, by omega⟩ rfl).trans (h8 _))
      (fun _ => rfl) (fun _ => rfl) (fun _ => rfl) (fun _ => rfl) p
  have l5 : ∀ p : Fin 32, _ = P5 th p.val := fun p =>
    level_of_cols (k := 16) (N := 1024) (k2 := 32) rfl _ (extractStridedSlice S16x1024 ![15, 0] v8 slices_S31x1024_o15_0_S16x1024)
      (broadcast S16x1024 (Scalar.ofBits .f32 0x3F800000#32)) (broadcast S16x1024 (Scalar.ofBits .f32 0x3F800000#32))
      (broadcast S16x1024 (Scalar.ofBits .f32 0x3F000000#32)) (broadcast S16x1024 (Scalar.ofBits .f32 0x3F000000#32))
      shapeCasts_S16x1024_S16x1x1024 concatenates_S16x1x1024_S16x1x1024_S16x2x1024_d1 shapeCasts_S16x2x1024_S32x1024 q (P4 th)
      (fun i => th (15 + i)) l4
      (fun i => (slice2_axis0_apply 15 _ _ i q ⟨15 + i.val, by omega⟩ rfl).trans (h8 _))
      (fun _ => rfl) (fun _ => rfl) (fun _ => rfl) (fun _ => rfl) p
  unfold k0_pay9 probs
  exact Cert.TreeLayout.concat6_apply _ _ _ _ _ _ _ q P0 (P1 th) (P2 th) (P3 th) (P4 th) (P5 th) h9 h24 h39 l3 l4 l5 n

end Cert.KernelIdeal.BlockValue

end
-- ==== Proof.KernelBlock.lean ====
/-
  What one grid point leaves in its output block: the ten stored rows together are the block of class scores
  of the point's 1024 columns.

  Row `c` of the block is stored once, through the rectangle of row `c`; its payload is the lane sum over the 63
  nodes of (prob · score) · tanh (gate), with the class's scores in rows 63c … 63c + 62 of the two stacked
  products. Read at (c, q) that is the score of class `c` in the block's column `q`.
-/
import proofs.«102738_j2078764171322_2_alg».proof.Proof.Gen.KernelIdeal.Frame
import proofs.«102738_j2078764171322_2_alg».proof.Proof.Spec
import proofs.«102738_j2078764171322_2_alg».proof.Proof.KernelCols
import proofs.«102738_j2078764171322_2_alg».proof.Proof.KernelProbs

noncomputable section

open scoped BigOperators

namespace Cert.KernelIdeal.BlockValue

open Idealize.ShloMosaic Idealize.ShloMosaic.ValueIdx Cert.KernelIdeal Cert.KernelIdeal.Gen Cert.TreeScore

/-- The 63 path probabilities of every column of the block, from the block of X and TZ. -/
def prAll (x2 : Vec Ideal S31x1024 .f32) (x0 : Vec Ideal S1024x1024 .f32) : FVec Ideal S63x1024 .f32 :=
  k0_pay9 (k0_pay3 x2 x0) (k0_pay4 (F := Ideal)) (k0_pay5 x2 x0) (k0_pay6 x2 x0) (k0_pay7 x2 x0) (k0_pay8 (F := Ideal))

theorem prAll_apply (x2 : Vec Ideal S31x1024 .f32) (x0 : Vec Ideal S1024x1024 .f32) (n : Fin 63) (q : Fin 1024) :
    prAll x2 x0 (ix2 n q) = probs (thBlk x2 x0 q) n.val :=
  probs_apply _ _ _ _ _ _ (thBlk x2 x0 q) q (fun i => th_apply x2 x0 i q) (fun _ => rfl)
    (fun i => lvl1_apply x2 x0 _ q (fun i => th_apply x2 x0 i q) i)
    (fun i => lvl2_apply x2 x0 _ q (fun i => th_apply x2 x0 i q) i)
    (fun i => by
      unfold k0_pay7
      exact (slice2_axis0_apply 3 _ _ i q ⟨3 + i.val, by omega⟩ rfl).trans (th_apply x2 x0 _ q))
    (fun _ => rfl) n

/-- Class `c`'s row: the lane sum over the class's 63 rows of the stacked products is the class's score. -/
theorem row_apply (x0 : Vec Ideal S1024x1024 .f32) (x1 : Vec Ideal S64x1024 .f32) (x2 : Vec Ideal S31x1024 .f32)
    (x3 x4 : Vec Ideal S630x64 .f32) (c : Fin 10) (o : ℕ) (ho : o = c.val * 63)
    (h : S630x1024.Slices ![o, 0] S63x1024) (q : Fin 1024) :
    classRow (prAll x2 x0) (extractStridedSlice S63x1024 ![o, 0] (k0_pay12 (k0_pay10 x0) x1 x3) h)
        (extractStridedSlice S63x1024 ![o, 0] (k0_pay13 (k0_pay10 x0) x1 x4) h) (ix2 (0 : Fin 1) q)
      = blockScore x0 x1 x2 x3 x4 (ix2 c q) := by
  rw [classRow_apply]
  show _ = score (thBlk x2 x0 q) (fun n => ∑ p : Fin 64, x3 (ix2 (cnode c n) p) * projBlk x1 x0 p q)
    (fun n => ∑ p : Fin 64, x4 (ix2 (cnode c n) p) * projBlk x1 x0 p q)
  unfold score
  refine Finset.sum_congr rfl fun n _ => ?_
  rw [prAll_apply, slice2_axis0_apply o _ h n q (cnode c n) (by rw [ho]; rfl),
    slice2_axis0_apply o _ h n q (cnode c n) (by rw [ho]; rfl), wx_apply, vx_apply]
  simp only [proj_apply]

/-- A row stored through the rectangle of row `c` that holds class `c`'s scores agrees with the block score there. -/
theorem piece_ok (x0 : Vec Ideal S1024x1024 .f32) (x1 : Vec Ideal S64x1024 .f32) (x2 : Vec Ideal S31x1024 .f32)
    (x3 x4 : Vec Ideal S630x64 .f32) (c : Fin 10) (o : ℕ) (ho : o = c.val)
    (inb : ∀ a, (![o, 0] : Fin 2 → ℕ) a + S1x1024.size a ≤ S10x1024.size a) (w : FVec Ideal S1x1024 .f32)
    (hw : ∀ q : Fin 1024, w (ix2 (0 : Fin 1) q) = blockScore x0 x1 x2 x3 x4 (ix2 c q))
    (x : (Rect.unit (s := S10x1024) ![o, 0] S1x1024.size inb).shape.Idx) :
    w x = blockScore x0 x1 x2 x3 x4 ((Rect.unit (s := S10x1024) ![o, 0] S1x1024.size inb).emb x) := by
  have h0 : (x (0 : Fin 2)).val = 0 := by have := (x (0 : Fin 2)).isLt; exact Nat.lt_one_iff.mp this
  let q : Fin 1024 := x (1 : Fin 2)
  have hx : x = (ix2 (0 : Fin 1) q : S1x1024.Idx) := funext fun a => Fin.ext (by
    match a with
    | ⟨0, _⟩ => exact h0
    | ⟨1, _⟩ => rfl)
  have he : (Rect.unit (s := S10x1024) ![o, 0] S1x1024.size inb).emb x = (ix2 c q : S10x1024.Idx) := funext fun a => Fin.ext (by
    match a with
    | ⟨0, _⟩ => show o + 1 * (x (0 : Fin 2)).val = c.val; omega
    | ⟨1, _⟩ => show 0 + 1 * (x (1 : Fin 2)).val = (x (1 : Fin 2)).val; omega)
  exact (congrArg w hx).trans ((hw q).trans (congrArg (blockScore x0 x1 x2 x3 x4) he.symm))

/-- The output buffer after the body, from the five input blocks, is the block score. -/
theorem out_eq (x0 : Vec Ideal S1024x1024 .f32) (x1 : Vec Ideal S64x1024 .f32) (x2 : Vec Ideal S31x1024 .f32)
    (x3 x4 : Vec Ideal S630x64 .f32) :
    out0_5 (F := Ideal) x0 x1 x2 x3 x4 = Cert.TreeScore.blockScore x0 x1 x2 x3 x4 := by
  have hz : (![0, 0] : Fin 2 → ℕ) = fun _ => 0 := by funext a; fin_cases a <;> rfl
  have e0 : View.ld x0 r0_1 = x0 := View.ld_unit_zero hz _ x0
  have e1 : View.ld x1 r0_2 = x1 := View.ld_unit_zero hz _ x1
  have e2 : View.ld x2 r0_0 = x2 := View.ld_unit_zero hz _ x2
  have e3 : View.ld x3 r0_3 = x3 := View.ld_unit_zero hz _ x3
  have e4 : View.ld x4 r0_3 = x4 := View.ld_unit_zero hz _ x4
  funext y
  unfold out0_5
  rw [e0, e1, e2, e3, e4]
  refine View.canon_apply_of_pieces (Val := Elt Ideal) (S := S10x1024) (e := .f32) (blockScore x0 x1 x2 x3 x4) _ ?_ y (cover0_5 _ _ _ _ _ _ _ _ _ _ y)
  intro p hp x
  rcases List.mem_cons.1 hp with rfl | hp
  · exact piece_ok x0 x1 x2 x3 x4 9 9 rfl inb_S10x1024_S1x1024_9_0 _ (fun q => row_apply x0 x1 x2 x3 x4 9 567 rfl slices_S630x1024_o567_0_S63x1024 q) x
  rcases List.mem_cons.1 hp with rfl | hp
  · exact piece_ok x0 x1 x2 x3 x4 8 8 rfl inb_S10x1024_S1x1024_8_0 _ (fun q => row_apply x0 x1 x2 x3 x4 8 504 rfl slices_S630x1024_o504_0_S63x1024 q) x
  rcases List.mem_cons.1 hp with rfl | hp
  · exact piece_ok x0 x1 x2 x3 x4 7 7 rfl inb_S10x1024_S1x1024_7_0 _ (fun q => row_apply x0 x1 x2 x3 x4 7 441 rfl slices_S630x1024_o441_0_S63x1024 q) x
  rcases List.mem_cons.1 hp with rfl | hp
  · exact piece_ok x0 x1 x2 x3 x4 6 6 rfl inb_S10x1024_S1x1024_6_0 _ (fun q => row_apply x0 x1 x2 x3 x4 6 378 rfl slices_S630x1024_o378_0_S63x1024 q) x
  rcases List.mem_cons.1 hp with rfl | hp
  · exact piece_ok x0 x1 x2 x3 x4 5 5 rfl inb_S10x1024_S1x1024_5_0 _ (fun q => row_apply x0 x1 x2 x3 x4 5 315 rfl slices_S630x1024_o315_0_S63x1024 q) x
  rcases List.mem_cons.1 hp with rfl | hp
  · exact piece_ok x0 x1 x2 x3 x4 4 4 rfl inb_S10x1024_S1x1024_4_0 _ (fun q => row_apply x0 x1 x2 x3 x4 4 252 rfl slices_S630x1024_o252_0_S63x1024 q) x
  rcases List.mem_cons.1 hp with rfl | hp
  · exact piece_ok x0 x1 x2 x3 x4 3 3 rfl inb_S10x1024_S1x1024_3_0 _ (fun q => row_apply x0 x1 x2 x3 x4 3 189 rfl slices_S630x1024_o189_0_S63x1024 q) x
  rcases List.mem_cons.1 hp with rfl | hp
  · exact piece_ok x0 x1 x2 x3 x4 2 2 rfl inb_S10x1024_S1x1024_2_0 _ (fun q => row_apply x0 x1 x2 x3 x4 2 126 rfl slices_S630x1024_o126_0_S63x1024 q) x
  rcases List.mem_cons.1 hp with rfl | hp
  · exact piece_ok x0 x1 x2 x3 x4 1 1 rfl inb_S10x1024_S1x1024_1_0 _ (fun q => row_apply x0 x1 x2 x3 x4 1 63 rfl slices_S630x1024_o63_0_S63x1024 q) x
  rcases List.mem_cons.1 hp with rfl | hp
  · exact piece_ok x0 x1 x2 x3 x4 0 0 rfl inb_S10x1024_S1x1024_0_0 _ (fun q => row_apply x0 x1 x2 x3 x4 0 0 rfl slices_S630x1024_o0_0_S63x1024 q) x
  exact absurd hp (List.not_mem_nil)

end Cert.KernelIdeal.BlockValue

end
-- ==== Proof.KernelFinal.lean ====
/-
  The whole result array of the blocked program: the score table of the five argument arrays.

  What one grid point leaves in its output block is the block score of its operands; the 64 blocks then tile the
  result, each entry being the score of its class in its data column. This module joins the two.
-/
import proofs.«102738_j2078764171322_2_alg».proof.Proof.KernelFTiling
import proofs.«102738_j2078764171322_2_alg».proof.Proof.KernelBlock

noncomputable section

namespace Cert.KernelIdeal.FinalValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.KernelIdeal.HostValue Cert.TreeScore

variable (m : (ℓ : Loc nD τ sig) → Buf (Elt Ideal) ℓ) (ρ : Dev nD → PrngReg)

/-- WHAT POINT `t` WRITES BACK is block `t` (columns 1024·t …) of the whole result. -/
theorem flushed_eq (hpre : Cert.Pre_KernelIdeal m) (c : Dev nD) (t : Fin cfg0.N) :
    (dats m 0 c).flushed 5 t
      = ((cfg0.win 5).blk t).view.read (Elt Ideal) (G (argX m c) (argZ m c) (argW m c) (argV m c) (argT m c)) :=
  flushed_eq_of m Cert.KernelIdeal.BlockValue.out_eq hpre c t

/-- THE RESULT ARRAY after the run is the whole score table. -/
theorem final (hpre : Cert.Pre_KernelIdeal m) (c : Dev nD) :
    (dats m 0 c).arrAt 5 cfg0.N = G (argX m c) (argZ m c) (argW m c) (argV m c) (argT m c) :=
  final_of m Cert.KernelIdeal.BlockValue.out_eq hpre c

/-- The blocked program's run, read: the result array ends at the score table of the five argument arrays, and the
    arguments end unchanged. -/
theorem run_G (hpre : Cert.Pre_KernelIdeal m) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v7)
        = Cert.TreeScore.G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_G_of m ρ Cert.KernelIdeal.BlockValue.out_eq hpre

end Cert.KernelIdeal.FinalValue

end
-- ==== Proof.RefStages.lean ====
/-
  The plain program's stages as functions of the argument arrays.

  Each definition is one named stage of the program's run with the argument arrays as variables: the projection, the
  31 indicators, the row slices of the indicators that feed the levels, the six levels of path probabilities, and
  the result, the sum over the nodes of probability · linear score · tanh of the gate score.
-/
import proofs.«102738_j2078764171322_2_alg».proof.Proof.Gen.ReferenceIdeal

noncomputable section

namespace Cert.ReferenceIdeal.RefValue

open Cert.ReferenceIdeal Cert.ReferenceIdeal.Gen Idealize.ShloMosaic

variable {F : FTy → Type} [FloatOps F]

set_option maxRecDepth 8192 in
/-- The projection stage: Z times the transpose of X, every entry divided by the pattern of 64. -/
def sv3 (X : FVec F S65536x1024 .f32) (Z : FVec F S64x1024 .f32) (T : FVec F S31x64 .f32) : FVec F S64x65536 .f32 :=
  Host.divf (Host.dotGeneral dot_S64x1024_S1024x65536_S64x65536_1_0_0_1_n_n none Z (transpose S1024x65536 [1, 0] X transposes_S65536x1024_S1024x65536_1_0)) (broadcastInDim S64x65536 ![] bcast_S_S64x65536 (constant S_ .f32 0x42800000#32))

set_option maxRecDepth 8192 in
/-- The indicator stage: the hyperbolic tangent of the pattern of 10⁹ times (T times the projection). -/
def sv7 (X : FVec F S65536x1024 .f32) (Z : FVec F S64x1024 .f32) (T : FVec F S31x64 .f32) : FVec F S31x65536 .f32 :=
  Host.tanh (mulf (broadcastInDim S31x65536 ![] bcast_S_S31x65536 (constant S_ .f32 0x4E6E6B28#32)) (Host.dotGeneral dot_S31x64_S64x65536_S31x65536_1_0_0_1_n_n none T (sv3 X Z T)))

set_option maxRecDepth 8192 in
/-- Level 0: the pattern of one in every column. -/
def sv8 (X : FVec F S65536x1024 .f32) (Z : FVec F S64x1024 .f32) (T : FVec F S31x64 .f32) : FVec F S1x65536 .f32 :=
  broadcastInDim S1x65536 ![] bcast_S_S1x65536 (constant S_ .f32 0x3F800000#32)

set_option maxRecDepth 8192 in
/-- Row 0 of the indicators. -/
def sv9 (X : FVec F S65536x1024 .f32) (Z : FVec F S64x1024 .f32) (T : FVec F S31x64 .f32) : FVec F S1x65536 .f32 :=
  extractStridedSlice S1x65536 ![0, 0] (sv7 X Z T) slices_S31x65536_S1x65536_0_0

set_option maxRecDepth 8192 in
/-- Level 1: the two halves built from level 0 and indicator 0, interleaved. -/
def sv23 (X : FVec F S65536x1024 .f32) (Z : FVec F S64x1024 .f32) (T : FVec F S31x64 .f32) : FVec F S2x65536 .f32 :=
  shapeCast _ (concatenate S1x2x65536 1 [⟨S1x1x65536, (broadcastInDim S1x1x65536 ![0, 2] bcast_S1x65536_S1x1x65536_0_2 (mulf (mulf (sv8 X Z T) (addf (broadcastInDim S1x65536 ![] bcast_S_S1x65536 (constant S_ .f32 0x3F800000#32)) (sv9 X Z T))) (broadcastInDim S1x65536 ![] bcast_S_S1x65536 (constant S_ .f32 0x3F000000#32))))⟩, ⟨S1x1x65536, (broadcastInDim S1x1x65536 ![0, 2] bcast_S1x65536_S1x1x65536_0_2 (mulf (mulf (sv8 X Z T) (subf (broadcastInDim S1x65536 ![] bcast_S_S1x65536 (constant S_ .f32 0x3F800000#32)) (sv9 X Z T))) (broadcastInDim S1x65536 ![] bcast_S_S1x65536 (constant S_ .f32 0x3F000000#32))))⟩] concatenates_S1x1x65536_S1x1x65536_S1x2x65536_d1) shapeCasts_S1x2x65536_S2x65536

set_option maxRecDepth 8192 in
/-- Rows 1, 2 of the indicators. -/
def sv24 (X : FVec F S65536x1024 .f32) (Z : FVec F S64x1024 .f32) (T : FVec F S31x64 .f32) : FVec F S2x65536 .f32 :=
  extractStridedSlice S2x65536 ![1, 0] (sv7 X Z T) slices_S31x65536_S2x65536_1_0

set_option maxRecDepth 8192 in
/-- Level 2: the two halves built from level 1 and indicators 1, 2, interleaved. -/
def sv38 (X : FVec F S65536x1024 .f32) (Z : FVec F S64x1024 .f32) (T : FVec F S31x64 .f32) : FVec F S4x65536 .f32 :=
  shapeCast _ (concatenate S2x2x65536 1 [⟨S2x1x65536, (broadcastInDim S2x1x65536 ![0, 2] bcast_S2x65536_S2x1x65536_0_2 (mulf (mulf (sv23 X Z T) (addf (broadcastInDim S2x65536 ![] bcast_S_S2x65536 (constant S_ .f32 0x3F800000#32)) (sv24 X Z T))) (broadcastInDim S2x65536 ![] bcast_S_S2x65536 (constant S_ .f32 0x3F000000#32))))⟩, ⟨S2x1x65536, (broadcastInDim S2x1x65536 ![0, 2] bcast_S2x65536_S2x1x65536_0_2 (mulf (mulf (sv23 X Z T) (subf (broadcastInDim S2x65536 ![] bcast_S_S2x65536 (constant S_ .f32 0x3F800000#32)) (sv24 X Z T))) (broadcastInDim S2x65536 ![] bcast_S_S2x65536 (constant S_ .f32 0x3F000000#32))))⟩] concatenates_S2x1x65536_S2x1x65536_S2x2x65536_d1) shapeCasts_S2x2x65536_S4x65536

set_option maxRecDepth 8192 in
/-- Rows 3 … 6 of the indicators. -/
def sv39 (X : FVec F S65536x1024 .f32) (Z : FVec F S64x1024 .f32) (T : FVec F S31x64 .f32) : FVec F S4x65536 .f32 :=
  extractStridedSlice S4x65536 ![3, 0] (sv7 X Z T) slices_S31x65536_S4x65536_3_0

set_option maxRecDepth 8192 in
/-- Level 3: the two halves built from level 2 and indicators 3 … 6, interleaved. -/
def sv53 (X : FVec F S65536x1024 .f32) (Z : FVec F S64x1024 .f32) (T : FVec F S31x64 .f32) : FVec F S8x65536 .f32 :=
  shapeCast _ (concatenate S4x2x65536 1 [⟨S4x1x65536, (broadcastInDim S4x1x65536 ![0, 2] bcast_S4x65536_S4x1x65536_0_2 (mulf (mulf (sv38 X Z T) (addf (broadcastInDim S4x65536 ![] bcast_S_S4x65536 (constant S_ .f32 0x3F800000#32)) (sv39 X Z T))) (broadcastInDim S4x65536 ![] bcast_S_S4x65536 (constant S_ .f32 0x3F000000#32))))⟩, ⟨S4x1x65536, (broadcastInDim S4x1x65536 ![0, 2] bcast_S4x65536_S4x1x65536_0_2 (mulf (mulf (sv38 X Z T) (subf (broadcastInDim S4x65536 ![] bcast_S_S4x65536 (constant S_ .f32 0x3F800000#32)) (sv39 X Z T))) (broadcastInDim S4x65536 ![] bcast_S_S4x65536 (constant S_ .f32 0x3F000000#32))))⟩] concatenates_S4x1x65536_S4x1x65536_S4x2x65536_d1) shapeCasts_S4x2x65536_S8x65536

set_option maxRecDepth 8192 in
/-- Rows 7 … 14 of the indicators. -/
def sv54 (X : FVec F S65536x1024 .f32) (Z : FVec F S64x1024 .f32) (T : FVec F S31x64 .f32) : FVec F S8x65536 .f32 :=
  extractStridedSlice S8x65536 ![7, 0] (sv7 X Z T) slices_S31x65536_S8x65536_7_0

set_option maxRecDepth 8192 in
/-- Level 4: the two halves built from level 3 and indicators 7 … 14, interleaved. -/
def sv68 (X : FVec F S65536x1024 .f32) (Z : FVec F S64x1024 .f32) (T : FVec F S31x64 .f32) : FVec F S16x65536 .f32 :=
  shapeCast _ (concatenate S8x2x65536 1 [⟨S8x1x65536, (broadcastInDim S8x1x65536 ![0, 2] bcast_S8x65536_S8x1x65536_0_2 (mulf (mulf (sv53 X Z T) (addf (broadcastInDim S8x65536 ![] bcast_S_S8x65536 (constant S_ .f32 0x3F800000#32)) (sv54 X Z T))) (broadcastInDim S8x65536 ![] bcast_S_S8x65536 (constant S_ .f32 0x3F000000#32))))⟩, ⟨S8x1x65536, (broadcastInDim S8x1x65536 ![0, 2] bcast_S8x65536_S8x1x65536_0_2 (mulf (mulf (sv53 X Z T) (subf (broadcastInDim S8x65536 ![] bcast_S_S8x65536 (constant S_ .f32 0x3F800000#32)) (sv54 X Z T))) (broadcastInDim S8x65536 ![] bcast_S_S8x65536 (constant S_ .f32 0x3F000000#32))))⟩] concatenates_S8x1x65536_S8x1x65536_S8x2x65536_d1) shapeCasts_S8x2x65536_S16x65536

set_option maxRecDepth 8192 in
/-- Rows 15 … 30 of the indicators. -/
def sv69 (X : FVec F S65536x1024 .f32) (Z : FVec F S64x1024 .f32) (T : FVec F S31x64 .f32) : FVec F S16x65536 .f32 :=
  extractStridedSlice S16x65536 ![15, 0] (sv7 X Z T) slices_S31x65536_S16x65536_15_0

set_option maxRecDepth 8192 in
/-- Level 5: the two halves built from level 4 and indicators 15 … 30, interleaved. -/
def sL5 (X : FVec F S65536x1024 .f32) (Z : FVec F S64x1024 .f32) (T : FVec F S31x64 .f32) : FVec F S32x65536 .f32 :=
  shapeCast _ (concatenate S16x2x65536 1 [⟨S16x1x65536, (broadcastInDim S16x1x65536 ![0, 2] bcast_S16x65536_S16x1x65536_0_2 (mulf (mulf (sv68 X Z T) (addf (broadcastInDim S16x65536 ![] bcast_S_S16x65536 (constant S_ .f32 0x3F800000#32)) (sv69 X Z T))) (broadcastInDim S16x65536 ![] bcast_S_S16x65536 (constant S_ .f32 0x3F000000#32))))⟩, ⟨S16x1x65536, (broadcastInDim S16x1x65536 ![0, 2] bcast_S16x65536_S16x1x65536_0_2 (mulf (mulf (sv68 X Z T) (subf (broadcastInDim S16x65536 ![] bcast_S_S16x65536 (constant S_ .f32 0x3F800000#32)) (sv69 X Z T))) (broadcastInDim S16x65536 ![] bcast_S_S16x65536 (constant S_ .f32 0x3F000000#32))))⟩] concatenates_S16x1x65536_S16x1x65536_S16x2x65536_d1) shapeCasts_S16x2x65536_S32x65536

set_option maxRecDepth 8192 in
/-- The result: the sum over the 63 nodes of the product of the probabilities (repeated over the classes), the linear
    scores and the hyperbolic tangents of the gate scores. -/
def sRes (X : FVec F S65536x1024 .f32) (Z : FVec F S64x1024 .f32) (T : FVec F S31x64 .f32) (W V : FVec F S630x64 .f32) : FVec F S10x65536 .f32 :=
  Host.reduceAdd (mulf (mulf (broadcastInDim S63x10x65536 ![0, 1, 2] bcast_S63x1x65536_S63x10x65536_0_1_2 (broadcastInDim S63x1x65536 ![0, 2] bcast_S63x65536_S63x1x65536_0_2 (concatenate S63x65536 0 [⟨S1x65536, (sv8 X Z T)⟩, ⟨S2x65536, (sv23 X Z T)⟩, ⟨S4x65536, (sv38 X Z T)⟩, ⟨S8x65536, (sv53 X Z T)⟩, ⟨S16x65536, (sv68 X Z T)⟩, ⟨S32x65536, (sL5 X Z T)⟩] concatenates_S1x65536_S2x65536_S4x65536_S8x65536_S16x65536_S32x65536_S63x65536_d0))) (Host.dotGeneral dot_S63x10x64_S64x65536_S63x10x65536_2_0_01_1_n_n none (shapeCast _ W shapeCasts_S630x64_S63x10x64) (sv3 X Z T))) (Host.tanh (mulf (broadcastInDim S63x10x65536 ![] bcast_S_S63x10x65536 (constant S_ .f32 0x3F800000#32)) (Host.dotGeneral dot_S63x10x64_S64x65536_S63x10x65536_2_0_01_1_n_n none (shapeCast _ V shapeCasts_S630x64_S63x10x64) (sv3 X Z T))))) (constant S_ .f32 0x00000000#32) reducesTo_S63x10x65536_S10x65536_d0 h_S_

end Cert.ReferenceIdeal.RefValue

end
-- ==== Proof.RefRun.lean ====
/-
  The plain program's run, read window by window.

  The program is a straight line of 122 host operations. Its run ends with every buffer at the fold of the
  operations' results over the launch contents. The fold is read in seven consecutive windows — the projection and
  the indicators, one window per level of path probabilities, and the final scoring — each against an arbitrary
  valuation of the buffers: what a window writes is a stage of the arrays it reads, and what it does not write it
  keeps. Chaining the windows, the result buffer ends at the result stage of the five argument arrays, and the
  arguments are untouched.
-/
import proofs.«102738_j2078764171322_2_alg».proof.Proof.Gen.ReferenceIdeal
import proofs.«102738_j2078764171322_2_alg».proof.Proof.RefStages
import Idealize.ShloMosaic.Lib.StableHlo.Run

noncomputable section

namespace Cert.ReferenceIdeal.RefRun

open Cert.ReferenceIdeal Cert.ReferenceIdeal.Gen Cert.ReferenceIdeal.RefValue Idealize.ShloMosaic Idealize.ShloMosaic.TcCoe
  Idealize.SL.Sem Idealize.ShloMosaic.StableHlo

variable {F : FTy → Type} [FloatOps F]

/-- The program's 122 operations, in order. -/
abbrev ops : List (HloOp τ sig (Elt F)) :=
  [ unary main_arg0 main_v0 ((transpose S1024x65536 [1, 0] · transposes_S65536x1024_S1024x65536_1_0) : (⟨S65536x1024, .f32⟩ : BufTy).Contents (Elt F) → (⟨S1024x65536, .f32⟩ : BufTy).Contents (Elt F)),
    binary main_arg1 main_v0 main_v1 ((fun l r => Host.dotGeneral dot_S64x1024_S1024x65536_S64x65536_1_0_0_1_n_n none l r) : (⟨S64x1024, .f32⟩ : BufTy).Contents (Elt F) → (⟨S1024x65536, .f32⟩ : BufTy).Contents (Elt F) → (⟨S64x65536, .f32⟩ : BufTy).Contents (Elt F)),
    nullary main_cst (constant S_ .f32 0x42800000#32),
    unary main_cst main_v2 (broadcastInDim S64x65536 ![] bcast_S_S64x65536 : (⟨S_, .f32⟩ : BufTy).Contents (Elt F) → (⟨S64x65536, .f32⟩ : BufTy).Contents (Elt F)),
    binary main_v1 main_v2 main_v3 (Host.divf : (⟨S64x65536, .f32⟩ : BufTy).Contents (Elt F) → (⟨S64x65536, .f32⟩ : BufTy).Contents (Elt F) → (⟨S64x65536, .f32⟩ : BufTy).Contents (Elt F)),
    binary main_arg4 main_v3 main_v4 ((fun l r => Host.dotGeneral dot_S31x64_S64x65536_S31x65536_1_0_0_1_n_n none l r) : (⟨S31x64, .f32⟩ : BufTy).Contents (Elt F) → (⟨S64x65536, .f32⟩ : BufTy).Contents (Elt F) → (⟨S31x65536, .f32⟩ : BufTy).Contents (Elt F)),
    nullary main_cst_0 (constant S_ .f32 0x4E6E6B28#32),
    unary main_cst_0 main_v5 (broadcastInDim S31x65536 ![] bcast_S_S31x65536 : (⟨S_, .f32⟩ : BufTy).Contents (Elt F) → (⟨S31x65536, .f32⟩ : BufTy).Contents (Elt F)),
    binary main_v5 main_v4 main_v6 (mulf : (⟨S31x65536, .f32⟩ : BufTy).Contents (Elt F) → (⟨S31x65536, .f32⟩ : BufTy).Contents (Elt F) → (⟨S31x65536, .f32⟩ : BufTy).Contents (Elt F)),
    unary main_v6 main_v7 (Host.tanh : (⟨S31x65536, .f32⟩ : BufTy).Contents (Elt F) → (⟨S31x65536, .f32⟩ : BufTy).Contents (Elt F)),
    nullary main_cst_1 (constant S_ .f32 0x3F800000#32),
    unary main_cst_1 main_v8 (broadcastInDim S1x65536 ![] bcast_S_S1x65536 : (⟨S_, .f32⟩ : BufTy).Contents (Elt F) → (⟨S1x65536, .f32⟩ : BufTy).Contents (Elt F)),
    unary main_v7 main_v9 ((extractStridedSlice S1x65536 ![0, 0] · slices_S31x65536_S1x65536_0_0) : (⟨S31x65536, .f32⟩ : BufTy).Contents (Elt F) → (⟨S1x65536, .f32⟩ : BufTy).Contents (Elt F)),
    nullary main_cst_2 (constant S_ .f32 0x3F800000#32),
    unary main_cst_2 main_v10 (broadcastInDim S1x65536 ![] bcast_S_S1x65536 : (⟨S_, .f32⟩ : BufTy).Contents (Elt F) → (⟨S1x65536, .f32⟩ : BufTy).Contents (Elt F)),
    binary main_v10 main_v9 main_v11 (addf : (⟨S1x65536, .f32⟩ : BufTy).Contents (Elt F) → (⟨S1x65536, .f32⟩ : BufTy).Contents (Elt F) → (⟨S1x65536, .f32⟩ : BufTy).Contents (Elt F)),
    binary main_v8 main_v11 main_v12 (mulf : (⟨S1x65536, .f32⟩ : BufTy).Contents (Elt F) → (⟨S1x65536, .f32⟩ : BufTy).Contents (Elt F) → (⟨S1x65536, .f32⟩ : BufTy).Contents (Elt F)),
    nullary main_cst_3 (constant S_ .f32 0x3F000000#32),
    unary main_cst_3 main_v13 (broadcastInDim S1x65536 ![] bcast_S_S1x65536 : (⟨S_, .f32⟩ : BufTy).Contents (Elt F) → (⟨S1x65536, .f32⟩ : BufTy).Contents (Elt F)),
    binary main_v12 main_v13 main_v14 (mulf : (⟨S1x65536, .f32⟩ : BufTy).Contents (Elt F) → (⟨S1x65536, .f32⟩ : BufTy).Contents (Elt F) → (⟨S1x65536, .f32⟩ : BufTy).Contents (Elt F)),
    nullary main_cst_4 (constant S_ .f32 0x3F800000#32),
    unary main_cst_4 main_v15 (broadcastInDim S1x65536 ![] bcast_S_S1x65536 : (⟨S_, .f32⟩ : BufTy).Contents (Elt F) → (⟨S1x65536, .f32⟩ : BufTy).Contents (Elt F)),
    binary main_v15 main_v9 main_v16 (subf : (⟨S1x65536, .f32⟩ : BufTy).Contents (Elt F) → (⟨S1x65536, .f32⟩ : BufTy).Contents (Elt F) → (⟨S1x65536, .f32⟩ : BufTy).Contents (Elt F)),
    binary main_v8 main_v16 main_v17 (mulf : (⟨S1x65536, .f32⟩ : BufTy).Contents (Elt F) → (⟨S1x65536, .f32⟩ : BufTy).Contents (Elt F) → (⟨S1x65536, .f32⟩ : BufTy).Contents (Elt F)),
    nullary main_cst_5 (constant S_ .f32 0x3F000000#32),
    unary main_cst_5 main_v18 (broadcastInDim S1x65536 ![] bcast_S_S1x65536 : (⟨S_, .f32⟩ : BufTy).Contents (Elt F) → (⟨S1x65536, .f32⟩ : BufTy).Contents (Elt F)),
    binary main_v17 main_v18 main_v19 (mulf : (⟨S1x65536, .f32⟩ : BufTy).Contents (Elt F) → (⟨S1x65536, .f32⟩ : BufTy).Contents (Elt F) → (⟨S1x65536, .f32⟩ : BufTy).Contents (Elt F)),
    unary main_v14 main_v20 (broadcastInDim S1x1x65536 ![0, 2] bcast_S1x65536_S1x1x65536_0_2 : (⟨S1x65536, .f32⟩ : BufTy).Contents (Elt F) → (⟨S1x1x65536, .f32⟩ : BufTy).Contents (Elt F)),
    unary main_v19 main_v21 (broadcastInDim S1x1x65536 ![0, 2] bcast_S1x65536_S1x1x65536_0_2 : (⟨S1x65536, .f32⟩ : BufTy).Contents (Elt F) → (⟨S1x1x65536, .f32⟩ : BufTy).Contents (Elt F)),
    binary main_v20 main_v21 main_v22 ((fun a b => concatenate S1x2x65536 1 [⟨S1x1x65536, a⟩, ⟨S1x1x65536, b⟩] concatenates_S1x1x65536_S1x1x65536_S1x2x65536_d1) : (⟨S1x1x65536, .f32⟩ : BufTy).Contents (Elt F) → (⟨S1x1x65536, .f32⟩ : BufTy).Contents (Elt F) → (⟨S1x2x65536, .f32⟩ : BufTy).Contents (Elt F)),
    reshape main_v22 main_v23 rfl shapeCasts_S1x2x65536_S2x65536,
    unary main_v7 main_v24 ((extractStridedSlice S2x65536 ![1, 0] · slices_S31x65536_S2x65536_1_0) : (⟨S31x65536, .f32⟩ : BufTy).Contents (Elt F) → (⟨S2x65536, .f32⟩ : BufTy).Contents (Elt F)),
    nullary main_cst_6 (constant S_ .f32 0x3F800000#32),
    unary main_cst_6 main_v25 (broadcastInDim S2x65536 ![] bcast_S_S2x65536 : (⟨S_, .f32⟩ : BufTy).Contents (Elt F) → (⟨S2x65536, .f32⟩ : BufTy).Contents (Elt F)),
    binary main_v25 main_v24 main_v26 (addf : (⟨S2x65536, .f32⟩ : BufTy).Contents (Elt F) → (⟨S2x65536, .f32⟩ : BufTy).Contents (Elt F) → (⟨S2x65536, .f32⟩ : BufTy).Contents (Elt F)),
    binary main_v23 main_v26 main_v27 (mulf : (⟨S2x65536, .f32⟩ : BufTy).Contents (Elt F) → (⟨S2x65536, .f32⟩ : BufTy).Contents (Elt F) → (⟨S2x65536, .f32⟩ : BufTy).Contents (Elt F)),
    nullary main_cst_7 (constant S_ .f32 0x3F000000#32),
    unary main_cst_7 main_v28 (broadcastInDim S2x65536 ![] bcast_S_S2x65536 : (⟨S_, .f32⟩ : BufTy).Contents (Elt F) → (⟨S2x65536, .f32⟩ : BufTy).Contents (Elt F)),
    binary main_v27 main_v28 main_v29 (mulf : (⟨S2x65536, .f32⟩ : BufTy).Contents (Elt F) → (⟨S2x65536, .f32⟩ : BufTy).Contents (Elt F) → (⟨S2x65536, .f32⟩ : BufTy).Contents (Elt F)),
    nullary main_cst_8 (constant S_ .f32 0x3F800000#32),
    unary main_cst_8 main_v30 (broadcastInDim S2x65536 ![] bcast_S_S2x65536 : (⟨S_, .f32⟩ : BufTy).Contents (Elt F) → (⟨S2x65536, .f32⟩ : BufTy).Contents (Elt F)),
    binary main_v30 main_v24 main_v31 (subf : (⟨S2x65536, .f32⟩ : BufTy).Contents (Elt F) → (⟨S2x65536, .f32⟩ : BufTy).Contents (Elt F) → (⟨S2x65536, .f32⟩ : BufTy).Contents (Elt F)),
    binary main_v23 main_v31 main_v32 (mulf : (⟨S2x65536, .f32⟩ : BufTy).Contents (Elt F) → (⟨S2x65536, .f32⟩ : BufTy).Contents (Elt F) → (⟨S2x65536, .f32⟩ : BufTy).Contents (Elt F)),
    nullary main_cst_9 (constant S_ .f32 0x3F000000#32),
    unary main_cst_9 main_v33 (broadcastInDim S2x65536 ![] bcast_S_S2x65536 : (⟨S_, .f32⟩ : BufTy).Contents (Elt F) → (⟨S2x65536, .f32⟩ : BufTy).Contents (Elt F)),
    binary main_v32 main_v33 main_v34 (mulf : (⟨S2x65536, .f32⟩ : BufTy).Contents (Elt F) → (⟨S2x65536, .f32⟩ : BufTy).Contents (Elt F) → (⟨S2x65536, .f32⟩ : BufTy).Contents (Elt F)),
    unary main_v29 main_v35 (broadcastInDim S2x1x65536 ![0, 2] bcast_S2x65536_S2x1x65536_0_2 : (⟨S2x65536, .f32⟩ : BufTy).Contents (Elt F) → (⟨S2x1x65536, .f32⟩ : BufTy).Contents (Elt F)),
    unary main_v34 main_v36 (broadcastInDim S2x1x65536 ![0, 2] bcast_S2x65536_S2x1x65536_0_2 : (⟨S2x65536, .f32⟩ : BufTy).Contents (Elt F) → (⟨S2x1x65536, .f32⟩ : BufTy).Contents (Elt F)),
    binary main_v35 main_v36 main_v37 ((fun a b => concatenate S2x2x65536 1 [⟨S2x1x65536, a⟩, ⟨S2x1x65536, b⟩] concatenates_S2x1x65536_S2x1x65536_S2x2x65536_d1) : (⟨S2x1x65536, .f32⟩ : BufTy).Contents (Elt F) → (⟨S2x1x65536, .f32⟩ : BufTy).Contents (Elt F) → (⟨S2x2x65536, .f32⟩ : BufTy).Contents (Elt F)),
    reshape main_v37 main_v38 rfl shapeCasts_S2x2x65536_S4x65536,
    unary main_v7 main_v39 ((extractStridedSlice S4x65536 ![3, 0] · slices_S31x65536_S4x65536_3_0) : (⟨S31x65536, .f32⟩ : BufTy).Contents (Elt F) → (⟨S4x65536, .f32⟩ : BufTy).Contents (Elt F)),
    nullary main_cst_10 (constant S_ .f32 0x3F800000#32),
    unary main_cst_10 main_v40 (broadcastInDim S4x65536 ![] bcast_S_S4x65536 : (⟨S_, .f32⟩ : BufTy).Contents (Elt F) → (⟨S4x65536, .f32⟩ : BufTy).Contents (Elt F)),
    binary main_v40 main_v39 main_v41 (addf : (⟨S4x65536, .f32⟩ : BufTy).Contents (Elt F) → (⟨S4x65536, .f32⟩ : BufTy).Contents (Elt F) → (⟨S4x65536, .f32⟩ : BufTy).Contents (Elt F)),
    binary main_v38 main_v41 main_v42 (mulf : (⟨S4x65536, .f32⟩ : BufTy).Contents (Elt F) → (⟨S4x65536, .f32⟩ : BufTy).Contents (Elt F) → (⟨S4x65536, .f32⟩ : BufTy).Contents (Elt F)),
    nullary main_cst_11 (constant S_ .f32 0x3F000000#32),
    unary main_cst_11 main_v43 (broadcastInDim S4x65536 ![] bcast_S_S4x65536 : (⟨S_, .f32⟩ : BufTy).Contents (Elt F) → (⟨S4x65536, .f32⟩ : BufTy).Contents (Elt F)),
    binary main_v42 main_v43 main_v44 (mulf : (⟨S4x65536, .f32⟩ : BufTy).Contents (Elt F) → (⟨S4x65536, .f32⟩ : BufTy).Contents (Elt F) → (⟨S4x65536, .f32⟩ : BufTy).Contents (Elt F)),
    nullary main_cst_12 (constant S_ .f32 0x3F800000#32),
    unary main_cst_12 main_v45 (broadcastInDim S4x65536 ![] bcast_S_S4x65536 : (⟨S_, .f32⟩ : BufTy).Contents (Elt F) → (⟨S4x65536, .f32⟩ : BufTy).Contents (Elt F)),
    binary main_v45 main_v39 main_v46 (subf : (⟨S4x65536, .f32⟩ : BufTy).Contents (Elt F) → (⟨S4x65536, .f32⟩ : BufTy).Contents (Elt F) → (⟨S4x65536, .f32⟩ : BufTy).Contents (Elt F)),
    binary main_v38 main_v46 main_v47 (mulf : (⟨S4x65536, .f32⟩ : BufTy).Contents (Elt F) → (⟨S4x65536, .f32⟩ : BufTy).Contents (Elt F) → (⟨S4x65536, .f32⟩ : BufTy).Contents (Elt F)),
    nullary main_cst_13 (constant S_ .f32 0x3F000000#32),
    unary main_cst_13 main_v48 (broadcastInDim S4x65536 ![] bcast_S_S4x65536 : (⟨S_, .f32⟩ : BufTy).Contents (Elt F) → (⟨S4x65536, .f32⟩ : BufTy).Contents (Elt F)),
    binary main_v47 main_v48 main_v49 (mulf : (⟨S4x65536, .f32⟩ : BufTy).Contents (Elt F) → (⟨S4x65536, .f32⟩ : BufTy).Contents (Elt F) → (⟨S4x65536, .f32⟩ : BufTy).Contents (Elt F)),
    unary main_v44 main_v50 (broadcastInDim S4x1x65536 ![0, 2] bcast_S4x65536_S4x1x65536_0_2 : (⟨S4x65536, .f32⟩ : BufTy).Contents (Elt F) → (⟨S4x1x65536, .f32⟩ : BufTy).Contents (Elt F)),
    unary main_v49 main_v51 (broadcastInDim S4x1x65536 ![0, 2] bcast_S4x65536_S4x1x65536_0_2 : (⟨S4x65536, .f32⟩ : BufTy).Contents (Elt F) → (⟨S4x1x65536, .f32⟩ : BufTy).Contents (Elt F)),
    binary main_v50 main_v51 main_v52 ((fun a b => concatenate S4x2x65536 1 [⟨S4x1x65536, a⟩, ⟨S4x1x65536, b⟩] concatenates_S4x1x65536_S4x1x65536_S4x2x65536_d1) : (⟨S4x1x65536, .f32⟩ : BufTy).Contents (Elt F) → (⟨S4x1x65536, .f32⟩ : BufTy).Contents (Elt F) → (⟨S4x2x65536, .f32⟩ : BufTy).Contents (Elt F)),
    reshape main_v52 main_v53 rfl shapeCasts_S4x2x65536_S8x65536,
    unary main_v7 main_v54 ((extractStridedSlice S8x65536 ![7, 0] · slices_S31x65536_S8x65536_7_0) : (⟨S31x65536, .f32⟩ : BufTy).Contents (Elt F) → (⟨S8x65536, .f32⟩ : BufTy).Contents (Elt F)),
    nullary main_cst_14 (constant S_ .f32 0x3F800000#32),
    unary main_cst_14 main_v55 (broadcastInDim S8x65536 ![] bcast_S_S8x65536 : (⟨S_, .f32⟩ : BufTy).Contents (Elt F) → (⟨S8x65536, .f32⟩ : BufTy).Contents (Elt F)),
    binary main_v55 main_v54 main_v56 (addf : (⟨S8x65536, .f32⟩ : BufTy).Contents (Elt F) → (⟨S8x65536, .f32⟩ : BufTy).Contents (Elt F) → (⟨S8x65536, .f32⟩ : BufTy).Contents (Elt F)),
    binary main_v53 main_v56 main_v57 (mulf : (⟨S8x65536, .f32⟩ : BufTy).Contents (Elt F) → (⟨S8x65536, .f32⟩ : BufTy).Contents (Elt F) → (⟨S8x65536, .f32⟩ : BufTy).Contents (Elt F)),
    nullary main_cst_15 (constant S_ .f32 0x3F000000#32),
    unary main_cst_15 main_v58 (broadcastInDim S8x65536 ![] bcast_S_S8x65536 : (⟨S_, .f32⟩ : BufTy).Contents (Elt F) → (⟨S8x65536, .f32⟩ : BufTy).Contents (Elt F)),
    binary main_v57 main_v58 main_v59 (mulf : (⟨S8x65536, .f32⟩ : BufTy).Contents (Elt F) → (⟨S8x65536, .f32⟩ : BufTy).Contents (Elt F) → (⟨S8x65536, .f32⟩ : BufTy).Contents (Elt F)),
    nullary main_cst_16 (constant S_ .f32 0x3F800000#32),
    unary main_cst_16 main_v60 (broadcastInDim S8x65536 ![] bcast_S_S8x65536 : (⟨S_, .f32⟩ : BufTy).Contents (Elt F) → (⟨S8x65536, .f32⟩ : BufTy).Contents (Elt F)),
    binary main_v60 main_v54 main_v61 (subf : (⟨S8x65536, .f32⟩ : BufTy).Contents (Elt F) → (⟨S8x65536, .f32⟩ : BufTy).Contents (Elt F) → (⟨S8x65536, .f32⟩ : BufTy).Contents (Elt F)),
    binary main_v53 main_v61 main_v62 (mulf : (⟨S8x65536, .f32⟩ : BufTy).Contents (Elt F) → (⟨S8x65536, .f32⟩ : BufTy).Contents (Elt F) → (⟨S8x65536, .f32⟩ : BufTy).Contents (Elt F)),
    nullary main_cst_17 (constant S_ .f32 0x3F000000#32),
    unary main_cst_17 main_v63 (broadcastInDim S8x65536 ![] bcast_S_S8x65536 : (⟨S_, .f32⟩ : BufTy).Contents (Elt F) → (⟨S8x65536, .f32⟩ : BufTy).Contents (Elt F)),
    binary main_v62 main_v63 main_v64 (mulf : (⟨S8x65536, .f32⟩ : BufTy).Contents (Elt F) → (⟨S8x65536, .f32⟩ : BufTy).Contents (Elt F) → (⟨S8x65536, .f32⟩ : BufTy).Contents (Elt F)),
    unary main_v59 main_v65 (broadcastInDim S8x1x65536 ![0, 2] bcast_S8x65536_S8x1x65536_0_2 : (⟨S8x65536, .f32⟩ : BufTy).Contents (Elt F) → (⟨S8x1x65536, .f32⟩ : BufTy).Contents (Elt F)),
    unary main_v64 main_v66 (broadcastInDim S8x1x65536 ![0, 2] bcast_S8x65536_S8x1x65536_0_2 : (⟨S8x65536, .f32⟩ : BufTy).Contents (Elt F) → (⟨S8x1x65536, .f32⟩ : BufTy).Contents (Elt F)),
    binary main_v65 main_v66 main_v67 ((fun a b => concatenate S8x2x65536 1 [⟨S8x1x65536, a⟩, ⟨S8x1x65536, b⟩] concatenates_S8x1x65536_S8x1x65536_S8x2x65536_d1) : (⟨S8x1x65536, .f32⟩ : BufTy).Contents (Elt F) → (⟨S8x1x65536, .f32⟩ : BufTy).Contents (Elt F) → (⟨S8x2x65536, .f32⟩ : BufTy).Contents (Elt F)),
    reshape main_v67 main_v68 rfl shapeCasts_S8x2x65536_S16x65536,
    unary main_v7 main_v69 ((extractStridedSlice S16x65536 ![15, 0] · slices_S31x65536_S16x65536_15_0) : (⟨S31x65536, .f32⟩ : BufTy).Contents (Elt F) → (⟨S16x65536, .f32⟩ : BufTy).Contents (Elt F)),
    nullary main_cst_18 (constant S_ .f32 0x3F800000#32),
    unary main_cst_18 main_v70 (broadcastInDim S16x65536 ![] bcast_S_S16x65536 : (⟨S_, .f32⟩ : BufTy).Contents (Elt F) → (⟨S16x65536, .f32⟩ : BufTy).Contents (Elt F)),
    binary main_v70 main_v69 main_v71 (addf : (⟨S16x65536, .f32⟩ : BufTy).Contents (Elt F) → (⟨S16x65536, .f32⟩ : BufTy).Contents (Elt F) → (⟨S16x65536, .f32⟩ : BufTy).Contents (Elt F)),
    binary main_v68 main_v71 main_v72 (mulf : (⟨S16x65536, .f32⟩ : BufTy).Contents (Elt F) → (⟨S16x65536, .f32⟩ : BufTy).Contents (Elt F) → (⟨S16x65536, .f32⟩ : BufTy).Contents (Elt F)),
    nullary main_cst_19 (constant S_ .f32 0x3F000000#32),
    unary main_cst_19 main_v73 (broadcastInDim S16x65536 ![] bcast_S_S16x65536 : (⟨S_, .f32⟩ : BufTy).Contents (Elt F) → (⟨S16x65536, .f32⟩ : BufTy).Contents (Elt F)),
    binary main_v72 main_v73 main_v74 (mulf : (⟨S16x65536, .f32⟩ : BufTy).Contents (Elt F) → (⟨S16x65536, .f32⟩ : BufTy).Contents (Elt F) → (⟨S16x65536, .f32⟩ : BufTy).Contents (Elt F)),
    nullary main_cst_20 (constant S_ .f32 0x3F800000#32),
    unary main_cst_20 main_v75 (broadcastInDim S16x65536 ![] bcast_S_S16x65536 : (⟨S_, .f32⟩ : BufTy).Contents (Elt F) → (⟨S16x65536, .f32⟩ : BufTy).Contents (Elt F)),
    binary main_v75 main_v69 main_v76 (subf : (⟨S16x65536, .f32⟩ : BufTy).Contents (Elt F) → (⟨S16x65536, .f32⟩ : BufTy).Contents (Elt F) → (⟨S16x65536, .f32⟩ : BufTy).Contents (Elt F)),
    binary main_v68 main_v76 main_v77 (mulf : (⟨S16x65536, .f32⟩ : BufTy).Contents (Elt F) → (⟨S16x65536, .f32⟩ : BufTy).Contents (Elt F) → (⟨S16x65536, .f32⟩ : BufTy).Contents (Elt F)),
    nullary main_cst_21 (constant S_ .f32 0x3F000000#32),
    unary main_cst_21 main_v78 (broadcastInDim S16x65536 ![] bcast_S_S16x65536 : (⟨S_, .f32⟩ : BufTy).Contents (Elt F) → (⟨S16x65536, .f32⟩ : BufTy).Contents (Elt F)),
    binary main_v77 main_v78 main_v79 (mulf : (⟨S16x65536, .f32⟩ : BufTy).Contents (Elt F) → (⟨S16x65536, .f32⟩ : BufTy).Contents (Elt F) → (⟨S16x65536, .f32⟩ : BufTy).Contents (Elt F)),
    unary main_v74 main_v80 (broadcastInDim S16x1x65536 ![0, 2] bcast_S16x65536_S16x1x65536_0_2 : (⟨S16x65536, .f32⟩ : BufTy).Contents (Elt F) → (⟨S16x1x65536, .f32⟩ : BufTy).Contents (Elt F)),
    unary main_v79 main_v81 (broadcastInDim S16x1x65536 ![0, 2] bcast_S16x65536_S16x1x65536_0_2 : (⟨S16x65536, .f32⟩ : BufTy).Contents (Elt F) → (⟨S16x1x65536, .f32⟩ : BufTy).Contents (Elt F)),
    binary main_v80 main_v81 main_v82 ((fun a b => concatenate S16x2x65536 1 [⟨S16x1x65536, a⟩, ⟨S16x1x65536, b⟩] concatenates_S16x1x65536_S16x1x65536_S16x2x65536_d1) : (⟨S16x1x65536, .f32⟩ : BufTy).Contents (Elt F) → (⟨S16x1x65536, .f32⟩ : BufTy).Contents (Elt F) → (⟨S16x2x65536, .f32⟩ : BufTy).Contents (Elt F)),
    reshape main_v82 main_v83 rfl shapeCasts_S16x2x65536_S32x65536,
    nary ![main_v8, main_v23, main_v38, main_v53, main_v68, main_v83] main_v84 (fun u => concatenate S63x65536 0 [⟨S1x65536, u 0⟩, ⟨S2x65536, u 1⟩, ⟨S4x65536, u 2⟩, ⟨S8x65536, u 3⟩, ⟨S16x65536, u 4⟩, ⟨S32x65536, u 5⟩] concatenates_S1x65536_S2x65536_S4x65536_S8x65536_S16x65536_S32x65536_S63x65536_d0),
    reshape main_arg2 main_v85 rfl shapeCasts_S630x64_S63x10x64,
    reshape main_arg3 main_v86 rfl shapeCasts_S630x64_S63x10x64,
    binary main_v85 main_v3 main_v87 ((fun l r => Host.dotGeneral dot_S63x10x64_S64x65536_S63x10x65536_2_0_01_1_n_n none l r) : (⟨S63x10x64, .f32⟩ : BufTy).Contents (Elt F) → (⟨S64x65536, .f32⟩ : BufTy).Contents (Elt F) → (⟨S63x10x65536, .f32⟩ : BufTy).Contents (Elt F)),
    binary main_v86 main_v3 main_v88 ((fun l r => Host.dotGeneral dot_S63x10x64_S64x65536_S63x10x65536_2_0_01_1_n_n none l r) : (⟨S63x10x64, .f32⟩ : BufTy).Contents (Elt F) → (⟨S64x65536, .f32⟩ : BufTy).Contents (Elt F) → (⟨S63x10x65536, .f32⟩ : BufTy).Contents (Elt F)),
    unary main_v84 main_v89 (broadcastInDim S63x1x65536 ![0, 2] bcast_S63x65536_S63x1x65536_0_2 : (⟨S63x65536, .f32⟩ : BufTy).Contents (Elt F) → (⟨S63x1x65536, .f32⟩ : BufTy).Contents (Elt F)),
    unary main_v89 main_v90 (broadcastInDim S63x10x65536 ![0, 1, 2] bcast_S63x1x65536_S63x10x65536_0_1_2 : (⟨S63x1x65536, .f32⟩ : BufTy).Contents (Elt F) → (⟨S63x10x65536, .f32⟩ : BufTy).Contents (Elt F)),
    binary main_v90 main_v87 main_v91 (mulf : (⟨S63x10x65536, .f32⟩ : BufTy).Contents (Elt F) → (⟨S63x10x65536, .f32⟩ : BufTy).Contents (Elt F) → (⟨S63x10x65536, .f32⟩ : BufTy).Contents (Elt F)),
    nullary main_cst_22 (constant S_ .f32 0x3F800000#32),
    unary main_cst_22 main_v92 (broadcastInDim S63x10x65536 ![] bcast_S_S63x10x65536 : (⟨S_, .f32⟩ : BufTy).Contents (Elt F) → (⟨S63x10x65536, .f32⟩ : BufTy).Contents (Elt F)),
    binary main_v92 main_v88 main_v93 (mulf : (⟨S63x10x65536, .f32⟩ : BufTy).Contents (Elt F) → (⟨S63x10x65536, .f32⟩ : BufTy).Contents (Elt F) → (⟨S63x10x65536, .f32⟩ : BufTy).Contents (Elt F)),
    unary main_v93 main_v94 (Host.tanh : (⟨S63x10x65536, .f32⟩ : BufTy).Contents (Elt F) → (⟨S63x10x65536, .f32⟩ : BufTy).Contents (Elt F)),
    binary main_v91 main_v94 main_v95 (mulf : (⟨S63x10x65536, .f32⟩ : BufTy).Contents (Elt F) → (⟨S63x10x65536, .f32⟩ : BufTy).Contents (Elt F) → (⟨S63x10x65536, .f32⟩ : BufTy).Contents (Elt F)),
    nullary main_cst_23 (constant S_ .f32 0x00000000#32),
    binary main_v95 main_cst_23 main_v96 ((fun x v => Host.reduceAdd x v reducesTo_S63x10x65536_S10x65536_d0 h_S_) : (⟨S63x10x65536, .f32⟩ : BufTy).Contents (Elt F) → (⟨S_, .f32⟩ : BufTy).Contents (Elt F) → (⟨S10x65536, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., reshape_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., reshape_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., reshape_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., reshape_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., reshape_bufs_sub .., nary_bufs_sub .., reshape_bufs_sub .., reshape_bufs_sub .., binary_bufs_sub .., binary_bufs_sub .., unary_bufs_sub .., unary_bufs_sub .., binary_bufs_sub .., nullary_bufs_sub .., unary_bufs_sub .., binary_bufs_sub .., unary_bufs_sub .., binary_bufs_sub .., nullary_bufs_sub .., binary_bufs_sub ..⟩

/-! ## The seven windows -/

/-- Window 0: the projection and the indicators. -/
abbrev w0 : List (HloOp τ sig (Elt F)) :=
  [ unary main_arg0 main_v0 ((transpose S1024x65536 [1, 0] · transposes_S65536x1024_S1024x65536_1_0) : (⟨S65536x1024, .f32⟩ : BufTy).Contents (Elt F) → (⟨S1024x65536, .f32⟩ : BufTy).Contents (Elt F)),
    binary main_arg1 main_v0 main_v1 ((fun l r => Host.dotGeneral dot_S64x1024_S1024x65536_S64x65536_1_0_0_1_n_n none l r) : (⟨S64x1024, .f32⟩ : BufTy).Contents (Elt F) → (⟨S1024x65536, .f32⟩ : BufTy).Contents (Elt F) → (⟨S64x65536, .f32⟩ : BufTy).Contents (Elt F)),
    nullary main_cst (constant S_ .f32 0x42800000#32),
    unary main_cst main_v2 (broadcastInDim S64x65536 ![] bcast_S_S64x65536 : (⟨S_, .f32⟩ : BufTy).Contents (Elt F) → (⟨S64x65536, .f32⟩ : BufTy).Contents (Elt F)),
    binary main_v1 main_v2 main_v3 (Host.divf : (⟨S64x65536, .f32⟩ : BufTy).Contents (Elt F) → (⟨S64x65536, .f32⟩ : BufTy).Contents (Elt F) → (⟨S64x65536, .f32⟩ : BufTy).Contents (Elt F)),
    binary main_arg4 main_v3 main_v4 ((fun l r => Host.dotGeneral dot_S31x64_S64x65536_S31x65536_1_0_0_1_n_n none l r) : (⟨S31x64, .f32⟩ : BufTy).Contents (Elt F) → (⟨S64x65536, .f32⟩ : BufTy).Contents (Elt F) → (⟨S31x65536, .f32⟩ : BufTy).Contents (Elt F)),
    nullary main_cst_0 (constant S_ .f32 0x4E6E6B28#32),
    unary main_cst_0 main_v5 (broadcastInDim S31x65536 ![] bcast_S_S31x65536 : (⟨S_, .f32⟩ : BufTy).Contents (Elt F) → (⟨S31x65536, .f32⟩ : BufTy).Contents (Elt F)),
    binary main_v5 main_v4 main_v6 (mulf : (⟨S31x65536, .f32⟩ : BufTy).Contents (Elt F) → (⟨S31x65536, .f32⟩ : BufTy).Contents (Elt F) → (⟨S31x65536, .f32⟩ : BufTy).Contents (Elt F)),
    unary main_v6 main_v7 (Host.tanh : (⟨S31x65536, .f32⟩ : BufTy).Contents (Elt F) → (⟨S31x65536, .f32⟩ : BufTy).Contents (Elt F)) ]

/-- Window 1: level 1. -/
abbrev w1 : List (HloOp τ sig (Elt F)) :=
  [ nullary main_cst_1 (constant S_ .f32 0x3F800000#32),
    unary main_cst_1 main_v8 (broadcastInDim S1x65536 ![] bcast_S_S1x65536 : (⟨S_, .f32⟩ : BufTy).Contents (Elt F) → (⟨S1x65536, .f32⟩ : BufTy).Contents (Elt F)),
    unary main_v7 main_v9 ((extractStridedSlice S1x65536 ![0, 0] · slices_S31x65536_S1x65536_0_0) : (⟨S31x65536, .f32⟩ : BufTy).Contents (Elt F) → (⟨S1x65536, .f32⟩ : BufTy).Contents (Elt F)),
    nullary main_cst_2 (constant S_ .f32 0x3F800000#32),
    unary main_cst_2 main_v10 (broadcastInDim S1x65536 ![] bcast_S_S1x65536 : (⟨S_, .f32⟩ : BufTy).Contents (Elt F) → (⟨S1x65536, .f32⟩ : BufTy).Contents (Elt F)),
    binary main_v10 main_v9 main_v11 (addf : (⟨S1x65536, .f32⟩ : BufTy).Contents (Elt F) → (⟨S1x65536, .f32⟩ : BufTy).Contents (Elt F) → (⟨S1x65536, .f32⟩ : BufTy).Contents (Elt F)),
    binary main_v8 main_v11 main_v12 (mulf : (⟨S1x65536, .f32⟩ : BufTy).Contents (Elt F) → (⟨S1x65536, .f32⟩ : BufTy).Contents (Elt F) → (⟨S1x65536, .f32⟩ : BufTy).Contents (Elt F)),
    nullary main_cst_3 (constant S_ .f32 0x3F000000#32),
    unary main_cst_3 main_v13 (broadcastInDim S1x65536 ![] bcast_S_S1x65536 : (⟨S_, .f32⟩ : BufTy).Contents (Elt F) → (⟨S1x65536, .f32⟩ : BufTy).Contents (Elt F)),
    binary main_v12 main_v13 main_v14 (mulf : (⟨S1x65536, .f32⟩ : BufTy).Contents (Elt F) → (⟨S1x65536, .f32⟩ : BufTy).Contents (Elt F) → (⟨S1x65536, .f32⟩ : BufTy).Contents (Elt F)),
    nullary main_cst_4 (constant S_ .f32 0x3F800000#32),
    unary main_cst_4 main_v15 (broadcastInDim S1x65536 ![] bcast_S_S1x65536 : (⟨S_, .f32⟩ : BufTy).Contents (Elt F) → (⟨S1x65536, .f32⟩ : BufTy).Contents (Elt F)),
    binary main_v15 main_v9 main_v16 (subf : (⟨S1x65536, .f32⟩ : BufTy).Contents (Elt F) → (⟨S1x65536, .f32⟩ : BufTy).Contents (Elt F) → (⟨S1x65536, .f32⟩ : BufTy).Contents (Elt F)),
    binary main_v8 main_v16 main_v17 (mulf : (⟨S1x65536, .f32⟩ : BufTy).Contents (Elt F) → (⟨S1x65536, .f32⟩ : BufTy).Contents (Elt F) → (⟨S1x65536, .f32⟩ : BufTy).Contents (Elt F)),
    nullary main_cst_5 (constant S_ .f32 0x3F000000#32),
    unary main_cst_5 main_v18 (broadcastInDim S1x65536 ![] bcast_S_S1x65536 : (⟨S_, .f32⟩ : BufTy).Contents (Elt F) → (⟨S1x65536, .f32⟩ : BufTy).Contents (Elt F)),
    binary main_v17 main_v18 main_v19 (mulf : (⟨S1x65536, .f32⟩ : BufTy).Contents (Elt F) → (⟨S1x65536, .f32⟩ : BufTy).Contents (Elt F) → (⟨S1x65536, .f32⟩ : BufTy).Contents (Elt F)),
    unary main_v14 main_v20 (broadcastInDim S1x1x65536 ![0, 2] bcast_S1x65536_S1x1x65536_0_2 : (⟨S1x65536, .f32⟩ : BufTy).Contents (Elt F) → (⟨S1x1x65536, .f32⟩ : BufTy).Contents (Elt F)),
    unary main_v19 main_v21 (broadcastInDim S1x1x65536 ![0, 2] bcast_S1x65536_S1x1x65536_0_2 : (⟨S1x65536, .f32⟩ : BufTy).Contents (Elt F) → (⟨S1x1x65536, .f32⟩ : BufTy).Contents (Elt F)),
    binary main_v20 main_v21 main_v22 ((fun a b => concatenate S1x2x65536 1 [⟨S1x1x65536, a⟩, ⟨S1x1x65536, b⟩] concatenates_S1x1x65536_S1x1x65536_S1x2x65536_d1) : (⟨S1x1x65536, .f32⟩ : BufTy).Contents (Elt F) → (⟨S1x1x65536, .f32⟩ : BufTy).Contents (Elt F) → (⟨S1x2x65536, .f32⟩ : BufTy).Contents (Elt F)),
    reshape main_v22 main_v23 rfl shapeCasts_S1x2x65536_S2x65536 ]

/-- Window 2: level 2. -/
abbrev w2 : List (HloOp τ sig (Elt F)) :=
  [ unary main_v7 main_v24 ((extractStridedSlice S2x65536 ![1, 0] · slices_S31x65536_S2x65536_1_0) : (⟨S31x65536, .f32⟩ : BufTy).Contents (Elt F) → (⟨S2x65536, .f32⟩ : BufTy).Contents (Elt F)),
    nullary main_cst_6 (constant S_ .f32 0x3F800000#32),
    unary main_cst_6 main_v25 (broadcastInDim S2x65536 ![] bcast_S_S2x65536 : (⟨S_, .f32⟩ : BufTy).Contents (Elt F) → (⟨S2x65536, .f32⟩ : BufTy).Contents (Elt F)),
    binary main_v25 main_v24 main_v26 (addf : (⟨S2x65536, .f32⟩ : BufTy).Contents (Elt F) → (⟨S2x65536, .f32⟩ : BufTy).Contents (Elt F) → (⟨S2x65536, .f32⟩ : BufTy).Contents (Elt F)),
    binary main_v23 main_v26 main_v27 (mulf : (⟨S2x65536, .f32⟩ : BufTy).Contents (Elt F) → (⟨S2x65536, .f32⟩ : BufTy).Contents (Elt F) → (⟨S2x65536, .f32⟩ : BufTy).Contents (Elt F)),
    nullary main_cst_7 (constant S_ .f32 0x3F000000#32),
    unary main_cst_7 main_v28 (broadcastInDim S2x65536 ![] bcast_S_S2x65536 : (⟨S_, .f32⟩ : BufTy).Contents (Elt F) → (⟨S2x65536, .f32⟩ : BufTy).Contents (Elt F)),
    binary main_v27 main_v28 main_v29 (mulf : (⟨S2x65536, .f32⟩ : BufTy).Contents (Elt F) → (⟨S2x65536, .f32⟩ : BufTy).Contents (Elt F) → (⟨S2x65536, .f32⟩ : BufTy).Contents (Elt F)),
    nullary main_cst_8 (constant S_ .f32 0x3F800000#32),
    unary main_cst_8 main_v30 (broadcastInDim S2x65536 ![] bcast_S_S2x65536 : (⟨S_, .f32⟩ : BufTy).Contents (Elt F) → (⟨S2x65536, .f32⟩ : BufTy).Contents (Elt F)),
    binary main_v30 main_v24 main_v31 (subf : (⟨S2x65536, .f32⟩ : BufTy).Contents (Elt F) → (⟨S2x65536, .f32⟩ : BufTy).Contents (Elt F) → (⟨S2x65536, .f32⟩ : BufTy).Contents (Elt F)),
    binary main_v23 main_v31 main_v32 (mulf : (⟨S2x65536, .f32⟩ : BufTy).Contents (Elt F) → (⟨S2x65536, .f32⟩ : BufTy).Contents (Elt F) → (⟨S2x65536, .f32⟩ : BufTy).Contents (Elt F)),
    nullary main_cst_9 (constant S_ .f32 0x3F000000#32),
    unary main_cst_9 main_v33 (broadcastInDim S2x65536 ![] bcast_S_S2x65536 : (⟨S_, .f32⟩ : BufTy).Contents (Elt F) → (⟨S2x65536, .f32⟩ : BufTy).Contents (Elt F)),
    binary main_v32 main_v33 main_v34 (mulf : (⟨S2x65536, .f32⟩ : BufTy).Contents (Elt F) → (⟨S2x65536, .f32⟩ : BufTy).Contents (Elt F) → (⟨S2x65536, .f32⟩ : BufTy).Contents (Elt F)),
    unary main_v29 main_v35 (broadcastInDim S2x1x65536 ![0, 2] bcast_S2x65536_S2x1x65536_0_2 : (⟨S2x65536, .f32⟩ : BufTy).Contents (Elt F) → (⟨S2x1x65536, .f32⟩ : BufTy).Contents (Elt F)),
    unary main_v34 main_v36 (broadcastInDim S2x1x65536 ![0, 2] bcast_S2x65536_S2x1x65536_0_2 : (⟨S2x65536, .f32⟩ : BufTy).Contents (Elt F) → (⟨S2x1x65536, .f32⟩ : BufTy).Contents (Elt F)),
    binary main_v35 main_v36 main_v37 ((fun a b => concatenate S2x2x65536 1 [⟨S2x1x65536, a⟩, ⟨S2x1x65536, b⟩] concatenates_S2x1x65536_S2x1x65536_S2x2x65536_d1) : (⟨S2x1x65536, .f32⟩ : BufTy).Contents (Elt F) → (⟨S2x1x65536, .f32⟩ : BufTy).Contents (Elt F) → (⟨S2x2x65536, .f32⟩ : BufTy).Contents (Elt F)),
    reshape main_v37 main_v38 rfl shapeCasts_S2x2x65536_S4x65536 ]

/-- Window 3: level 3. -/
abbrev w3 : List (HloOp τ sig (Elt F)) :=
  [ unary main_v7 main_v39 ((extractStridedSlice S4x65536 ![3, 0] · slices_S31x65536_S4x65536_3_0) : (⟨S31x65536, .f32⟩ : BufTy).Contents (Elt F) → (⟨S4x65536, .f32⟩ : BufTy).Contents (Elt F)),
    nullary main_cst_10 (constant S_ .f32 0x3F800000#32),
    unary main_cst_10 main_v40 (broadcastInDim S4x65536 ![] bcast_S_S4x65536 : (⟨S_, .f32⟩ : BufTy).Contents (Elt F) → (⟨S4x65536, .f32⟩ : BufTy).Contents (Elt F)),
    binary main_v40 main_v39 main_v41 (addf : (⟨S4x65536, .f32⟩ : BufTy).Contents (Elt F) → (⟨S4x65536, .f32⟩ : BufTy).Contents (Elt F) → (⟨S4x65536, .f32⟩ : BufTy).Contents (Elt F)),
    binary main_v38 main_v41 main_v42 (mulf : (⟨S4x65536, .f32⟩ : BufTy).Contents (Elt F) → (⟨S4x65536, .f32⟩ : BufTy).Contents (Elt F) → (⟨S4x65536, .f32⟩ : BufTy).Contents (Elt F)),
    nullary main_cst_11 (constant S_ .f32 0x3F000000#32),
    unary main_cst_11 main_v43 (broadcastInDim S4x65536 ![] bcast_S_S4x65536 : (⟨S_, .f32⟩ : BufTy).Contents (Elt F) → (⟨S4x65536, .f32⟩ : BufTy).Contents (Elt F)),
    binary main_v42 main_v43 main_v44 (mulf : (⟨S4x65536, .f32⟩ : BufTy).Contents (Elt F) → (⟨S4x65536, .f32⟩ : BufTy).Contents (Elt F) → (⟨S4x65536, .f32⟩ : BufTy).Contents (Elt F)),
    nullary main_cst_12 (constant S_ .f32 0x3F800000#32),
    unary main_cst_12 main_v45 (broadcastInDim S4x65536 ![] bcast_S_S4x65536 : (⟨S_, .f32⟩ : BufTy).Contents (Elt F) → (⟨S4x65536, .f32⟩ : BufTy).Contents (Elt F)),
    binary main_v45 main_v39 main_v46 (subf : (⟨S4x65536, .f32⟩ : BufTy).Contents (Elt F) → (⟨S4x65536, .f32⟩ : BufTy).Contents (Elt F) → (⟨S4x65536, .f32⟩ : BufTy).Contents (Elt F)),
    binary main_v38 main_v46 main_v47 (mulf : (⟨S4x65536, .f32⟩ : BufTy).Contents (Elt F) → (⟨S4x65536, .f32⟩ : BufTy).Contents (Elt F) → (⟨S4x65536, .f32⟩ : BufTy).Contents (Elt F)),
    nullary main_cst_13 (constant S_ .f32 0x3F000000#32),
    unary main_cst_13 main_v48 (broadcastInDim S4x65536 ![] bcast_S_S4x65536 : (⟨S_, .f32⟩ : BufTy).Contents (Elt F) → (⟨S4x65536, .f32⟩ : BufTy).Contents (Elt F)),
    binary main_v47 main_v48 main_v49 (mulf : (⟨S4x65536, .f32⟩ : BufTy).Contents (Elt F) → (⟨S4x65536, .f32⟩ : BufTy).Contents (Elt F) → (⟨S4x65536, .f32⟩ : BufTy).Contents (Elt F)),
    unary main_v44 main_v50 (broadcastInDim S4x1x65536 ![0, 2] bcast_S4x65536_S4x1x65536_0_2 : (⟨S4x65536, .f32⟩ : BufTy).Contents (Elt F) → (⟨S4x1x65536, .f32⟩ : BufTy).Contents (Elt F)),
    unary main_v49 main_v51 (broadcastInDim S4x1x65536 ![0, 2] bcast_S4x65536_S4x1x65536_0_2 : (⟨S4x65536, .f32⟩ : BufTy).Contents (Elt F) → (⟨S4x1x65536, .f32⟩ : BufTy).Contents (Elt F)),
    binary main_v50 main_v51 main_v52 ((fun a b => concatenate S4x2x65536 1 [⟨S4x1x65536, a⟩, ⟨S4x1x65536, b⟩] concatenates_S4x1x65536_S4x1x65536_S4x2x65536_d1) : (⟨S4x1x65536, .f32⟩ : BufTy).Contents (Elt F) → (⟨S4x1x65536, .f32⟩ : BufTy).Contents (Elt F) → (⟨S4x2x65536, .f32⟩ : BufTy).Contents (Elt F)),
    reshape main_v52 main_v53 rfl shapeCasts_S4x2x65536_S8x65536 ]

/-- Window 4: level 4. -/
abbrev w4 : List (HloOp τ sig (Elt F)) :=
  [ unary main_v7 main_v54 ((extractStridedSlice S8x65536 ![7, 0] · slices_S31x65536_S8x65536_7_0) : (⟨S31x65536, .f32⟩ : BufTy).Contents (Elt F) → (⟨S8x65536, .f32⟩ : BufTy).Contents (Elt F)),
    nullary main_cst_14 (constant S_ .f32 0x3F800000#32),
    unary main_cst_14 main_v55 (broadcastInDim S8x65536 ![] bcast_S_S8x65536 : (⟨S_, .f32⟩ : BufTy).Contents (Elt F) → (⟨S8x65536, .f32⟩ : BufTy).Contents (Elt F)),
    binary main_v55 main_v54 main_v56 (addf : (⟨S8x65536, .f32⟩ : BufTy).Contents (Elt F) → (⟨S8x65536, .f32⟩ : BufTy).Contents (Elt F) → (⟨S8x65536, .f32⟩ : BufTy).Contents (Elt F)),
    binary main_v53 main_v56 main_v57 (mulf : (⟨S8x65536, .f32⟩ : BufTy).Contents (Elt F) → (⟨S8x65536, .f32⟩ : BufTy).Contents (Elt F) → (⟨S8x65536, .f32⟩ : BufTy).Contents (Elt F)),
    nullary main_cst_15 (constant S_ .f32 0x3F000000#32),
    unary main_cst_15 main_v58 (broadcastInDim S8x65536 ![] bcast_S_S8x65536 : (⟨S_, .f32⟩ : BufTy).Contents (Elt F) → (⟨S8x65536, .f32⟩ : BufTy).Contents (Elt F)),
    binary main_v57 main_v58 main_v59 (mulf : (⟨S8x65536, .f32⟩ : BufTy).Contents (Elt F) → (⟨S8x65536, .f32⟩ : BufTy).Contents (Elt F) → (⟨S8x65536, .f32⟩ : BufTy).Contents (Elt F)),
    nullary main_cst_16 (constant S_ .f32 0x3F800000#32),
    unary main_cst_16 main_v60 (broadcastInDim S8x65536 ![] bcast_S_S8x65536 : (⟨S_, .f32⟩ : BufTy).Contents (Elt F) → (⟨S8x65536, .f32⟩ : BufTy).Contents (Elt F)),
    binary main_v60 main_v54 main_v61 (subf : (⟨S8x65536, .f32⟩ : BufTy).Contents (Elt F) → (⟨S8x65536, .f32⟩ : BufTy).Contents (Elt F) → (⟨S8x65536, .f32⟩ : BufTy).Contents (Elt F)),
    binary main_v53 main_v61 main_v62 (mulf : (⟨S8x65536, .f32⟩ : BufTy).Contents (Elt F) → (⟨S8x65536, .f32⟩ : BufTy).Contents (Elt F) → (⟨S8x65536, .f32⟩ : BufTy).Contents (Elt F)),
    nullary main_cst_17 (constant S_ .f32 0x3F000000#32),
    unary main_cst_17 main_v63 (broadcastInDim S8x65536 ![] bcast_S_S8x65536 : (⟨S_, .f32⟩ : BufTy).Contents (Elt F) → (⟨S8x65536, .f32⟩ : BufTy).Contents (Elt F)),
    binary main_v62 main_v63 main_v64 (mulf : (⟨S8x65536, .f32⟩ : BufTy).Contents (Elt F) → (⟨S8x65536, .f32⟩ : BufTy).Contents (Elt F) → (⟨S8x65536, .f32⟩ : BufTy).Contents (Elt F)),
    unary main_v59 main_v65 (broadcastInDim S8x1x65536 ![0, 2] bcast_S8x65536_S8x1x65536_0_2 : (⟨S8x65536, .f32⟩ : BufTy).Contents (Elt F) → (⟨S8x1x65536, .f32⟩ : BufTy).Contents (Elt F)),
    unary main_v64 main_v66 (broadcastInDim S8x1x65536 ![0, 2] bcast_S8x65536_S8x1x65536_0_2 : (⟨S8x65536, .f32⟩ : BufTy).Contents (Elt F) → (⟨S8x1x65536, .f32⟩ : BufTy).Contents (Elt F)),
    binary main_v65 main_v66 main_v67 ((fun a b => concatenate S8x2x65536 1 [⟨S8x1x65536, a⟩, ⟨S8x1x65536, b⟩] concatenates_S8x1x65536_S8x1x65536_S8x2x65536_d1) : (⟨S8x1x65536, .f32⟩ : BufTy).Contents (Elt F) → (⟨S8x1x65536, .f32⟩ : BufTy).Contents (Elt F) → (⟨S8x2x65536, .f32⟩ : BufTy).Contents (Elt F)),
    reshape main_v67 main_v68 rfl shapeCasts_S8x2x65536_S16x65536 ]

/-- Window 5: level 5. -/
abbrev w5 : List (HloOp τ sig (Elt F)) :=
  [ unary main_v7 main_v69 ((extractStridedSlice S16x65536 ![15, 0] · slices_S31x65536_S16x65536_15_0) : (⟨S31x65536, .f32⟩ : BufTy).Contents (Elt F) → (⟨S16x65536, .f32⟩ : BufTy).Contents (Elt F)),
    nullary main_cst_18 (constant S_ .f32 0x3F800000#32),
    unary main_cst_18 main_v70 (broadcastInDim S16x65536 ![] bcast_S_S16x65536 : (⟨S_, .f32⟩ : BufTy).Contents (Elt F) → (⟨S16x65536, .f32⟩ : BufTy).Contents (Elt F)),
    binary main_v70 main_v69 main_v71 (addf : (⟨S16x65536, .f32⟩ : BufTy).Contents (Elt F) → (⟨S16x65536, .f32⟩ : BufTy).Contents (Elt F) → (⟨S16x65536, .f32⟩ : BufTy).Contents (Elt F)),
    binary main_v68 main_v71 main_v72 (mulf : (⟨S16x65536, .f32⟩ : BufTy).Contents (Elt F) → (⟨S16x65536, .f32⟩ : BufTy).Contents (Elt F) → (⟨S16x65536, .f32⟩ : BufTy).Contents (Elt F)),
    nullary main_cst_19 (constant S_ .f32 0x3F000000#32),
    unary main_cst_19 main_v73 (broadcastInDim S16x65536 ![] bcast_S_S16x65536 : (⟨S_, .f32⟩ : BufTy).Contents (Elt F) → (⟨S16x65536, .f32⟩ : BufTy).Contents (Elt F)),
    binary main_v72 main_v73 main_v74 (mulf : (⟨S16x65536, .f32⟩ : BufTy).Contents (Elt F) → (⟨S16x65536, .f32⟩ : BufTy).Contents (Elt F) → (⟨S16x65536, .f32⟩ : BufTy).Contents (Elt F)),
    nullary main_cst_20 (constant S_ .f32 0x3F800000#32),
    unary main_cst_20 main_v75 (broadcastInDim S16x65536 ![] bcast_S_S16x65536 : (⟨S_, .f32⟩ : BufTy).Contents (Elt F) → (⟨S16x65536, .f32⟩ : BufTy).Contents (Elt F)),
    binary main_v75 main_v69 main_v76 (subf : (⟨S16x65536, .f32⟩ : BufTy).Contents (Elt F) → (⟨S16x65536, .f32⟩ : BufTy).Contents (Elt F) → (⟨S16x65536, .f32⟩ : BufTy).Contents (Elt F)),
    binary main_v68 main_v76 main_v77 (mulf : (⟨S16x65536, .f32⟩ : BufTy).Contents (Elt F) → (⟨S16x65536, .f32⟩ : BufTy).Contents (Elt F) → (⟨S16x65536, .f32⟩ : BufTy).Contents (Elt F)),
    nullary main_cst_21 (constant S_ .f32 0x3F000000#32),
    unary main_cst_21 main_v78 (broadcastInDim S16x65536 ![] bcast_S_S16x65536 : (⟨S_, .f32⟩ : BufTy).Contents (Elt F) → (⟨S16x65536, .f32⟩ : BufTy).Contents (Elt F)),
    binary main_v77 main_v78 main_v79 (mulf : (⟨S16x65536, .f32⟩ : BufTy).Contents (Elt F) → (⟨S16x65536, .f32⟩ : BufTy).Contents (Elt F) → (⟨S16x65536, .f32⟩ : BufTy).Contents (Elt F)),
    unary main_v74 main_v80 (broadcastInDim S16x1x65536 ![0, 2] bcast_S16x65536_S16x1x65536_0_2 : (⟨S16x65536, .f32⟩ : BufTy).Contents (Elt F) → (⟨S16x1x65536, .f32⟩ : BufTy).Contents (Elt F)),
    unary main_v79 main_v81 (broadcastInDim S16x1x65536 ![0, 2] bcast_S16x65536_S16x1x65536_0_2 : (⟨S16x65536, .f32⟩ : BufTy).Contents (Elt F) → (⟨S16x1x65536, .f32⟩ : BufTy).Contents (Elt F)),
    binary main_v80 main_v81 main_v82 ((fun a b => concatenate S16x2x65536 1 [⟨S16x1x65536, a⟩, ⟨S16x1x65536, b⟩] concatenates_S16x1x65536_S16x1x65536_S16x2x65536_d1) : (⟨S16x1x65536, .f32⟩ : BufTy).Contents (Elt F) → (⟨S16x1x65536, .f32⟩ : BufTy).Contents (Elt F) → (⟨S16x2x65536, .f32⟩ : BufTy).Contents (Elt F)),
    reshape main_v82 main_v83 rfl shapeCasts_S16x2x65536_S32x65536 ]

/-- Window 6: the final scoring. -/
abbrev w6 : List (HloOp τ sig (Elt F)) :=
  [ nary ![main_v8, main_v23, main_v38, main_v53, main_v68, main_v83] main_v84 (fun u => concatenate S63x65536 0 [⟨S1x65536, u 0⟩, ⟨S2x65536, u 1⟩, ⟨S4x65536, u 2⟩, ⟨S8x65536, u 3⟩, ⟨S16x65536, u 4⟩, ⟨S32x65536, u 5⟩] concatenates_S1x65536_S2x65536_S4x65536_S8x65536_S16x65536_S32x65536_S63x65536_d0),
    reshape main_arg2 main_v85 rfl shapeCasts_S630x64_S63x10x64,
    reshape main_arg3 main_v86 rfl shapeCasts_S630x64_S63x10x64,
    binary main_v85 main_v3 main_v87 ((fun l r => Host.dotGeneral dot_S63x10x64_S64x65536_S63x10x65536_2_0_01_1_n_n none l r) : (⟨S63x10x64, .f32⟩ : BufTy).Contents (Elt F) → (⟨S64x65536, .f32⟩ : BufTy).Contents (Elt F) → (⟨S63x10x65536, .f32⟩ : BufTy).Contents (Elt F)),
    binary main_v86 main_v3 main_v88 ((fun l r => Host.dotGeneral dot_S63x10x64_S64x65536_S63x10x65536_2_0_01_1_n_n none l r) : (⟨S63x10x64, .f32⟩ : BufTy).Contents (Elt F) → (⟨S64x65536, .f32⟩ : BufTy).Contents (Elt F) → (⟨S63x10x65536, .f32⟩ : BufTy).Contents (Elt F)),
    unary main_v84 main_v89 (broadcastInDim S63x1x65536 ![0, 2] bcast_S63x65536_S63x1x65536_0_2 : (⟨S63x65536, .f32⟩ : BufTy).Contents (Elt F) → (⟨S63x1x65536, .f32⟩ : BufTy).Contents (Elt F)),
    unary main_v89 main_v90 (broadcastInDim S63x10x65536 ![0, 1, 2] bcast_S63x1x65536_S63x10x65536_0_1_2 : (⟨S63x1x65536, .f32⟩ : BufTy).Contents (Elt F) → (⟨S63x10x65536, .f32⟩ : BufTy).Contents (Elt F)),
    binary main_v90 main_v87 main_v91 (mulf : (⟨S63x10x65536, .f32⟩ : BufTy).Contents (Elt F) → (⟨S63x10x65536, .f32⟩ : BufTy).Contents (Elt F) → (⟨S63x10x65536, .f32⟩ : BufTy).Contents (Elt F)),
    nullary main_cst_22 (constant S_ .f32 0x3F800000#32),
    unary main_cst_22 main_v92 (broadcastInDim S63x10x65536 ![] bcast_S_S63x10x65536 : (⟨S_, .f32⟩ : BufTy).Contents (Elt F) → (⟨S63x10x65536, .f32⟩ : BufTy).Contents (Elt F)),
    binary main_v92 main_v88 main_v93 (mulf : (⟨S63x10x65536, .f32⟩ : BufTy).Contents (Elt F) → (⟨S63x10x65536, .f32⟩ : BufTy).Contents (Elt F) → (⟨S63x10x65536, .f32⟩ : BufTy).Contents (Elt F)),
    unary main_v93 main_v94 (Host.tanh : (⟨S63x10x65536, .f32⟩ : BufTy).Contents (Elt F) → (⟨S63x10x65536, .f32⟩ : BufTy).Contents (Elt F)),
    binary main_v91 main_v94 main_v95 (mulf : (⟨S63x10x65536, .f32⟩ : BufTy).Contents (Elt F) → (⟨S63x10x65536, .f32⟩ : BufTy).Contents (Elt F) → (⟨S63x10x65536, .f32⟩ : BufTy).Contents (Elt F)),
    nullary main_cst_23 (constant S_ .f32 0x00000000#32),
    binary main_v95 main_cst_23 main_v96 ((fun x v => Host.reduceAdd x v reducesTo_S63x10x65536_S10x65536_d0 h_S_) : (⟨S63x10x65536, .f32⟩ : BufTy).Contents (Elt F) → (⟨S_, .f32⟩ : BufTy).Contents (Elt F) → (⟨S10x65536, .f32⟩ : BufTy).Contents (Elt F)) ]

set_option maxRecDepth 8192 in
theorem ops_split : (ops : List (HloOp τ sig (Elt F))) = w0 ++ w1 ++ w2 ++ w3 ++ w4 ++ w5 ++ w6 := rfl

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## Window 0 -/

theorem w0_v3 (W : Valuation τ sig (Elt F)) :
    after w0 W (Proc.devRef .tc main_v3) = sv3 (W (Proc.devRef .tc main_arg0)) (W (Proc.devRef .tc main_arg1)) (W (Proc.devRef .tc main_arg4)) := by
  after_results_simp <;> rfl

theorem w0_v7 (W : Valuation τ sig (Elt F)) :
    after w0 W (Proc.devRef .tc main_v7) = sv7 (W (Proc.devRef .tc main_arg0)) (W (Proc.devRef .tc main_arg1)) (W (Proc.devRef .tc main_arg4)) := by
  after_results_simp <;> rfl

/-! ## Windows 1 – 5: one level each -/

theorem w1_v8 (W : Valuation τ sig (Elt F)) (X : FVec F S65536x1024 .f32) (Z : FVec F S64x1024 .f32) (T : FVec F S31x64 .f32) :
    after w1 W (Proc.devRef .tc main_v8) = sv8 X Z T := by
  after_results_simp <;> rfl

set_option maxRecDepth 8192 in
/-- Window 1 writes level 1 from the indicators it finds. -/
theorem w1_v23 (W : Valuation τ sig (Elt F)) (X : FVec F S65536x1024 .f32) (Z : FVec F S64x1024 .f32) (T : FVec F S31x64 .f32)
    (h7 : W (Proc.devRef .tc main_v7) = sv7 X Z T) :
    after w1 W (Proc.devRef .tc main_v23) = sv23 X Z T := by
  have e : after w1 W (Proc.devRef .tc main_v23) = shapeCast _ (concatenate S1x2x65536 1 [⟨S1x1x65536, (broadcastInDim S1x1x65536 ![0, 2] bcast_S1x65536_S1x1x65536_0_2 (mulf (mulf (sv8 X Z T) (addf (broadcastInDim S1x65536 ![] bcast_S_S1x65536 (constant S_ .f32 0x3F800000#32)) (extractStridedSlice S1x65536 ![0, 0] (W (Proc.devRef .tc main_v7)) slices_S31x65536_S1x65536_0_0))) (broadcastInDim S1x65536 ![] bcast_S_S1x65536 (constant S_ .f32 0x3F000000#32))))⟩, ⟨S1x1x65536, (broadcastInDim S1x1x65536 ![0, 2] bcast_S1x65536_S1x1x65536_0_2 (mulf (mulf (sv8 X Z T) (subf (broadcastInDim S1x65536 ![] bcast_S_S1x65536 (constant S_ .f32 0x3F800000#32)) (extractStridedSlice S1x65536 ![0, 0] (W (Proc.devRef .tc main_v7)) slices_S31x65536_S1x65536_0_0))) (broadcastInDim S1x65536 ![] bcast_S_S1x65536 (constant S_ .f32 0x3F000000#32))))⟩] concatenates_S1x1x65536_S1x1x65536_S1x2x65536_d1) shapeCasts_S1x2x65536_S2x65536 := by
    after_results_simp <;> rfl
  rw [e, h7]
  rfl

set_option maxRecDepth 8192 in
/-- Window 2 writes level 2 from the indicators and level 1 it finds. -/
theorem w2_v38 (W : Valuation τ sig (Elt F)) (X : FVec F S65536x1024 .f32) (Z : FVec F S64x1024 .f32) (T : FVec F S31x64 .f32)
    (h7 : W (Proc.devRef .tc main_v7) = sv7 X Z T) (hp : W (Proc.devRef .tc main_v23) = sv23 X Z T) :
    after w2 W (Proc.devRef .tc main_v38) = sv38 X Z T := by
  have e : after w2 W (Proc.devRef .tc main_v38) = shapeCast _ (concatenate S2x2x65536 1 [⟨S2x1x65536, (broadcastInDim S2x1x65536 ![0, 2] bcast_S2x65536_S2x1x65536_0_2 (mulf (mulf (W (Proc.devRef .tc main_v23)) (addf (broadcastInDim S2x65536 ![] bcast_S_S2x65536 (constant S_ .f32 0x3F800000#32)) (extractStridedSlice S2x65536 ![1, 0] (W (Proc.devRef .tc main_v7)) slices_S31x65536_S2x65536_1_0))) (broadcastInDim S2x65536 ![] bcast_S_S2x65536 (constant S_ .f32 0x3F000000#32))))⟩, ⟨S2x1x65536, (broadcastInDim S2x1x65536 ![0, 2] bcast_S2x65536_S2x1x65536_0_2 (mulf (mulf (W (Proc.devRef .tc main_v23)) (subf (broadcastInDim S2x65536 ![] bcast_S_S2x65536 (constant S_ .f32 0x3F800000#32)) (extractStridedSlice S2x65536 ![1, 0] (W (Proc.devRef .tc main_v7)) slices_S31x65536_S2x65536_1_0))) (broadcastInDim S2x65536 ![] bcast_S_S2x65536 (constant S_ .f32 0x3F000000#32))))⟩] concatenates_S2x1x65536_S2x1x65536_S2x2x65536_d1) shapeCasts_S2x2x65536_S4x65536 := by
    after_results_simp <;> rfl
  rw [e, h7, hp]
  rfl

set_option maxRecDepth 8192 in
/-- Window 3 writes level 3 from the indicators and level 2 it finds. -/
theorem w3_v53 (W : Valuation τ sig (Elt F)) (X : FVec F S65536x1024 .f32) (Z : FVec F S64x1024 .f32) (T : FVec F S31x64 .f32)
    (h7 : W (Proc.devRef .tc main_v7) = sv7 X Z T) (hp : W (Proc.devRef .tc main_v38) = sv38 X Z T) :
    after w3 W (Proc.devRef .tc main_v53) = sv53 X Z T := by
  have e : after w3 W (Proc.devRef .tc main_v53) = shapeCast _ (concatenate S4x2x65536 1 [⟨S4x1x65536, (broadcastInDim S4x1x65536 ![0, 2] bcast_S4x65536_S4x1x65536_0_2 (mulf (mulf (W (Proc.devRef .tc main_v38)) (addf (broadcastInDim S4x65536 ![] bcast_S_S4x65536 (constant S_ .f32 0x3F800000#32)) (extractStridedSlice S4x65536 ![3, 0] (W (Proc.devRef .tc main_v7)) slices_S31x65536_S4x65536_3_0))) (broadcastInDim S4x65536 ![] bcast_S_S4x65536 (constant S_ .f32 0x3F000000#32))))⟩, ⟨S4x1x65536, (broadcastInDim S4x1x65536 ![0, 2] bcast_S4x65536_S4x1x65536_0_2 (mulf (mulf (W (Proc.devRef .tc main_v38)) (subf (broadcastInDim S4x65536 ![] bcast_S_S4x65536 (constant S_ .f32 0x3F800000#32)) (extractStridedSlice S4x65536 ![3, 0] (W (Proc.devRef .tc main_v7)) slices_S31x65536_S4x65536_3_0))) (broadcastInDim S4x65536 ![] bcast_S_S4x65536 (constant S_ .f32 0x3F000000#32))))⟩] concatenates_S4x1x65536_S4x1x65536_S4x2x65536_d1) shapeCasts_S4x2x65536_S8x65536 := by
    after_results_simp <;> rfl
  rw [e, h7, hp]
  rfl

set_option maxRecDepth 8192 in
/-- Window 4 writes level 4 from the indicators and level 3 it finds. -/
theorem w4_v68 (W : Valuation τ sig (Elt F)) (X : FVec F S65536x1024 .f32) (Z : FVec F S64x1024 .f32) (T : FVec F S31x64 .f32)
    (h7 : W (Proc.devRef .tc main_v7) = sv7 X Z T) (hp : W (Proc.devRef .tc main_v53) = sv53 X Z T) :
    after w4 W (Proc.devRef .tc main_v68) = sv68 X Z T := by
  have e : after w4 W (Proc.devRef .tc main_v68) = shapeCast _ (concatenate S8x2x65536 1 [⟨S8x1x65536, (broadcastInDim S8x1x65536 ![0, 2] bcast_S8x65536_S8x1x65536_0_2 (mulf (mulf (W (Proc.devRef .tc main_v53)) (addf (broadcastInDim S8x65536 ![] bcast_S_S8x65536 (constant S_ .f32 0x3F800000#32)) (extractStridedSlice S8x65536 ![7, 0] (W (Proc.devRef .tc main_v7)) slices_S31x65536_S8x65536_7_0))) (broadcastInDim S8x65536 ![] bcast_S_S8x65536 (constant S_ .f32 0x3F000000#32))))⟩, ⟨S8x1x65536, (broadcastInDim S8x1x65536 ![0, 2] bcast_S8x65536_S8x1x65536_0_2 (mulf (mulf (W (Proc.devRef .tc main_v53)) (subf (broadcastInDim S8x65536 ![] bcast_S_S8x65536 (constant S_ .f32 0x3F800000#32)) (extractStridedSlice S8x65536 ![7, 0] (W (Proc.devRef .tc main_v7)) slices_S31x65536_S8x65536_7_0))) (broadcastInDim S8x65536 ![] bcast_S_S8x65536 (constant S_ .f32 0x3F000000#32))))⟩] concatenates_S8x1x65536_S8x1x65536_S8x2x65536_d1) shapeCasts_S8x2x65536_S16x65536 := by
    after_results_simp <;> rfl
  rw [e, h7, hp]
  rfl

set_option maxRecDepth 8192 in
/-- Window 5 writes level 5 from the indicators and level 4 it finds. -/
theorem w5_v83 (W : Valuation τ sig (Elt F)) (X : FVec F S65536x1024 .f32) (Z : FVec F S64x1024 .f32) (T : FVec F S31x64 .f32)
    (h7 : W (Proc.devRef .tc main_v7) = sv7 X Z T) (hp : W (Proc.devRef .tc main_v68) = sv68 X Z T) :
    after w5 W (Proc.devRef .tc main_v83) = sL5 X Z T := by
  have e : after w5 W (Proc.devRef .tc main_v83) = shapeCast _ (concatenate S16x2x65536 1 [⟨S16x1x65536, (broadcastInDim S16x1x65536 ![0, 2] bcast_S16x65536_S16x1x65536_0_2 (mulf (mulf (W (Proc.devRef .tc main_v68)) (addf (broadcastInDim S16x65536 ![] bcast_S_S16x65536 (constant S_ .f32 0x3F800000#32)) (extractStridedSlice S16x65536 ![15, 0] (W (Proc.devRef .tc main_v7)) slices_S31x65536_S16x65536_15_0))) (broadcastInDim S16x65536 ![] bcast_S_S16x65536 (constant S_ .f32 0x3F000000#32))))⟩, ⟨S16x1x65536, (broadcastInDim S16x1x65536 ![0, 2] bcast_S16x65536_S16x1x65536_0_2 (mulf (mulf (W (Proc.devRef .tc main_v68)) (subf (broadcastInDim S16x65536 ![] bcast_S_S16x65536 (constant S_ .f32 0x3F800000#32)) (extractStridedSlice S16x65536 ![15, 0] (W (Proc.devRef .tc main_v7)) slices_S31x65536_S16x65536_15_0))) (broadcastInDim S16x65536 ![] bcast_S_S16x65536 (constant S_ .f32 0x3F000000#32))))⟩] concatenates_S16x1x65536_S16x1x65536_S16x2x65536_d1) shapeCasts_S16x2x65536_S32x65536 := by
    after_results_simp <;> rfl
  rw [e, h7, hp]
  rfl

/-! ## Window 6: the final scoring -/

set_option maxRecDepth 8192 in
/-- Window 6 writes the result from the projection, the six levels and the two weight arrays it finds. -/
theorem w6_v96 (W : Valuation τ sig (Elt F)) (X : FVec F S65536x1024 .f32) (Z : FVec F S64x1024 .f32) (T : FVec F S31x64 .f32) (Wa Va : FVec F S630x64 .f32)
    (h3 : W (Proc.devRef .tc main_v3) = sv3 X Z T) (h8 : W (Proc.devRef .tc main_v8) = sv8 X Z T)
    (h23 : W (Proc.devRef .tc main_v23) = sv23 X Z T) (h38 : W (Proc.devRef .tc main_v38) = sv38 X Z T)
    (h53 : W (Proc.devRef .tc main_v53) = sv53 X Z T) (h68 : W (Proc.devRef .tc main_v68) = sv68 X Z T)
    (h83 : W (Proc.devRef .tc main_v83) = sL5 X Z T) (hW : W (Proc.devRef .tc main_arg2) = Wa) (hV : W (Proc.devRef .tc main_arg3) = Va) :
    after w6 W (Proc.devRef .tc main_v96) = sRes X Z T Wa Va := by
  have e : after w6 W (Proc.devRef .tc main_v96) = Host.reduceAdd (mulf (mulf (broadcastInDim S63x10x65536 ![0, 1, 2] bcast_S63x1x65536_S63x10x65536_0_1_2 (broadcastInDim S63x1x65536 ![0, 2] bcast_S63x65536_S63x1x65536_0_2 (concatenate S63x65536 0 [⟨S1x65536, (W (Proc.devRef .tc main_v8))⟩, ⟨S2x65536, (W (Proc.devRef .tc main_v23))⟩, ⟨S4x65536, (W (Proc.devRef .tc main_v38))⟩, ⟨S8x65536, (W (Proc.devRef .tc main_v53))⟩, ⟨S16x65536, (W (Proc.devRef .tc main_v68))⟩, ⟨S32x65536, (W (Proc.devRef .tc main_v83))⟩] concatenates_S1x65536_S2x65536_S4x65536_S8x65536_S16x65536_S32x65536_S63x65536_d0))) (Host.dotGeneral dot_S63x10x64_S64x65536_S63x10x65536_2_0_01_1_n_n none (shapeCast _ (W (Proc.devRef .tc main_arg2)) shapeCasts_S630x64_S63x10x64) (W (Proc.devRef .tc main_v3)))) (Host.tanh (mulf (broadcastInDim S63x10x65536 ![] bcast_S_S63x10x65536 (constant S_ .f32 0x3F800000#32)) (Host.dotGeneral dot_S63x10x64_S64x65536_S63x10x65536_2_0_01_1_n_n none (shapeCast _ (W (Proc.devRef .tc main_arg3)) shapeCasts_S630x64_S63x10x64) (W (Proc.devRef .tc main_v3)))))) (constant S_ .f32 0x00000000#32) reducesTo_S63x10x65536_S10x65536_d0 h_S_ := by
    after_results_simp <;> rfl
  rw [e, h3, h8, h23, h38, h53, h68, h83, hW, hV]
  rfl

/-! ## What a window does not write it keeps -/

theorem w1_keep_v3 (W : Valuation τ sig (Elt F)) : after w1 W (Proc.devRef .tc main_v3) = W (Proc.devRef .tc main_v3) := by
  after_results_simp

theorem w2_keep_v3 (W : Valuation τ sig (Elt F)) : after w2 W (Proc.devRef .tc main_v3) = W (Proc.devRef .tc main_v3) := by
  after_results_simp

theorem w3_keep_v3 (W : Valuation τ sig (Elt F)) : after w3 W (Proc.devRef .tc main_v3) = W (Proc.devRef .tc main_v3) := by
  after_results_simp

theorem w4_keep_v3 (W : Valuation τ sig (Elt F)) : after w4 W (Proc.devRef .tc main_v3) = W (Proc.devRef .tc main_v3) := by
  after_results_simp

theorem w5_keep_v3 (W : Valuation τ sig (Elt F)) : after w5 W (Proc.devRef .tc main_v3) = W (Proc.devRef .tc main_v3) := by
  after_results_simp

theorem w1_keep_v7 (W : Valuation τ sig (Elt F)) : after w1 W (Proc.devRef .tc main_v7) = W (Proc.devRef .tc main_v7) := by
  after_results_simp

theorem w2_keep_v7 (W : Valuation τ sig (Elt F)) : after w2 W (Proc.devRef .tc main_v7) = W (Proc.devRef .tc main_v7) := by
  after_results_simp

theorem w3_keep_v7 (W : Valuation τ sig (Elt F)) : after w3 W (Proc.devRef .tc main_v7) = W (Proc.devRef .tc main_v7) := by
  after_results_simp

theorem w4_keep_v7 (W : Valuation τ sig (Elt F)) : after w4 W (Proc.devRef .tc main_v7) = W (Proc.devRef .tc main_v7) := by
  after_results_simp

theorem w2_keep_v8 (W : Valuation τ sig (Elt F)) : after w2 W (Proc.devRef .tc main_v8) = W (Proc.devRef .tc main_v8) := by
  after_results_simp

theorem w3_keep_v8 (W : Valuation τ sig (Elt F)) : after w3 W (Proc.devRef .tc main_v8) = W (Proc.devRef .tc main_v8) := by
  after_results_simp

theorem w4_keep_v8 (W : Valuation τ sig (Elt F)) : after w4 W (Proc.devRef .tc main_v8) = W (Proc.devRef .tc main_v8) := by
  after_results_simp

theorem w5_keep_v8 (W : Valuation τ sig (Elt F)) : after w5 W (Proc.devRef .tc main_v8) = W (Proc.devRef .tc main_v8) := by
  after_results_simp

theorem w2_keep_v23 (W : Valuation τ sig (Elt F)) : after w2 W (Proc.devRef .tc main_v23) = W (Proc.devRef .tc main_v23) := by
  after_results_simp

theorem w3_keep_v23 (W : Valuation τ sig (Elt F)) : after w3 W (Proc.devRef .tc main_v23) = W (Proc.devRef .tc main_v23) := by
  after_results_simp

theorem w4_keep_v23 (W : Valuation τ sig (Elt F)) : after w4 W (Proc.devRef .tc main_v23) = W (Proc.devRef .tc main_v23) := by
  after_results_simp

theorem w5_keep_v23 (W : Valuation τ sig (Elt F)) : after w5 W (Proc.devRef .tc main_v23) = W (Proc.devRef .tc main_v23) := by
  after_results_simp

theorem w3_keep_v38 (W : Valuation τ sig (Elt F)) : after w3 W (Proc.devRef .tc main_v38) = W (Proc.devRef .tc main_v38) := by
  after_results_simp

theorem w4_keep_v38 (W : Valuation τ sig (Elt F)) : after w4 W (Proc.devRef .tc main_v38) = W (Proc.devRef .tc main_v38) := by
  after_results_simp

theorem w5_keep_v38 (W : Valuation τ sig (Elt F)) : after w5 W (Proc.devRef .tc main_v38) = W (Proc.devRef .tc main_v38) := by
  after_results_simp

theorem w4_keep_v53 (W : Valuation τ sig (Elt F)) : after w4 W (Proc.devRef .tc main_v53) = W (Proc.devRef .tc main_v53) := by
  after_results_simp

theorem w5_keep_v53 (W : Valuation τ sig (Elt F)) : after w5 W (Proc.devRef .tc main_v53) = W (Proc.devRef .tc main_v53) := by
  after_results_simp

theorem w5_keep_v68 (W : Valuation τ sig (Elt F)) : after w5 W (Proc.devRef .tc main_v68) = W (Proc.devRef .tc main_v68) := by
  after_results_simp

theorem w0_keep_arg2 (W : Valuation τ sig (Elt F)) : after w0 W (Proc.devRef .tc main_arg2) = W (Proc.devRef .tc main_arg2) := by
  after_results_simp

theorem w1_keep_arg2 (W : Valuation τ sig (Elt F)) : after w1 W (Proc.devRef .tc main_arg2) = W (Proc.devRef .tc main_arg2) := by
  after_results_simp

theorem w2_keep_arg2 (W : Valuation τ sig (Elt F)) : after w2 W (Proc.devRef .tc main_arg2) = W (Proc.devRef .tc main_arg2) := by
  after_results_simp

theorem w3_keep_arg2 (W : Valuation τ sig (Elt F)) : after w3 W (Proc.devRef .tc main_arg2) = W (Proc.devRef .tc main_arg2) := by
  after_results_simp

theorem w4_keep_arg2 (W : Valuation τ sig (Elt F)) : after w4 W (Proc.devRef .tc main_arg2) = W (Proc.devRef .tc main_arg2) := by
  after_results_simp

theorem w5_keep_arg2 (W : Valuation τ sig (Elt F)) : after w5 W (Proc.devRef .tc main_arg2) = W (Proc.devRef .tc main_arg2) := by
  after_results_simp

theorem w0_keep_arg3 (W : Valuation τ sig (Elt F)) : after w0 W (Proc.devRef .tc main_arg3) = W (Proc.devRef .tc main_arg3) := by
  after_results_simp

theorem w1_keep_arg3 (W : Valuation τ sig (Elt F)) : after w1 W (Proc.devRef .tc main_arg3) = W (Proc.devRef .tc main_arg3) := by
  after_results_simp

theorem w2_keep_arg3 (W : Valuation τ sig (Elt F)) : after w2 W (Proc.devRef .tc main_arg3) = W (Proc.devRef .tc main_arg3) := by
  after_results_simp

theorem w3_keep_arg3 (W : Valuation τ sig (Elt F)) : after w3 W (Proc.devRef .tc main_arg3) = W (Proc.devRef .tc main_arg3) := by
  after_results_simp

theorem w4_keep_arg3 (W : Valuation τ sig (Elt F)) : after w4 W (Proc.devRef .tc main_arg3) = W (Proc.devRef .tc main_arg3) := by
  after_results_simp

theorem w5_keep_arg3 (W : Valuation τ sig (Elt F)) : after w5 W (Proc.devRef .tc main_arg3) = W (Proc.devRef .tc main_arg3) := by
  after_results_simp

/-! ## No operation writes an argument -/

set_option maxRecDepth 8192 in
theorem keep_arg0 (V0 : Valuation τ sig (Elt F)) : after ops V0 (Proc.devRef .tc main_arg0) = V0 (Proc.devRef .tc main_arg0) :=
  after_of_forall_not_mem (b := Proc.devRef .tc main_arg0) _ _ (List.forall_iff_forall_mem.mp (by
    simp only [List.Forall, nullary_writes, unary_writes, binary_writes, reshape_writes, nary_writes, Finset.mem_singleton]
    repeat' apply And.intro
    all_goals exact devRef_ne_of_ne (by decide)))

set_option maxRecDepth 8192 in
theorem keep_arg1 (V0 : Valuation τ sig (Elt F)) : after ops V0 (Proc.devRef .tc main_arg1) = V0 (Proc.devRef .tc main_arg1) :=
  after_of_forall_not_mem (b := Proc.devRef .tc main_arg1) _ _ (List.forall_iff_forall_mem.mp (by
    simp only [List.Forall, nullary_writes, unary_writes, binary_writes, reshape_writes, nary_writes, Finset.mem_singleton]
    repeat' apply And.intro
    all_goals exact devRef_ne_of_ne (by decide)))

set_option maxRecDepth 8192 in
theorem keep_arg2 (V0 : Valuation τ sig (Elt F)) : after ops V0 (Proc.devRef .tc main_arg2) = V0 (Proc.devRef .tc main_arg2) :=
  after_of_forall_not_mem (b := Proc.devRef .tc main_arg2) _ _ (List.forall_iff_forall_mem.mp (by
    simp only [List.Forall, nullary_writes, unary_writes, binary_writes, reshape_writes, nary_writes, Finset.mem_singleton]
    repeat' apply And.intro
    all_goals exact devRef_ne_of_ne (by decide)))

set_option maxRecDepth 8192 in
theorem keep_arg3 (V0 : Valuation τ sig (Elt F)) : after ops V0 (Proc.devRef .tc main_arg3) = V0 (Proc.devRef .tc main_arg3) :=
  after_of_forall_not_mem (b := Proc.devRef .tc main_arg3) _ _ (List.forall_iff_forall_mem.mp (by
    simp only [List.Forall, nullary_writes, unary_writes, binary_writes, reshape_writes, nary_writes, Finset.mem_singleton]
    repeat' apply And.intro
    all_goals exact devRef_ne_of_ne (by decide)))

set_option maxRecDepth 8192 in
theorem keep_arg4 (V0 : Valuation τ sig (Elt F)) : after ops V0 (Proc.devRef .tc main_arg4) = V0 (Proc.devRef .tc main_arg4) :=
  after_of_forall_not_mem (b := Proc.devRef .tc main_arg4) _ _ (List.forall_iff_forall_mem.mp (by
    simp only [List.Forall, nullary_writes, unary_writes, binary_writes, reshape_writes, nary_writes, Finset.mem_singleton]
    repeat' apply And.intro
    all_goals exact devRef_ne_of_ne (by decide)))

/-! ## The windows chained -/

set_option maxRecDepth 8192 in
/-- After all 122 operations the result buffer holds the result stage of the five argument arrays. -/
theorem after_v96 (V0 : Valuation τ sig (Elt F)) :
    after ops V0 (Proc.devRef .tc main_v96) = sRes (V0 (Proc.devRef .tc main_arg0)) (V0 (Proc.devRef .tc main_arg1)) (V0 (Proc.devRef .tc main_arg4)) (V0 (Proc.devRef .tc main_arg2)) (V0 (Proc.devRef .tc main_arg3)) := by
  have hsplit : after (ops : List (HloOp τ sig (Elt F))) V0 = after w6 (after w5 (after w4 (after w3 (after w2 (after w1 (after w0 V0)))))) := by
    rw [ops_split]
    simp only [after_append]
  rw [hsplit]
  have e3_1 := w0_v3 V0
  have e7_1 := w0_v7 V0
  have e3_2 := (w1_keep_v3 (after w0 V0)).trans e3_1
  have e7_2 := (w1_keep_v7 (after w0 V0)).trans e7_1
  have e8_2 := w1_v8 (after w0 V0) (V0 (Proc.devRef .tc main_arg0)) (V0 (Proc.devRef .tc main_arg1)) (V0 (Proc.devRef .tc main_arg4))
  have e23_2 := w1_v23 (after w0 V0) (V0 (Proc.devRef .tc main_arg0)) (V0 (Proc.devRef .tc main_arg1)) (V0 (Proc.devRef .tc main_arg4)) e7_1
  have e3_3 := (w2_keep_v3 (after w1 (after w0 V0))).trans e3_2
  have e7_3 := (w2_keep_v7 (after w1 (after w0 V0))).trans e7_2
  have e8_3 := (w2_keep_v8 (after w1 (after w0 V0))).trans e8_2
  have e23_3 := (w2_keep_v23 (after w1 (after w0 V0))).trans e23_2
  have e38_3 := w2_v38 (after w1 (after w0 V0)) (V0 (Proc.devRef .tc main_arg0)) (V0 (Proc.devRef .tc main_arg1)) (V0 (Proc.devRef .tc main_arg4)) e7_2 e23_2
  have e3_4 := (w3_keep_v3 (after w2 (after w1 (after w0 V0)))).trans e3_3
  have e7_4 := (w3_keep_v7 (after w2 (after w1 (after w0 V0)))).trans e7_3
  have e8_4 := (w3_keep_v8 (after w2 (after w1 (after w0 V0)))).trans e8_3
  have e23_4 := (w3_keep_v23 (after w2 (after w1 (after w0 V0)))).trans e23_3
  have e38_4 := (w3_keep_v38 (after w2 (after w1 (after w0 V0)))).trans e38_3
  have e53_4 := w3_v53 (after w2 (after w1 (after w0 V0))) (V0 (Proc.devRef .tc main_arg0)) (V0 (Proc.devRef .tc main_arg1)) (V0 (Proc.devRef .tc main_arg4)) e7_3 e38_3
  have e3_5 := (w4_keep_v3 (after w3 (after w2 (after w1 (after w0 V0))))).trans e3_4
  have e7_5 := (w4_keep_v7 (after w3 (after w2 (after w1 (after w0 V0))))).trans e7_4
  have e8_5 := (w4_keep_v8 (after w3 (after w2 (after w1 (after w0 V0))))).trans e8_4
  have e23_5 := (w4_keep_v23 (after w3 (after w2 (after w1 (after w0 V0))))).trans e23_4
  have e38_5 := (w4_keep_v38 (after w3 (after w2 (after w1 (after w0 V0))))).trans e38_4
  have e53_5 := (w4_keep_v53 (after w3 (after w2 (after w1 (after w0 V0))))).trans e53_4
  have e68_5 := w4_v68 (after w3 (after w2 (after w1 (after w0 V0)))) (V0 (Proc.devRef .tc main_arg0)) (V0 (Proc.devRef .tc main_arg1)) (V0 (Proc.devRef .tc main_arg4)) e7_4 e53_4
  have e3_6 := (w5_keep_v3 (after w4 (after w3 (after w2 (after w1 (after w0 V0)))))).trans e3_5
  have e8_6 := (w5_keep_v8 (after w4 (after w3 (after w2 (after w1 (after w0 V0)))))).trans e8_5
  have e23_6 := (w5_keep_v23 (after w4 (after w3 (after w2 (after w1 (after w0 V0)))))).trans e23_5
  have e38_6 := (w5_keep_v38 (after w4 (after w3 (after w2 (after w1 (after w0 V0)))))).trans e38_5
  have e53_6 := (w5_keep_v53 (after w4 (after w3 (after w2 (after w1 (after w0 V0)))))).trans e53_5
  have e68_6 := (w5_keep_v68 (after w4 (after w3 (after w2 (after w1 (after w0 V0)))))).trans e68_5
  have e83_6 := w5_v83 (after w4 (after w3 (after w2 (after w1 (after w0 V0))))) (V0 (Proc.devRef .tc main_arg0)) (V0 (Proc.devRef .tc main_arg1)) (V0 (Proc.devRef .tc main_arg4)) e7_5 e68_5
  have a2_6 : (after w5 (after w4 (after w3 (after w2 (after w1 (after w0 V0)))))) (Proc.devRef .tc main_arg2) = V0 (Proc.devRef .tc main_arg2) :=
    (w5_keep_arg2 (after w4 (after w3 (after w2 (after w1 (after w0 V0)))))).trans ((w4_keep_arg2 (after w3 (after w2 (after w1 (after w0 V0))))).trans ((w3_keep_arg2 (after w2 (after w1 (after w0 V0)))).trans ((w2_keep_arg2 (after w1 (after w0 V0))).trans
      ((w1_keep_arg2 (after w0 V0)).trans (w0_keep_arg2 V0)))))
  have a3_6 : (after w5 (after w4 (after w3 (after w2 (after w1 (after w0 V0)))))) (Proc.devRef .tc main_arg3) = V0 (Proc.devRef .tc main_arg3) :=
    (w5_keep_arg3 (after w4 (after w3 (after w2 (after w1 (after w0 V0)))))).trans ((w4_keep_arg3 (after w3 (after w2 (after w1 (after w0 V0))))).trans ((w3_keep_arg3 (after w2 (after w1 (after w0 V0)))).trans ((w2_keep_arg3 (after w1 (after w0 V0))).trans
      ((w1_keep_arg3 (after w0 V0)).trans (w0_keep_arg3 V0)))))
  exact w6_v96 (after w5 (after w4 (after w3 (after w2 (after w1 (after w0 V0)))))) (V0 (Proc.devRef .tc main_arg0)) (V0 (Proc.devRef .tc main_arg1)) (V0 (Proc.devRef .tc main_arg4)) (V0 (Proc.devRef .tc main_arg2)) (V0 (Proc.devRef .tc main_arg3)) e3_6 e8_6 e23_6 e38_6 e53_6 e68_6 e83_6 a2_6 a3_6

/-! ## The run -/

/-- On every device, for any float values, from any memory with zero counters: every weakly fair execution of the
    plain program terminates with its result at the result stage of the five argument arrays, the arguments
    unchanged. -/
theorem run_sRes (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96)
        = sRes (m ((c.tc : Thread nD τ).loc main_arg0)) (m ((c.tc : Thread nD τ).loc main_arg1))
            (m ((c.tc : Thread nD τ).loc main_arg4)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v96).trans (after_v96 _),
      (h c main_arg0).trans (keep_arg0 _),
      (h c main_arg1).trans (keep_arg1 _),
      (h c main_arg2).trans (keep_arg2 _),
      (h c main_arg3).trans (keep_arg3 _),
      (h c main_arg4).trans (keep_arg4 _)⟩)
    (run_seq scopedRefs_eq scopedSems_eq defs main (fun _ => ops) main_eq (fun _ => ops_sub) m ρ)

end Cert.ReferenceIdeal.RefRun

end
-- ==== Proof.RefProj.lean ====
/-
  The plain program's projection and its 31 branching indicators, read at coordinates.

  The projection stage transposes X, multiplies Z by it and divides every entry by the pattern of 64: at
  `(p, b)` that is the quotient by 64 of `Σ_d Z(p, d) · X(b, d)`, the specification's `proj`. The indicator stage
  multiplies T by the projection, scales every entry by the pattern of 10⁹ and takes the hyperbolic tangent:
  at `(i, b)` that is `tanh (10⁹ · Σ_p T(i, p) · proj p b)`, the specification's indicator of node `i`.
-/
import proofs.«102738_j2078764171322_2_alg».proof.Proof.RefStages
import proofs.«102738_j2078764171322_2_alg».proof.Proof.Spec
import proofs.«102738_j2078764171322_2_alg».proof.Proof.LibPlainDot
import Idealize.ShloMosaic.Lib.IdealHost
import Idealize.ShloMosaic.Lib.ValueLayout

noncomputable section

open scoped BigOperators

namespace Cert.ReferenceIdeal.RefValue

open Cert.ReferenceIdeal Cert.ReferenceIdeal.Gen Idealize.ShloMosaic Idealize.ShloMosaic.ValueIdx

variable (X : FVec Ideal S65536x1024 .f32) (Z : FVec Ideal S64x1024 .f32) (T : FVec Ideal S31x64 .f32)

/-- The projection stage at `(p, b)` is the specification's projection of column `b`. -/
theorem proj_apply (p : Fin 64) (b : Fin 65536) :
    sv3 (F := Ideal) X Z T (ix2 p b) = TreeScore.proj Z X p b := by
  unfold sv3 TreeScore.proj
  refine (hostDivf_apply _ _ _).trans ?_
  refine congrArg₂ Ideal.div ?_ ?_
  · refine (LibPlainDot.dotGeneral_plain_apply _ rfl rfl rfl rfl rfl rfl none .single _ _ p b).trans ?_
    refine Finset.sum_congr rfl fun d _ => ?_
    refine congrArg (fun t => Z (ix2 p d) * t) ?_
    exact transpose_ix2_apply _ _ d b
  · exact broadcastInDim_scalar_apply _ _ _

/-- The indicator stage at `(i, b)` is the specification's indicator of internal node `i` in column `b`. -/
theorem th_apply (i : Fin 31) (b : Fin 65536) :
    sv7 (F := Ideal) X Z T (ix2 i b) = TreeScore.thRef T Z X b i.val := by
  unfold sv7 TreeScore.thRef
  rw [dif_pos i.isLt]
  refine congrArg Ideal.tanh ?_
  refine congrArg₂ (fun s t : EReal => s * t) ?_ ?_
  · exact broadcastInDim_scalar_apply _ _ _
  · refine (LibPlainDot.dotGeneral_plain_apply _ rfl rfl rfl rfl rfl rfl none .single _ _ i b).trans ?_
    refine Finset.sum_congr rfl fun p _ => ?_
    exact congrArg (fun t => T (ix2 i p) * t) (proj_apply X Z T p b)

end Cert.ReferenceIdeal.RefValue

end
-- ==== Proof.RefLayout.lean ====
/-
  Layout and contraction operations of the plain arrangement, read at coordinates.

  A matrix `[k, N]` given a unit middle axis `[k, 1, N]` reads its entry `(i, q)` at `(i, 0, q)`; an array
  `[k, 1, N]` repeated along its middle axis to `[k, c, N]` reads its entry `(i, 0, q)` at every `(i, j, q)`.
  A stack `[A, B, K]` of row vectors contracted on its last axis with the rows of a `[K, N]` matrix is, at
  `(n, c, b)`, the sum over `p` of `l (n, c, p) · r (p, b)`: exact arithmetic leaves no order of summation in it.
  The sum of an `[A, B, N]` array over its first axis is, at `(c, b)`, the initial value plus the sum over `n` of
  the entries `(n, c, b)`.
-/
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.RefLayout

open Idealize.ShloMosaic Idealize.ShloMosaic.ValueIdx

variable {α : Type}

/-- A `[k, N]` matrix placed on axes 0 and 2 of `[k, 1, N]` reads, at `(i, z, q)`, its entry `(i, q)`. -/
theorem bcast_kN_k1N_apply {k N : ℕ} (x : (⟨2, ![k, N]⟩ : Shape).Idx → α)
    (h : (⟨2, ![k, N]⟩ : Shape).BroadcastsInDim ⟨3, ![k, 1, N]⟩ ![0, 2]) (i : Fin k) (z : Fin 1) (q : Fin N) :
    broadcastInDim ⟨3, ![k, 1, N]⟩ ![0, 2] h x (ix3 i z q) = x (ix2 i q) := by
  refine broadcastInDim_apply _ h x (ix3 i z q) (ix2 i q) fun a => ?_
  match a with
  | ⟨0, _⟩ =>
    show i.val = if k = 1 then 0 else i.val
    split
    · have := i.isLt; omega
    · rfl
  | ⟨1, _⟩ =>
    show q.val = if N = 1 then 0 else q.val
    split
    · have := q.isLt; omega
    · rfl

/-- A `[k, 1, N]` array repeated along its middle axis to `[k, c, N]` reads, at `(i, j, q)`, its entry `(i, 0, q)`. -/
theorem bcast_k1N_kcN_apply {k c N : ℕ} (x : (⟨3, ![k, 1, N]⟩ : Shape).Idx → α)
    (h : (⟨3, ![k, 1, N]⟩ : Shape).BroadcastsInDim ⟨3, ![k, c, N]⟩ ![0, 1, 2]) (i : Fin k) (j : Fin c) (q : Fin N) :
    broadcastInDim ⟨3, ![k, c, N]⟩ ![0, 1, 2] h x (ix3 i j q) = x (ix3 i (0 : Fin 1) q) := by
  refine broadcastInDim_apply _ h x (ix3 i j q) (ix3 i (0 : Fin 1) q) fun a => ?_
  match a with
  | ⟨0, _⟩ =>
    show i.val = if k = 1 then 0 else i.val
    split
    · have := i.isLt; omega
    · rfl
  | ⟨1, _⟩ => rfl
  | ⟨2, _⟩ =>
    show q.val = if N = 1 then 0 else q.val
    split
    · have := q.isLt; omega
    · rfl

/-! ## One child's share of a level

A level's even children take `(prev · (1 + t)) · ½` and its odd children `(prev · (1 − t)) · ½`, the constants
spread over the level from scalars, and the result is given a unit middle axis. -/

/-- The even children's array at `(i, 0, q)`: `(prev (i, q) · (c₁ + t (i, q))) · c₂`, `c₁`, `c₂` the two scalars. -/
theorem child_add_apply {k N : ℕ} (prev t : FVec Ideal ⟨2, ![k, N]⟩ .f32) (c1 c2 : FVec Ideal ⟨0, ![]⟩ .f32)
    (h1 h2 : (⟨0, ![]⟩ : Shape).BroadcastsInDim ⟨2, ![k, N]⟩ ![])
    (h3 : (⟨2, ![k, N]⟩ : Shape).BroadcastsInDim ⟨3, ![k, 1, N]⟩ ![0, 2]) (i : Fin k) (z : Fin 1) (q : Fin N) :
    broadcastInDim ⟨3, ![k, 1, N]⟩ ![0, 2] h3
        (mulf (mulf prev (addf (broadcastInDim ⟨2, ![k, N]⟩ ![] h1 c1) t)) (broadcastInDim ⟨2, ![k, N]⟩ ![] h2 c2))
        (ix3 i z q)
      = (prev (ix2 i q) * (c1 ix0 + t (ix2 i q))) * c2 ix0 := by
  refine (bcast_kN_k1N_apply _ h3 i z q).trans ?_
  show (prev (ix2 i q) * (broadcastInDim ⟨2, ![k, N]⟩ ![] h1 c1 (ix2 i q) + t (ix2 i q)))
      * broadcastInDim ⟨2, ![k, N]⟩ ![] h2 c2 (ix2 i q) = _
  rw [broadcastInDim_scalar_apply, broadcastInDim_scalar_apply]

/-- The odd children's array at `(i, 0, q)`: `(prev (i, q) · (c₁ − t (i, q))) · c₂`. -/
theorem child_sub_apply {k N : ℕ} (prev t : FVec Ideal ⟨2, ![k, N]⟩ .f32) (c1 c2 : FVec Ideal ⟨0, ![]⟩ .f32)
    (h1 h2 : (⟨0, ![]⟩ : Shape).BroadcastsInDim ⟨2, ![k, N]⟩ ![])
    (h3 : (⟨2, ![k, N]⟩ : Shape).BroadcastsInDim ⟨3, ![k, 1, N]⟩ ![0, 2]) (i : Fin k) (z : Fin 1) (q : Fin N) :
    broadcastInDim ⟨3, ![k, 1, N]⟩ ![0, 2] h3
        (mulf (mulf prev (subf (broadcastInDim ⟨2, ![k, N]⟩ ![] h1 c1) t)) (broadcastInDim ⟨2, ![k, N]⟩ ![] h2 c2))
        (ix3 i z q)
      = (prev (ix2 i q) * (c1 ix0 - t (ix2 i q))) * c2 ix0 := by
  refine (bcast_kN_k1N_apply _ h3 i z q).trans ?_
  show (prev (ix2 i q) * (broadcastInDim ⟨2, ![k, N]⟩ ![] h1 c1 (ix2 i q) - t (ix2 i q)))
      * broadcastInDim ⟨2, ![k, N]⟩ ![] h2 c2 (ix2 i q) = _
  rw [broadcastInDim_scalar_apply, broadcastInDim_scalar_apply]

/-- The even children's array at `(i, 0, q)` from the values of its four ingredients there. -/
theorem child_add_eq {k N : ℕ} (prev t : FVec Ideal ⟨2, ![k, N]⟩ .f32) (c1 c2 : FVec Ideal ⟨0, ![]⟩ .f32)
    (h1 h2 : (⟨0, ![]⟩ : Shape).BroadcastsInDim ⟨2, ![k, N]⟩ ![])
    (h3 : (⟨2, ![k, N]⟩ : Shape).BroadcastsInDim ⟨3, ![k, 1, N]⟩ ![0, 2]) (i : Fin k) (q : Fin N) (a b c d : EReal)
    (hp : prev (ix2 i q) = a) (ht : t (ix2 i q) = b) (hc1 : c1 ix0 = c) (hc2 : c2 ix0 = d) :
    broadcastInDim ⟨3, ![k, 1, N]⟩ ![0, 2] h3
        (mulf (mulf prev (addf (broadcastInDim ⟨2, ![k, N]⟩ ![] h1 c1) t)) (broadcastInDim ⟨2, ![k, N]⟩ ![] h2 c2))
        (ix3 i (0 : Fin 1) q)
      = (a * (c + b)) * d := by
  rw [child_add_apply, hp, ht, hc1, hc2]

/-- The odd children's array at `(i, 0, q)` from the values of its four ingredients there. -/
theorem child_sub_eq {k N : ℕ} (prev t : FVec Ideal ⟨2, ![k, N]⟩ .f32) (c1 c2 : FVec Ideal ⟨0, ![]⟩ .f32)
    (h1 h2 : (⟨0, ![]⟩ : Shape).BroadcastsInDim ⟨2, ![k, N]⟩ ![])
    (h3 : (⟨2, ![k, N]⟩ : Shape).BroadcastsInDim ⟨3, ![k, 1, N]⟩ ![0, 2]) (i : Fin k) (q : Fin N) (a b c d : EReal)
    (hp : prev (ix2 i q) = a) (ht : t (ix2 i q) = b) (hc1 : c1 ix0 = c) (hc2 : c2 ix0 = d) :
    broadcastInDim ⟨3, ![k, 1, N]⟩ ![0, 2] h3
        (mulf (mulf prev (subf (broadcastInDim ⟨2, ![k, N]⟩ ![] h1 c1) t)) (broadcastInDim ⟨2, ![k, N]⟩ ![] h2 c2))
        (ix3 i (0 : Fin 1) q)
      = (a * (c - b)) * d := by
  rw [child_sub_apply, hp, ht, hc1, hc2]

/-! ## A stack of row vectors contracted with the rows of a matrix -/

section Dot
variable {A B K N : Nat} (D : DotDims ⟨3, ![A, B, K]⟩ ⟨2, ![K, N]⟩ ⟨3, ![A, B, N]⟩)

private theorem coord_congr (j : (⟨3, ![A, B, N]⟩ : Shape).Idx) (p p' : Nat)
    (hp : p < (⟨3, ![A, B, N]⟩ : Shape).rank) (hp' : p' < (⟨3, ![A, B, N]⟩ : Shape).rank) (h : p = p') :
    (j ⟨p, hp⟩).val = (j ⟨p', hp'⟩).val := by subst h; rfl

/-- The left operand's first coordinate is the result's first. -/
theorem lhs_ax0 (hln : D.lhsNonContracting = [0, 1]) (hlb : D.lhsBatch = [])
    (j : (⟨3, ![A, B, N]⟩ : Shape).Idx) (q : D.contr.Idx) : (D.lhsIdx j q 0).val = (j 0).val := by
  unfold DotDims.lhsIdx
  rw [dif_neg (by rw [hlb]; exact List.not_mem_nil), dif_pos (by rw [hln]; exact (by decide : (0 : Fin 3) ∈ [0, 1]))]
  simp only [Fin.val_cast]
  exact coord_congr j _ _ _ _ (by
    rw [hlb, hln]
    exact (by decide : ([] : List (Fin 3)).length + List.idxOf (0 : Fin 3) [0, 1] = ((0 : Fin 3) : ℕ)))

/-- The left operand's second coordinate is the result's second. -/
theorem lhs_ax1 (hln : D.lhsNonContracting = [0, 1]) (hlb : D.lhsBatch = [])
    (j : (⟨3, ![A, B, N]⟩ : Shape).Idx) (q : D.contr.Idx) : (D.lhsIdx j q 1).val = (j 1).val := by
  unfold DotDims.lhsIdx
  rw [dif_neg (by rw [hlb]; exact List.not_mem_nil), dif_pos (by rw [hln]; exact (by decide : (1 : Fin 3) ∈ [0, 1]))]
  simp only [Fin.val_cast]
  exact coord_congr j _ _ _ _ (by
    rw [hlb, hln]
    exact (by decide : ([] : List (Fin 3)).length + List.idxOf (1 : Fin 3) [0, 1] = ((1 : Fin 3) : ℕ)))

/-- The right operand's column is the result's last coordinate. -/
theorem rhs_ax1 (hln : D.lhsNonContracting = [0, 1]) (hrn : D.rhsNonContracting = [1]) (hlb : D.lhsBatch = [])
    (hrb : D.rhsBatch = []) (j : (⟨3, ![A, B, N]⟩ : Shape).Idx) (q : D.contr.Idx) :
    (D.rhsIdx j q 1).val = (j 2).val := by
  unfold DotDims.rhsIdx
  rw [dif_neg (by rw [hrb]; exact List.not_mem_nil), dif_pos (by rw [hrn]; exact (by decide : (1 : Fin 2) ∈ [1]))]
  simp only [Fin.val_cast]
  exact coord_congr j _ _ _ _ (by
    rw [hlb, hln, hrn]
    exact (by decide : ([] : List (Fin 3)).length + ([0, 1] : List (Fin 3)).length + List.idxOf (1 : Fin 2) [1]
      = ((2 : Fin 3) : ℕ)))

theorem contr_rank (hlc : D.lhsContracting = [2]) : D.contr.rank = 1 := by rw [D.rank_contr, hlc]; rfl

theorem contr_size (hlc : D.lhsContracting = [2]) :
    D.contr.size ⟨0, by rw [contr_rank D hlc]; exact Nat.one_pos⟩ = K := by
  rw [D.size_contr 0 (by rw [hlc]; exact Nat.one_pos)]
  simp [hlc]

/-- The host's product of an `[A, B, K]` stack by a `[K, N]` matrix, contracting the stack's last axis with the
    matrix's rows, at `(n, c, b)`: `∑ p, l (n, c, p) · r (p, b)`. -/
theorem dotGeneral_stack_apply {φ₁ φ₂ : FTy}
    (hlc : D.lhsContracting = [2]) (hrc : D.rhsContracting = [0]) (hln : D.lhsNonContracting = [0, 1])
    (hrn : D.rhsNonContracting = [1]) (hlb : D.lhsBatch = []) (hrb : D.rhsBatch = [])
    (prec : Option ContractPrecision) (sched : HostSchedule)
    (l : FVec Ideal ⟨3, ![A, B, K]⟩ φ₁) (r : FVec Ideal ⟨2, ![K, N]⟩ φ₂) (n : Fin A) (c : Fin B) (b : Fin N) :
    FloatOps.dotGeneral D prec sched l r (ix3 n c b) = ∑ p : Fin K, l (ix3 n c p) * r (ix2 p b) := by
  rw [Ideal.dotGeneral_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix3 n c b) ((contrEquiv1 D K (contr_rank D hlc) (contr_size D hlc)).symm k) = ix3 n c k :=
    funext fun a => Fin.ext (by
      match a with
      | ⟨0, _⟩ => exact lhs_ax0 D hln hlb _ _
      | ⟨1, _⟩ => exact lhs_ax1 D hln hlb _ _
      | ⟨2, _⟩ => exact (D.lhsIdx_val_of_single hlc _ _).trans hk)
  have er : D.rhsIdx (ix3 n c b) ((contrEquiv1 D K (contr_rank D hlc) (contr_size D hlc)).symm k) = ix2 k b :=
    funext fun a => Fin.ext (by
      match a with
      | ⟨0, _⟩ => exact (D.rhsIdx_val_of_single hrc _ _).trans hk
      | ⟨1, _⟩ => exact rhs_ax1 D hln hrn hlb hrb _ _)
  rw [el, er]

end Dot

/-! ## The sum over the first axis -/

/-- The host's sum of an `[A, B, N]` array over its first axis, at `(c, b)`: the initial value plus
    `∑ n, x (n, c, b)`. -/
theorem reduceAdd_ax0_apply {A B N : ℕ} {φ : FTy} {u : Shape} (x : FVec Ideal ⟨3, ![A, B, N]⟩ φ)
    (init : u.Idx → Ideal φ) (h : (⟨3, ![A, B, N]⟩ : Shape).ReducesTo [0] ⟨2, ![B, N]⟩)
    (hR : (⟨3, ![A, B, N]⟩ : Shape).Reduces [0] ⟨2, ![B, N]⟩) (hu : 0 < u.numel) (c : Fin B) (b : Fin N) :
    Host.reduceAdd x init h hu (ix2 c b) = init (Shape.Idx.first hu) + ∑ n : Fin A, x (ix3 n c b) := by
  rw [hostReduceAdd_apply, Ideal.hostReduceAdd_single h hR]
  refine congrArg (fun t => init (Shape.Idx.first hu) + t) ?_
  refine Finset.sum_congr rfl fun n _ => congrArg x ?_
  funext a
  refine Fin.ext ?_
  match a with
  | ⟨0, _⟩ => rfl
  | ⟨1, _⟩ => rfl
  | ⟨2, _⟩ => rfl

end Cert.RefLayout

end
-- ==== Proof.RefProbs.lean ====
/-
  The path probabilities of the plain arrangement, level by level, read at coordinates.

  Level 0 is the constant one. Level `l` is built from level `l − 1` and the rows `2^(l−1) − 1 …` of the indicators:
  the even children (prev · (1 + t)) · ½ and the odd children (prev · (1 − t)) · ½ are given a unit middle axis, joined
  along it and flattened, which interleaves them: row `j` of the new level comes from row `j / 2` of the old one.
  That is the specification's `step`, so each level's stage is the specification's level, and the six levels laid end
  to end are its 63 path probabilities.
-/
import proofs.«102738_j2078764171322_2_alg».proof.Proof.RefProj
import proofs.«102738_j2078764171322_2_alg».proof.Proof.RefLayout
import proofs.«102738_j2078764171322_2_alg».proof.Proof.TreeLayout

noncomputable section

open scoped BigOperators

namespace Cert.ReferenceIdeal.RefValue

open Cert.ReferenceIdeal Cert.ReferenceIdeal.Gen Idealize.ShloMosaic Idealize.ShloMosaic.ValueIdx

variable (X : FVec Ideal S65536x1024 .f32) (Z : FVec Ideal S64x1024 .f32) (T : FVec Ideal S31x64 .f32)

/-- Rows `o, o + 1, …` of the indicator stage, at `(i, q)`: the indicator of node `o + i`. -/
theorem slice_th_apply {m : ℕ} (o : ℕ)
    (h : (⟨2, ![31, 65536]⟩ : Shape).Slices ![o, 0] ⟨2, ![m, 65536]⟩) (i : Fin m) (q : Fin 65536) :
    extractStridedSlice ⟨2, ![m, 65536]⟩ ![o, 0] (sv7 (F := Ideal) X Z T) h (ix2 i q)
      = TreeScore.thRef T Z X q (o + i.val) :=
  (slice2_axis0_eq o _ h i q).trans (th_apply X Z T _ q)

theorem slice0_apply (q : Fin 65536) (i : Fin 1) :
    sv9 (F := Ideal) X Z T (ix2 i q) = TreeScore.thRef T Z X q (0 + i.val) := by
  unfold sv9
  exact slice_th_apply X Z T 0 _ i q

theorem slice1_apply (q : Fin 65536) (i : Fin 2) :
    sv24 (F := Ideal) X Z T (ix2 i q) = TreeScore.thRef T Z X q (1 + i.val) := by
  unfold sv24
  exact slice_th_apply X Z T 1 _ i q

theorem slice2_apply (q : Fin 65536) (i : Fin 4) :
    sv39 (F := Ideal) X Z T (ix2 i q) = TreeScore.thRef T Z X q (3 + i.val) := by
  unfold sv39
  exact slice_th_apply X Z T 3 _ i q

theorem slice3_apply (q : Fin 65536) (i : Fin 8) :
    sv54 (F := Ideal) X Z T (ix2 i q) = TreeScore.thRef T Z X q (7 + i.val) := by
  unfold sv54
  exact slice_th_apply X Z T 7 _ i q

theorem slice4_apply (q : Fin 65536) (i : Fin 16) :
    sv69 (F := Ideal) X Z T (ix2 i q) = TreeScore.thRef T Z X q (15 + i.val) := by
  unfold sv69
  exact slice_th_apply X Z T 15 _ i q

/-- Level 0: the root's probability is one. -/
theorem level0_apply (q : Fin 65536) (i : Fin 1) :
    sv8 (F := Ideal) X Z T (ix2 i q) = TreeScore.P0 i.val := by
  unfold sv8 TreeScore.P0
  exact broadcastInDim_scalar_apply _ _ _

/-- Level 1 of the path probabilities in column `q`. -/
theorem level1_apply (q : Fin 65536) (p : Fin 2) :
    sv23 (F := Ideal) X Z T (ix2 p q) = TreeScore.P1 (TreeScore.thRef T Z X q) p.val := by
  unfold sv23 TreeScore.P1
  refine TreeLayout.level_apply (k := 1) (N := 65536) (k2 := 2) rfl _ _ _ _ q (TreeScore.P0) (fun i => TreeScore.thRef T Z X q (0 + i)) ?_ ?_ p
  · intro i
    exact RefLayout.child_add_eq _ _ _ _ _ _ _ i q _ _ _ _ (level0_apply X Z T q i) (slice0_apply X Z T q i) rfl rfl
  · intro i
    exact RefLayout.child_sub_eq _ _ _ _ _ _ _ i q _ _ _ _ (level0_apply X Z T q i) (slice0_apply X Z T q i) rfl rfl

/-- Level 2 of the path probabilities in column `q`. -/
theorem level2_apply (q : Fin 65536) (p : Fin 4) :
    sv38 (F := Ideal) X Z T (ix2 p q) = TreeScore.P2 (TreeScore.thRef T Z X q) p.val := by
  unfold sv38 TreeScore.P2
  refine TreeLayout.level_apply (k := 2) (N := 65536) (k2 := 4) rfl _ _ _ _ q (TreeScore.P1 (TreeScore.thRef T Z X q)) (fun i => TreeScore.thRef T Z X q (1 + i)) ?_ ?_ p
  · intro i
    exact RefLayout.child_add_eq _ _ _ _ _ _ _ i q _ _ _ _ (level1_apply X Z T q i) (slice1_apply X Z T q i) rfl rfl
  · intro i
    exact RefLayout.child_sub_eq _ _ _ _ _ _ _ i q _ _ _ _ (level1_apply X Z T q i) (slice1_apply X Z T q i) rfl rfl

/-- Level 3 of the path probabilities in column `q`. -/
theorem level3_apply (q : Fin 65536) (p : Fin 8) :
    sv53 (F := Ideal) X Z T (ix2 p q) = TreeScore.P3 (TreeScore.thRef T Z X q) p.val := by
  unfold sv53 TreeScore.P3
  refine TreeLayout.level_apply (k := 4) (N := 65536) (k2 := 8) rfl _ _ _ _ q (TreeScore.P2 (TreeScore.thRef T Z X q)) (fun i => TreeScore.thRef T Z X q (3 + i)) ?_ ?_ p
  · intro i
    exact RefLayout.child_add_eq _ _ _ _ _ _ _ i q _ _ _ _ (level2_apply X Z T q i) (slice2_apply X Z T q i) rfl rfl
  · intro i
    exact RefLayout.child_sub_eq _ _ _ _ _ _ _ i q _ _ _ _ (level2_apply X Z T q i) (slice2_apply X Z T q i) rfl rfl

/-- Level 4 of the path probabilities in column `q`. -/
theorem level4_apply (q : Fin 65536) (p : Fin 16) :
    sv68 (F := Ideal) X Z T (ix2 p q) = TreeScore.P4 (TreeScore.thRef T Z X q) p.val := by
  unfold sv68 TreeScore.P4
  refine TreeLayout.level_apply (k := 8) (N := 65536) (k2 := 16) rfl _ _ _ _ q (TreeScore.P3 (TreeScore.thRef T Z X q)) (fun i => TreeScore.thRef T Z X q (7 + i)) ?_ ?_ p
  · intro i
    exact RefLayout.child_add_eq _ _ _ _ _ _ _ i q _ _ _ _ (level3_apply X Z T q i) (slice3_apply X Z T q i) rfl rfl
  · intro i
    exact RefLayout.child_sub_eq _ _ _ _ _ _ _ i q _ _ _ _ (level3_apply X Z T q i) (slice3_apply X Z T q i) rfl rfl

/-- Level 5 of the path probabilities in column `q`. -/
theorem level5_apply (q : Fin 65536) (p : Fin 32) :
    sL5 (F := Ideal) X Z T (ix2 p q) = TreeScore.P5 (TreeScore.thRef T Z X q) p.val := by
  unfold sL5 TreeScore.P5
  refine TreeLayout.level_apply (k := 16) (N := 65536) (k2 := 32) rfl _ _ _ _ q (TreeScore.P4 (TreeScore.thRef T Z X q)) (fun i => TreeScore.thRef T Z X q (15 + i)) ?_ ?_ p
  · intro i
    exact RefLayout.child_add_eq _ _ _ _ _ _ _ i q _ _ _ _ (level4_apply X Z T q i) (slice4_apply X Z T q i) rfl rfl
  · intro i
    exact RefLayout.child_sub_eq _ _ _ _ _ _ _ i q _ _ _ _ (level4_apply X Z T q i) (slice4_apply X Z T q i) rfl rfl

/-- The six levels laid end to end, at `(r, q)`: the path probability of node `r` in column `q`. -/
theorem probs_apply (r : Fin 63) (q : Fin 65536) :
    concatenate (α := EReal) S63x65536 0 [⟨S1x65536, sv8 (F := Ideal) X Z T⟩, ⟨S2x65536, sv23 (F := Ideal) X Z T⟩,
        ⟨S4x65536, sv38 (F := Ideal) X Z T⟩, ⟨S8x65536, sv53 (F := Ideal) X Z T⟩,
        ⟨S16x65536, sv68 (F := Ideal) X Z T⟩, ⟨S32x65536, sL5 (F := Ideal) X Z T⟩]
        concatenates_S1x65536_S2x65536_S4x65536_S8x65536_S16x65536_S32x65536_S63x65536_d0 (ix2 r q)
      = TreeScore.probs (TreeScore.thRef T Z X q) r.val := by
  unfold TreeScore.probs
  exact TreeLayout.concat6_apply _ _ _ _ _ _ _ q _ _ _ _ _ _ (level0_apply X Z T q) (level1_apply X Z T q)
    (level2_apply X Z T q) (level3_apply X Z T q) (level4_apply X Z T q) (level5_apply X Z T q) r

end Cert.ReferenceIdeal.RefValue

end
-- ==== Proof.RefScore.lean ====
/-
  One node's two linear scores in the plain arrangement, read at coordinates.

  W and V, `[630, 64]`, are viewed as `[63, 10, 64]`: entry `(n, c, p)` is row `10 n + c`, the weights of node `n` for
  class `c`. Contracting the last axis with the projection's rows gives, at `(n, c, b)`, the node's linear score
  `Σ_p M(10 n + c, p) · proj p b`. The gate score is multiplied by the pattern of one, which changes nothing, before
  its hyperbolic tangent.
-/
import proofs.«102738_j2078764171322_2_alg».proof.Proof.RefProj
import proofs.«102738_j2078764171322_2_alg».proof.Proof.RefLayout
import proofs.«102738_j2078764171322_2_alg».proof.Proof.LibOuterSumLayout

noncomputable section

open scoped BigOperators

namespace Cert.ReferenceIdeal.RefValue

open Cert.ReferenceIdeal Cert.ReferenceIdeal.Gen Idealize.ShloMosaic Idealize.ShloMosaic.ValueIdx

variable (X : FVec Ideal S65536x1024 .f32) (Z : FVec Ideal S64x1024 .f32) (T : FVec Ideal S31x64 .f32)

/-- A weight matrix viewed by node and class and contracted with the projection, at `(n, c, b)`: node `n`'s linear
    score for class `c` in column `b`. -/
theorem lin_apply (M : FVec Ideal S630x64 .f32) (n : Fin 63) (c : Fin 10) (b : Fin 65536) :
    Host.dotGeneral (F := Ideal) dot_S63x10x64_S64x65536_S63x10x65536_2_0_01_1_n_n none
        (shapeCast S63x10x64 M shapeCasts_S630x64_S63x10x64) (sv3 (F := Ideal) X Z T) (ix3 n c b)
      = ∑ p : Fin 64, M (ix2 (TreeScore.node n c) p) * TreeScore.proj Z X p b := by
  refine (RefLayout.dotGeneral_stack_apply _ rfl rfl rfl rfl rfl rfl none .single _ _ n c b).trans ?_
  refine Finset.sum_congr rfl fun p _ => ?_
  refine congrArg₂ (fun s t : EReal => s * t) ?_ (proj_apply X Z T p b)
  exact LibOuterSumLayout.shapeCast_nc_abc_apply M _ n c p (TreeScore.node n c) rfl

/-- The gate stage at `(n, c, b)`: the hyperbolic tangent of node `n`'s gate score for class `c`; the factor one
    in front of the score is dropped. -/
theorem gate_apply (M : FVec Ideal S630x64 .f32) (n : Fin 63) (c : Fin 10) (b : Fin 65536) :
    Host.tanh (F := Ideal) (mulf (broadcastInDim S63x10x65536 ![] bcast_S_S63x10x65536 (constant (F := Ideal) S_ .f32 0x3F800000#32))
        (Host.dotGeneral dot_S63x10x64_S64x65536_S63x10x65536_2_0_01_1_n_n none
          (shapeCast S63x10x64 M shapeCasts_S630x64_S63x10x64) (sv3 (F := Ideal) X Z T))) (ix3 n c b)
      = Ideal.tanh (∑ p : Fin 64, M (ix2 (TreeScore.node n c) p) * TreeScore.proj Z X p b) := by
  refine congrArg Ideal.tanh ?_
  refine (congrArg₂ (fun s t : EReal => s * t) (broadcastInDim_scalar_apply _ _ _) (lin_apply X Z T M n c b)).trans ?_
  show Ideal.ofBits .f32 0x3F800000#32 * _ = _
  rw [Ideal.ofBits_one_f32, one_mul]

end Cert.ReferenceIdeal.RefValue

end
-- ==== Proof.RefResult.lean ====
/-
  The plain program's result is the specification's score array.

  Its last stage sums, over the 63 nodes, the product of three arrays `[63, 10, 65536]`: the path probabilities
  repeated over the classes, the nodes' linear scores, and the hyperbolic tangents of their gate scores. Read at
  `(c, b)`, the sum starts from the pattern of zero, which is the number zero, and its term for node `n` is
  `(prob n · Σ_p W(10 n + c, p) · proj p b) · tanh (Σ_p V(10 n + c, p) · proj p b)`: the specification's score of class
  `c` in column `b`.
-/
import proofs.«102738_j2078764171322_2_alg».proof.Proof.RefProbs
import proofs.«102738_j2078764171322_2_alg».proof.Proof.RefScore

noncomputable section

open scoped BigOperators

namespace Cert.ReferenceIdeal.RefValue

open Cert.ReferenceIdeal Cert.ReferenceIdeal.Gen Idealize.ShloMosaic Idealize.ShloMosaic.ValueIdx

variable (X : FVec Ideal S65536x1024 .f32) (Z : FVec Ideal S64x1024 .f32) (T : FVec Ideal S31x64 .f32)

/-- The result stage is the specification's score array of the five arguments. -/
theorem sRes_eq (W V : FVec Ideal S630x64 .f32) :
    sRes (F := Ideal) X Z T W V = TreeScore.G X Z W V T := by
  funext j
  obtain ⟨c, b, rfl⟩ : ∃ (c : Fin 10) (b : Fin 65536), j = ix2 c b := ⟨j 0, j 1, eq_ix2 j⟩
  unfold sRes
  refine (RefLayout.reduceAdd_ax0_apply _ _ _ (by decide) _ c b).trans ?_
  refine (congrArg (fun t : EReal => t + _) Ideal.ofBits_zero_f32).trans ?_
  refine (zero_add _).trans ?_
  unfold TreeScore.G TreeScore.score
  refine Finset.sum_congr rfl fun n _ => ?_
  refine congrArg₂ (fun s t : EReal => s * t) (congrArg₂ (fun s t : EReal => s * t) ?_ ?_) ?_
  · refine (RefLayout.bcast_k1N_kcN_apply _ _ n c b).trans ?_
    refine (RefLayout.bcast_kN_k1N_apply _ _ n (0 : Fin 1) b).trans ?_
    exact probs_apply X Z T n b
  · exact lin_apply X Z T W n c b
  · exact gate_apply X Z T V n c b

end Cert.ReferenceIdeal.RefValue

end
-- ==== Proof.RefValue2.lean ====
/-
  Every run of the plain program ends with the specification's score array.

  The program's run ends with its result at the result stage of the five argument arrays, and the result stage is the
  specification's score array.
-/
import proofs.«102738_j2078764171322_2_alg».proof.Proof.RefRun
import proofs.«102738_j2078764171322_2_alg».proof.Proof.RefResult

noncomputable section

namespace Cert.ReferenceIdeal.RefValue2

open Cert.ReferenceIdeal Cert.ReferenceIdeal.Gen Cert.ReferenceIdeal.RefValue Idealize.ShloMosaic Idealize.ShloMosaic.ValueIdx
  Idealize.ShloMosaic.StableHlo Idealize.ShloMosaic.TcCoe Idealize.SL.Sem

/-- Every weakly fair execution of the plain program ends with its result the specification's score array of the
    five argument arrays, the arguments unchanged. -/
theorem run_G (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v96)
          = Cert.TreeScore.G (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run Cert.ReferenceIdeal.defs _ _).mono
    (fun _ h c => ⟨(h c).1.trans (sRes_eq _ _ _ _ _), (h c).2⟩)
    (Cert.ReferenceIdeal.RefRun.run_sRes (F := Ideal) m ρ)

end Cert.ReferenceIdeal.RefValue2

end
-- ==== Proof.lean ====
/-
  A soft decision tree of depth 5 scored over 65536 data columns: the blocked program against the plain one.

  Both programs compute, for every class c and column b, the sum over the 63 tree nodes of
  (path probability) · (linear score) · tanh (gate score), the path probabilities built level by level from the
  indicators tanh (10⁹ · logit) of the 31 internal nodes (Proof/Spec.lean states it as one function `G` of the five
  argument arrays). They differ in arrangement only:
  * the blocked program works on 64 blocks of 1024 columns, each grid point writing its [10, 1024] block of the
    result, and lays the class's 63 rows side by side in class-major copies of W and V;
  * it forms the indicator logits from the precomputed product T·Z, as ((T·Z)·xᵀ)·(1/64), where the plain program
    forms T·((Z·xᵀ)/64). Over the reals these agree by distributivity and an exchange of two finite sums; on the
    extended reals that needs every entry of X, Z and T to be a real number, which is what the precondition gives;
  * a quotient by 64 against a product with 1/64, equal on all extended reals; changes of float format, the identity.

  The blocked program's run ends at `G` (Proof/KernelFinal.lean, over the block value of Proof/KernelBlock.lean), the
  plain program's run ends at `G` (Proof/RefRun.lean and Proof/RefValue2.lean); the frames are the runs with the results dropped, and the
  blocked program is read at the exact instance as printed (no rewrite to preserve).
-/
import proofs.«102738_j2078764171322_2_alg».proof.Defs
import proofs.«102738_j2078764171322_2_alg».proof.Proof.Gen.Kernel
import proofs.«102738_j2078764171322_2_alg».proof.Proof.Gen.Kernel.Frame
import proofs.«102738_j2078764171322_2_alg».proof.Proof.Gen.KernelIdeal
import proofs.«102738_j2078764171322_2_alg».proof.Proof.Gen.KernelIdeal.Frame
import proofs.«102738_j2078764171322_2_alg».proof.Proof.Gen.ReferenceIdeal
import proofs.«102738_j2078764171322_2_alg».proof.Proof.Gen.Pre_finite_inputs
import proofs.«102738_j2078764171322_2_alg».proof.Proof.KernelFinal
import proofs.«102738_j2078764171322_2_alg».proof.Proof.RefValue2

noncomputable section

namespace Cert.Proof

open Idealize.ShloMosaic Idealize.SL.Sem

/-- The blocked program as printed runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its reading at the exact instance. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The plain program's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue2.run_G m ρ)

/-- From memories agreeing on the five arguments, both runs end with the result at the one function `G` of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.FinalValue.run_G m ρ hpre, ?_⟩
  refine (θ_run Cert.ReferenceIdeal.defs _ _).mono (fun _ h c => ⟨(h c).1.trans ?_, (h c).2⟩)
    (Cert.ReferenceIdeal.RefValue2.run_G m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
